-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.sign_bit.Statement Cert.KernelIdeal.S64x4096 .f32
  ∧ IdealRules.sign_bit.Statement Cert.KernelIdeal.S64x4096 .f32
  ∧ IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S4096x784 : Shape := ⟨2, ![4096, 784]⟩
abbrev S4096 : Shape := ⟨1, ![4096]⟩
abbrev S4096x4096 : Shape := ⟨2, ![4096, 4096]⟩
abbrev S10x4096 : Shape := ⟨2, ![10, 4096]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S4096x784 : S_.BroadcastsInDim S4096x784 (![] : Fin 0 → Fin S4096x784.rank)
  reducesTo_S4096x784_S_d0_1 : S4096x784.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S10x4096 : S_.BroadcastsInDim S10x4096 (![] : Fin 0 → Fin S10x4096.rank)
  reducesTo_S10x4096_S_d0_1 : S10x4096.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S4096 .f32) (main_arg12 : FVec F S4096 .f32) (main_arg13 : FVec F S10x4096 .f32) (main_arg14 : FVec F S10 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S10x4096 .f32 := Host.absf main_arg13
  let main_cst_24 : FVec F S_ .f32 := constant S_ .f32 0x7F800000#32
  let main_v65 : FVec F S10x4096 .f32 := broadcastInDim S10x4096 ![] bcast_S_S10x4096 main_cst_24
  let main_v66 : IVec S10x4096 1 := cmpf .olt main_v64 main_v65
  let main_c_25 : IVec S_ 1 := constantI S_ 1 1#1
  let main_v67 : IVec S_ 1 := (fun x v => Host.reduce IntOp.andi x v reducesTo_S10x4096_S_d0_1 h_S_) main_v66 main_c_25
  fn_part4 (F := F) main_arg14 main_v63 main_v67

def fn_part2 {F : FTy → Type} [FloatOps F] (main_arg7 : FVec F S4096 .f32) (main_arg8 : FVec F S4096 .f32) (main_arg9 : FVec F S4096x4096 .f32) (main_arg10 : FVec F S4096 .f32) (main_arg11 : FVec F S4096 .f32) (main_arg12 : FVec F S4096 .f32) (main_arg13 : FVec F S10x4096 .f32) (main_arg14 : FVec F S10 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_v48 main_v49 main_v50

def fn_part1 {F : FTy → Type} [FloatOps F] (main_arg4 : FVec F S4096 .f32) (main_arg5 : FVec F S4096x4096 .f32) (main_arg6 : FVec F S4096 .f32) (main_arg7 : FVec F S4096 .f32) (main_arg8 : FVec F S4096 .f32) (main_arg9 : FVec F S4096x4096 .f32) (main_arg10 : FVec F S4096 .f32) (main_arg11 : FVec F S4096 .f32) (main_arg12 : FVec F S4096 .f32) (main_arg13 : FVec F S10x4096 .f32) (main_arg14 : FVec F S10 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x784 .f32) (main_arg1 : FVec F S4096x784 .f32) (main_arg2 : FVec F S4096 .f32) (main_arg3 : FVec F S4096 .f32) (main_arg4 : FVec F S4096 .f32) (main_arg5 : FVec F S4096x4096 .f32) (main_arg6 : FVec F S4096 .f32) (main_arg7 : FVec F S4096 .f32) (main_arg8 : FVec F S4096 .f32) (main_arg9 : FVec F S4096x4096 .f32) (main_arg10 : FVec F S4096 .f32) (main_arg11 : FVec F S4096 .f32) (main_arg12 : FVec F S4096 .f32) (main_arg13 : FVec F S10x4096 .f32) (main_arg14 : FVec F S10 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S4096x784 .f32 := Host.absf main_arg1
  let main_cst_0 : FVec F S_ .f32 := constant S_ .f32 0x7F800000#32
  let main_v5 : FVec F S4096x784 .f32 := broadcastInDim S4096x784 ![] bcast_S_S4096x784 main_cst_0
  let main_v6 : IVec S4096x784 1 := cmpf .olt main_v4 main_v5
  let main_c_1 : IVec S_ 1 := constantI S_ 1 1#1
  let main_v7 : IVec S_ 1 := (fun x v => Host.reduce IntOp.andi x v reducesTo_S4096x784_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x784 : Shape := ⟨2, ![16384, 784]⟩
abbrev S4096x784 : Shape := ⟨2, ![4096, 784]⟩
abbrev S4096 : Shape := ⟨1, ![4096]⟩
abbrev S4096x4096 : Shape := ⟨2, ![4096, 4096]⟩
abbrev S10x4096 : Shape := ⟨2, ![10, 4096]⟩
abbrev S10 : Shape := ⟨1, ![10]⟩
abbrev S784x4096 : Shape := ⟨2, ![784, 4096]⟩
abbrev S4096x10 : Shape := ⟨2, ![4096, 10]⟩
abbrev S1x4096 : Shape := ⟨2, ![1, 4096]⟩
abbrev S1x10 : Shape := ⟨2, ![1, 10]⟩
abbrev S16384x4096 : Shape := ⟨2, ![16384, 4096]⟩
abbrev S1x8192 : Shape := ⟨2, ![1, 8192]⟩
abbrev S512x784 : Shape := ⟨2, ![512, 784]⟩
abbrev S512x4096 : Shape := ⟨2, ![512, 4096]⟩
abbrev S_ : Shape := ⟨0, ![]⟩
abbrev S64x4096 : Shape := ⟨2, ![64, 4096]⟩
abbrev S16384x10 : Shape := ⟨2, ![16384, 10]⟩
abbrev S512x10 : Shape := ⟨2, ![512, 10]⟩
abbrev S512 : Shape := ⟨1, ![512]⟩
abbrev S512x1 : Shape := ⟨2, ![512, 1]⟩

abbrev nBuf : Space → Nat
  | .hbm => 111
  | .vmem => 42
  | .smem => 0
  | _ => 0

abbrev bufTy : (tb : Table) → Fin (tcTables nBuf tb) → BufTy
  | .hbm, ⟨0, _⟩ => ⟨S16384x784, .f32⟩
  | .hbm, ⟨1, _⟩ => ⟨S4096x784, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S10x4096, .f32⟩
  | .hbm, ⟨14, _⟩ => ⟨S10, .f32⟩
  | .hbm, ⟨15, _⟩ => ⟨S4096x784, .f32⟩
  | .hbm, ⟨16, _⟩ => ⟨S4096x784, .bf16⟩
  | .hbm, ⟨17, _⟩ => ⟨S784x4096, .bf16⟩
  | .hbm, ⟨18, _⟩ => ⟨S4096x4096, .f32⟩
  | .hbm, ⟨19, _⟩ => ⟨S4096x4096, .bf16⟩
  | .hbm, ⟨20, _⟩ => ⟨S4096x4096, .bf16⟩
  | .hbm, ⟨21, _⟩ => ⟨S4096x4096, .f32⟩
  | .hbm, ⟨22, _⟩ => ⟨S4096x4096, .bf16⟩
  | .hbm, ⟨23, _⟩ => ⟨S4096x4096, .bf16⟩
  | .hbm, ⟨24, _⟩ => ⟨S10x4096, .f32⟩
  | .hbm, ⟨25, _⟩ => ⟨S10x4096, .bf16⟩
  | .hbm, ⟨26, _⟩ => ⟨S4096x10, .bf16⟩
  | .hbm, ⟨27, _⟩ => ⟨S16384x784, .bf16⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x10, .f32⟩
  | .hbm, ⟨32, _⟩ => ⟨S16384x4096, .f32⟩
  | .hbm, ⟨33, _⟩ => ⟨S1x8192, .f32⟩
  | .hbm, ⟨34, _⟩ => ⟨S1x8192, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S16384x4096, .f32⟩
  | .hbm, ⟨59, _⟩ => ⟨S1x8192, .f32⟩
  | .hbm, ⟨60, _⟩ => ⟨S1x8192, .f32⟩
  | .hbm, ⟨61, _⟩ => ⟨S1x4096, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S_, .f32⟩
  | .hbm, ⟨68, _⟩ => ⟨S1x4096, .f32⟩
  | .hbm, ⟨69, _⟩ => ⟨S1x4096, .f32⟩
  | .hbm, ⟨70, _⟩ => ⟨S_, .f32⟩
  | .hbm, ⟨71, _⟩ => ⟨S1x4096, .f32⟩
  | .hbm, ⟨72, _⟩ => ⟨S1x4096, .f32⟩
  | .hbm, ⟨73, _⟩ => ⟨S1x4096, .f32⟩
  | .hbm, ⟨74, _⟩ => ⟨S1x4096, .f32⟩
  | .hbm, ⟨75, _⟩ => ⟨S1x4096, .f32⟩
  | .hbm, ⟨76, _⟩ => ⟨S_, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S1x4096, .f32⟩
  | .hbm, ⟨83, _⟩ => ⟨S1x4096, .f32⟩
  | .hbm, ⟨84, _⟩ => ⟨S16384x4096, .f32⟩
  | .hbm, ⟨85, _⟩ => ⟨S1x8192, .f32⟩
  | .hbm, ⟨86, _⟩ => ⟨S1x8192, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S1x4096, .f32⟩
  | .hbm, ⟨92, _⟩ => ⟨S1x4096, .f32⟩
  | .hbm, ⟨93, _⟩ => ⟨S_, .f32⟩
  | .hbm, ⟨94, _⟩ => ⟨S1x4096, .f32⟩
  | .hbm, ⟨95, _⟩ => ⟨S1x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S1x4096, .f32⟩
  | .hbm, ⟨100, _⟩ => ⟨S1x4096, .f32⟩
  | .hbm, ⟨101, _⟩ => ⟨S1x4096, .f32⟩
  | .hbm, ⟨102, _⟩ => ⟨S_, .f32⟩
  | .hbm, ⟨103, _⟩ => ⟨S1x4096, .f32⟩
  | .hbm, ⟨104, _⟩ => ⟨S1x4096, .f32⟩
  | .hbm, ⟨105, _⟩ => ⟨S1x4096, .f32⟩
  | .hbm, ⟨106, _⟩ => ⟨S1x4096, .f32⟩
  | .hbm, ⟨107, _⟩ => ⟨S1x4096, .f32⟩
  | .hbm, ⟨108, _⟩ => ⟨S1x4096, .f32⟩
  | .hbm, ⟨109, _⟩ => ⟨S1x4096, .f32⟩
  | .hbm, ⟨110, _⟩ => ⟨S16384x10, .f32⟩
  | .local _ .vmem, ⟨0, _⟩ => ⟨S512x784, .bf16⟩
  | .local _ .vmem, ⟨1, _⟩ => ⟨S512x784, .bf16⟩
  | .local _ .vmem, ⟨2, _⟩ => ⟨S784x4096, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S64x4096, .f32⟩
  | .local _ .vmem, ⟨11, _⟩ => ⟨S64x4096, .f32⟩
  | .local _ .vmem, ⟨12, _⟩ => ⟨S1x4096, .f32⟩
  | .local _ .vmem, ⟨13, _⟩ => ⟨S1x4096, .f32⟩
  | .local _ .vmem, ⟨14, _⟩ => ⟨S4096x4096, .bf16⟩
  | .local _ .vmem, ⟨15, _⟩ => ⟨S1x4096, .f32⟩
  | .local _ .vmem, ⟨16, _⟩ => ⟨S64x4096, .f32⟩
  | .local _ .vmem, ⟨17, _⟩ => ⟨S64x4096, .f32⟩
  | .local _ .vmem, ⟨18, _⟩ => ⟨S1x4096, .f32⟩
  | .local _ .vmem, ⟨19, _⟩ => ⟨S1x4096, .f32⟩
  | .local _ .vmem, ⟨20, _⟩ => ⟨S1x4096, .f32⟩
  | .local _ .vmem, ⟨21, _⟩ => ⟨S1x4096, .f32⟩
  | .local _ .vmem, ⟨22, _⟩ => ⟨S64x4096, .f32⟩
  | .local _ .vmem, ⟨23, _⟩ => ⟨S64x4096, .f32⟩
  | .local _ .vmem, ⟨24, _⟩ => ⟨S1x4096, .f32⟩
  | .local _ .vmem, ⟨25, _⟩ => ⟨S1x4096, .f32⟩
  | .local _ .vmem, ⟨26, _⟩ => ⟨S4096x4096, .bf16⟩
  | .local _ .vmem, ⟨27, _⟩ => ⟨S1x4096, .f32⟩
  | .local _ .vmem, ⟨28, _⟩ => ⟨S64x4096, .f32⟩
  | .local _ .vmem, ⟨29, _⟩ => ⟨S64x4096, .f32⟩
  | .local _ .vmem, ⟨30, _⟩ => ⟨S1x4096, .f32⟩
  | .local _ .vmem, ⟨31, _⟩ => ⟨S1x4096, .f32⟩
  | .local _ .vmem, ⟨32, _⟩ => ⟨S1x4096, .f32⟩
  | .local _ .vmem, ⟨33, _⟩ => ⟨S1x4096, .f32⟩
  | .local _ .vmem, ⟨34, _⟩ => ⟨S512x4096, .f32⟩
  | .local _ .vmem, ⟨35, _⟩ => ⟨S512x4096, .f32⟩
  | .local _ .vmem, ⟨36, _⟩ => ⟨S1x4096, .f32⟩
  | .local _ .vmem, ⟨37, _⟩ => ⟨S1x4096, .f32⟩
  | .local _ .vmem, ⟨38, _⟩ => ⟨S4096x10, .bf16⟩
  | .local _ .vmem, ⟨39, _⟩ => ⟨S1x10, .f32⟩
  | .local _ .vmem, ⟨40, _⟩ => ⟨S512x10, .f32⟩
  | .local _ .vmem, ⟨41, _⟩ => ⟨S512x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_2 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_4 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59_0 : Ref sig .tc := ⟨.hbm, 84, rfl⟩
abbrev main_v59_1 : Ref sig .tc := ⟨.hbm, 85, rfl⟩
abbrev main_v59_2 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_5 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_7 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41

abbrev nD : Nat := 1
abbrev τ : Topo := Topo.v7x

variable {F : FTy → Type} [BitOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S784x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 128], ![false, false]⟩

def cc1_transform_0 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![2, 128], ![false, false]⟩

def cc2_transform_0 (i : grid2.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S4096x4096 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S64x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x10 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bitsLt_bf16_f32 : FTy.bits .bf16 < FTy.bits .f32
  transposes_S4096x784_S784x4096_1_0 : S4096x784.Transposes [1, 0] S784x4096
  transposes_S4096x4096_S4096x4096_1_0 : S4096x4096.Transposes [1, 0] S4096x4096
  transposes_S10x4096_S4096x10_1_0 : S10x4096.Transposes [1, 0] S4096x10
  shapeCasts_S4096_S1x4096 : S4096.ShapeCasts S1x4096
  shapeCasts_S10_S1x10 : S10.ShapeCasts S1x10
  inb_S1x4096_S1x4096_0_0 : ∀ a, (![0, 0] : Fin 2 → Nat) a + S1x4096.size a ≤ S1x4096.size a
  h_S1x4096 : 0 < S1x4096.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S784x4096_S784x4096_0_0 : ∀ a, (![0, 0] : Fin 2 → Nat) a + S784x4096.size a ≤ S784x4096.size a
  h_S784x4096 : 0 < S784x4096.numel
  shapeCasts_S784x4096_S784x4096 : S784x4096.ShapeCasts S784x4096
  shapeCasts_S1x4096_S1x4096 : S1x4096.ShapeCasts S1x4096
  broadcasts_S1x4096_S512x4096 : S1x4096.Broadcasts S512x4096
  reduces_S512x4096_S4096 : S512x4096.Reduces [0] S4096
  inb_S512x4096_S512x4096_0_0 : ∀ a, (![0, 0] : Fin 2 → Nat) a + S512x4096.size a ≤ S512x4096.size a
  h_S512x4096 : 0 < S512x4096.numel
  slices_S1x8192_S1x4096_0_0 : S1x8192.Slices ![0, 0] S1x4096
  slices_S1x8192_S1x4096_0_4096 : S1x8192.Slices ![0, 4096] S1x4096
  bcast_S_S1x4096 : S_.BroadcastsInDim S1x4096 (![] : Fin 0 → Fin S1x4096.rank)
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  broadcasts_S1x4096_S64x4096 : S1x4096.Broadcasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  reduces_S64x4096_S4096 : S64x4096.Reduces [0] S4096
  shapeCasts_S512x4096_S512x4096 : S512x4096.ShapeCasts S512x4096
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  dot_S512x784_S784x4096_S512x4096_1_0_0_1_n_n_wf : DotDims.WF S512x784 S784x4096 S512x4096 [1] [0] [0] [1] [] []
  dot_S64x4096_S4096x4096_S64x4096_1_0_0_1_n_n_wf : DotDims.WF S64x4096 S4096x4096 S64x4096 [1] [0] [0] [1] [] []
  dot_S512x4096_S4096x10_S512x10_1_0_0_1_n_n_wf : DotDims.WF S512x4096 S4096x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S16384x784.size a
  hwx0_0 : ∀ i : grid0.Coords, EltTy.bits .bf16 = 32 ∨ (Rect.block (s := S16384x784) S512x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x4096.size a ≤ S784x4096.size a
  hwx0_1 : ∀ i : grid0.Coords, EltTy.bits .bf16 = 32 ∨ (Rect.block (s := S784x4096) S784x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x8192.size a
  hwx0_4 : ∀ i : grid0.Coords, EltTy.bits .f32 = 32 ∨ (Rect.block (s := S1x8192) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x8192.size a
  hwx0_5 : ∀ i : grid0.Coords, EltTy.bits .f32 = 32 ∨ (Rect.block (s := S1x8192) S1x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S16384x4096.size a
  hwx1_0 : ∀ i : grid1.Coords, EltTy.bits .f32 = 32 ∨ (Rect.block (s := S16384x4096) S64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x4096.size a ≤ S4096x4096.size a
  hwx1_3 : ∀ i : grid1.Coords, EltTy.bits .bf16 = 32 ∨ (Rect.block (s := S4096x4096) S4096x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x4096.size a ≤ S16384x4096.size a
  hwx1_5 : ∀ i : grid1.Coords, EltTy.bits .f32 = 32 ∨ (Rect.block (s := S16384x4096) S64x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x8192.size a
  hwx1_6 : ∀ i : grid1.Coords, EltTy.bits .f32 = 32 ∨ (Rect.block (s := S1x8192) S1x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x4096.size a ≤ S1x8192.size a
  hwx1_7 : ∀ i : grid1.Coords, EltTy.bits .f32 = 32 ∨ (Rect.block (s := S1x8192) S1x4096.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S16384x4096.size a
  hwx2_0 : ∀ i : grid2.Coords, EltTy.bits .f32 = 32 ∨ (Rect.block (s := S16384x4096) S64x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x4096.size a ≤ S4096x4096.size a
  hwx2_3 : ∀ i : grid2.Coords, EltTy.bits .bf16 = 32 ∨ (Rect.block (s := S4096x4096) S4096x4096.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x4096.size a
  hwx2_4 : ∀ i : grid2.Coords, EltTy.bits .f32 = 32 ∨ (Rect.block (s := S1x4096) S1x4096.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S64x4096.size a ≤ S16384x4096.size a
  hwx2_5 : ∀ i : grid2.Coords, EltTy.bits .f32 = 32 ∨ (Rect.block (s := S16384x4096) S64x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x4096.size a ≤ S1x8192.size a
  hwx2_6 : ∀ i : grid2.Coords, EltTy.bits .f32 = 32 ∨ (Rect.block (s := S1x8192) S1x4096.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x4096.size a ≤ S1x8192.size a
  hwx2_7 : ∀ i : grid2.Coords, EltTy.bits .f32 = 32 ∨ (Rect.block (s := S1x8192) S1x4096.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S16384x4096.size a
  hwx3_0 : ∀ i : grid3.Coords, EltTy.bits .f32 = 32 ∨ (Rect.block (s := S16384x4096) S512x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4096.size a ≤ S1x4096.size a
  hwx3_1 : ∀ i : grid3.Coords, EltTy.bits .f32 = 32 ∨ (Rect.block (s := S1x4096) S1x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x10.size a ≤ S4096x10.size a
  hwx3_3 : ∀ i : grid3.Coords, EltTy.bits .bf16 = 32 ∨ (Rect.block (s := S4096x10) S4096x10.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S16384x10.size a
  hwx3_5 : ∀ i : grid3.Coords, EltTy.bits .f32 = 32 ∨ (Rect.block (s := S16384x10) S512x10.size (cc3_transform_5 i) (hinb3_5 i)).WholeWords (EltTy.packing .f32)

variable [Facts₀]

def dot_S512x784_S784x4096_S512x4096_1_0_0_1_n_n : DotDims S512x784 S784x4096 S512x4096 where
  lhsContracting := [1]
  rhsContracting := [0]
  lhsNonContracting := [0]
  rhsNonContracting := [1]
  lhsBatch := []
  rhsBatch := []
  wf := dot_S512x784_S784x4096_S512x4096_1_0_0_1_n_n_wf
def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf
def dot_S512x4096_S4096x10_S512x10_1_0_0_1_n_n : DotDims S512x4096 S4096x10 S512x10 where
  lhsContracting := [1]
  rhsContracting := [0]
  lhsNonContracting := [0]
  rhsNonContracting := [1]
  lhsBatch := []
  rhsBatch := []
  wf := dot_S512x4096_S4096x10_S512x10_1_0_0_1_n_n_wf

abbrev win0_0 : Pipeline.Window sig grid0 :=
  Pipeline.Window.ofSpec (Memref.whole main_v12) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S784x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S512x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S1x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_2) S1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17_0) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4096x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38_0) S64x4096.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_1) S1x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v38_2) S1x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v38_0) S64x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S4096x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59_0) S64x4096.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v59_1) S1x4096.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v59_2) S1x4096.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v59_0) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S4096x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S512x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S16384x784 : Shape := ⟨2, ![16384, 784]⟩
abbrev S4096x784 : Shape := ⟨2, ![4096, 784]⟩
abbrev S4096 : Shape := ⟨1, ![4096]⟩
abbrev S4096x4096 : Shape := ⟨2, ![4096, 4096]⟩
abbrev S10x4096 : Shape := ⟨2, ![10, 4096]⟩
abbrev S10 : Shape := ⟨1, ![10]⟩
abbrev S784x4096 : Shape := ⟨2, ![784, 4096]⟩
abbrev S16384x4096 : Shape := ⟨2, ![16384, 4096]⟩
abbrev S1x4096 : Shape := ⟨2, ![1, 4096]⟩
abbrev S_ : Shape := ⟨0, ![]⟩
abbrev S4096x10 : Shape := ⟨2, ![4096, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 156
  | .vmem => 0
  | .smem => 0
  | _ => 0

abbrev hbmTy0_0 (i : Nat) : BufTy := match i % 128 with
  | 0 => ⟨S16384x784, .f32⟩
  | 1 => ⟨S4096x784, .f32⟩
  | 2 => ⟨S4096, .f32⟩
  | 3 => ⟨S4096, .f32⟩
  | 4 => ⟨S4096, .f32⟩
  | 5 => ⟨S4096x4096, .f32⟩
  | 6 => ⟨S4096, .f32⟩
  | 7 => ⟨S4096, .f32⟩
  | 8 => ⟨S4096, .f32⟩
  | 9 => ⟨S4096x4096, .f32⟩
  | 10 => ⟨S4096, .f32⟩
  | 11 => ⟨S4096, .f32⟩
  | 12 => ⟨S4096, .f32⟩
  | 13 => ⟨S10x4096, .f32⟩
  | 14 => ⟨S10, .f32⟩
  | 15 => ⟨S4096x784, .f32⟩
  | 16 => ⟨S784x4096, .f32⟩
  | 17 => ⟨S16384x4096, .f32⟩
  | 18 => ⟨S1x4096, .f32⟩
  | 19 => ⟨S16384x4096, .f32⟩
  | 20 => ⟨S16384x4096, .f32⟩
  | 21 => ⟨S_, .f32⟩
  | 22 => ⟨S16384x4096, .f32⟩
  | 23 => ⟨S16384x4096, .f32⟩
  | 24 => ⟨S_, .f32⟩
  | 25 => ⟨S4096, .f32⟩
  | 26 => ⟨S_, .f32⟩
  | 27 => ⟨S4096, .f32⟩
  | 28 => ⟨S4096, .f32⟩
  | 29 => ⟨S1x4096, .f32⟩
  | 30 => ⟨S16384x4096, .f32⟩
  | 31 => ⟨S16384x4096, .f32⟩
  | 32 => ⟨S16384x4096, .f32⟩
  | 33 => ⟨S_, .f32⟩
  | 34 => ⟨S4096, .f32⟩
  | 35 => ⟨S_, .f32⟩
  | 36 => ⟨S4096, .f32⟩
  | 37 => ⟨S4096, .f32⟩
  | 38 => ⟨S1x4096, .f32⟩
  | 39 => ⟨S16384x4096, .f32⟩
  | 40 => ⟨S16384x4096, .f32⟩
  | 41 => ⟨S_, .f32⟩
  | 42 => ⟨S4096, .f32⟩
  | 43 => ⟨S4096, .f32⟩
  | 44 => ⟨S4096, .f32⟩
  | 45 => ⟨S1x4096, .f32⟩
  | 46 => ⟨S16384x4096, .f32⟩
  | 47 => ⟨S16384x4096, .f32⟩
  | 48 => ⟨S1x4096, .f32⟩
  | 49 => ⟨S16384x4096, .f32⟩
  | 50 => ⟨S16384x4096, .f32⟩
  | 51 => ⟨S1x4096, .f32⟩
  | 52 => ⟨S16384x4096, .f32⟩
  | 53 => ⟨S16384x4096, .f32⟩
  | 54 => ⟨S16384x4096, .f32⟩
  | 55 => ⟨S4096x4096, .f32⟩
  | 56 => ⟨S4096x4096, .f32⟩
  | 57 => ⟨S16384x4096, .f32⟩
  | 58 => ⟨S1x4096, .f32⟩
  | 59 => ⟨S16384x4096, .f32⟩
  | 60 => ⟨S16384x4096, .f32⟩
  | 61 => ⟨S_, .f32⟩
  | 62 => ⟨S16384x4096, .f32⟩
  | 63 => ⟨S16384x4096, .f32⟩
  | 64 => ⟨S_, .f32⟩
  | 65 => ⟨S4096, .f32⟩
  | 66 => ⟨S_, .f32⟩
  | 67 => ⟨S4096, .f32⟩
  | 68 => ⟨S4096, .f32⟩
  | 69 => ⟨S1x4096, .f32⟩
  | 70 => ⟨S16384x4096, .f32⟩
  | 71 => ⟨S16384x4096, .f32⟩
  | 72 => ⟨S16384x4096, .f32⟩
  | 73 => ⟨S_, .f32⟩
  | 74 => ⟨S4096, .f32⟩
  | 75 => ⟨S_, .f32⟩
  | 76 => ⟨S4096, .f32⟩
  | 77 => ⟨S4096, .f32⟩
  | 78 => ⟨S1x4096, .f32⟩
  | 79 => ⟨S16384x4096, .f32⟩
  | 80 => ⟨S16384x4096, .f32⟩
  | 81 => ⟨S_, .f32⟩
  | 82 => ⟨S4096, .f32⟩
  | 83 => ⟨S4096, .f32⟩
  | 84 => ⟨S4096, .f32⟩
  | 85 => ⟨S1x4096, .f32⟩
  | 86 => ⟨S16384x4096, .f32⟩
  | 87 => ⟨S16384x4096, .f32⟩
  | 88 => ⟨S1x4096, .f32⟩
  | 89 => ⟨S16384x4096, .f32⟩
  | 90 => ⟨S16384x4096, .f32⟩
  | 91 => ⟨S1x4096, .f32⟩
  | 92 => ⟨S16384x4096, .f32⟩
  | 93 => ⟨S16384x4096, .f32⟩
  | 94 => ⟨S16384x4096, .f32⟩
  | 95 => ⟨S4096x4096, .f32⟩
  | 96 => ⟨S4096x4096, .f32⟩
  | 97 => ⟨S16384x4096, .f32⟩
  | 98 => ⟨S1x4096, .f32⟩
  | 99 => ⟨S16384x4096, .f32⟩
  | 100 => ⟨S16384x4096, .f32⟩
  | 101 => ⟨S_, .f32⟩
  | 102 => ⟨S16384x4096, .f32⟩
  | 103 => ⟨S16384x4096, .f32⟩
  | 104 => ⟨S_, .f32⟩
  | 105 => ⟨S4096, .f32⟩
  | 106 => ⟨S_, .f32⟩
  | 107 => ⟨S4096, .f32⟩
  | 108 => ⟨S4096, .f32⟩
  | 109 => ⟨S1x4096, .f32⟩
  | 110 => ⟨S16384x4096, .f32⟩
  | 111 => ⟨S16384x4096, .f32⟩
  | 112 => ⟨S16384x4096, .f32⟩
  | 113 => ⟨S_, .f32⟩
  | 114 => ⟨S4096, .f32⟩
  | 115 => ⟨S_, .f32⟩
  | 116 => ⟨S4096, .f32⟩
  | 117 => ⟨S4096, .f32⟩
  | 118 => ⟨S1x4096, .f32⟩
  | 119 => ⟨S16384x4096, .f32⟩
  | 120 => ⟨S16384x4096, .f32⟩
  | 121 => ⟨S_, .f32⟩
  | 122 => ⟨S4096, .f32⟩
  | 123 => ⟨S4096, .f32⟩
  | 124 => ⟨S4096, .f32⟩
  | 125 => ⟨S1x4096, .f32⟩
  | 126 => ⟨S16384x4096, .f32⟩
  | 127 => ⟨S16384x4096, .f32⟩
  | _ => ⟨S16384x784, .f32⟩

abbrev hbmTy0_1 (i : Nat) : BufTy := match i % 128 with
  | 0 => ⟨S1x4096, .f32⟩
  | 1 => ⟨S16384x4096, .f32⟩
  | 2 => ⟨S16384x4096, .f32⟩
  | 3 => ⟨S1x4096, .f32⟩
  | 4 => ⟨S16384x4096, .f32⟩
  | 5 => ⟨S16384x4096, .f32⟩
  | 6 => ⟨S16384x4096, .f32⟩
  | 7 => ⟨S10x4096, .f32⟩
  | 8 => ⟨S4096x10, .f32⟩
  | 9 => ⟨S16384x10, .f32⟩
  | 10 => ⟨S1x10, .f32⟩
  | 11 => ⟨S16384x10, .f32⟩
  | 12 => ⟨S16384x10, .f32⟩
  | 13 => ⟨S_, .f32⟩
  | 14 => ⟨S16384, .f32⟩
  | 15 => ⟨S_, .f32⟩
  | 16 => ⟨S16384, .f32⟩
  | 17 => ⟨S16384, .f32⟩
  | 18 => ⟨S16384x1, .f32⟩
  | 19 => ⟨S16384x10, .f32⟩
  | 20 => ⟨S16384x10, .f32⟩
  | 21 => ⟨S16384x10, .f32⟩
  | 22 => ⟨S_, .f32⟩
  | 23 => ⟨S16384, .f32⟩
  | 24 => ⟨S16384x1, .f32⟩
  | 25 => ⟨S16384x1, .f32⟩
  | 26 => ⟨S16384x10, .f32⟩
  | 27 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_v72 : Ref sig .tc := ⟨.hbm, 103, rfl⟩
abbrev main_cst_9 : Ref sig .tc := ⟨.hbm, 104, rfl⟩
abbrev main_v73 : Ref sig .tc := ⟨.hbm, 105, rfl⟩
abbrev main_cst_10 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_11 : Ref sig .tc := ⟨.hbm, 113, rfl⟩
abbrev main_v80 : Ref sig .tc := ⟨.hbm, 114, rfl⟩
abbrev main_cst_12 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_13 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call3_cst : Ref sig .tc := ⟨.hbm, 141, rfl⟩
abbrev main_call3_v0 : Ref sig .tc := ⟨.hbm, 142, rfl⟩
abbrev main_call3_cst_0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_cst_1 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_v105 : Ref sig .tc := ⟨.hbm, 155, rfl⟩

abbrev nD : Nat := 1
abbrev τ : Topo := Topo.v7x

variable {F : FTy → Type} [FloatOps F]

class Facts₀ : Prop where
  transposes_S4096x784_S784x4096_1_0 : S4096x784.Transposes [1, 0] S784x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  reducesTo_S16384x4096_S4096_d0 : S16384x4096.ReducesTo [0] S4096
  h_S_ : 0 < S_.numel
  bcast_S_S4096 : S_.BroadcastsInDim S4096 (![] : Fin 0 → Fin S4096.rank)
  transposes_S4096x4096_S4096x4096_1_0 : S4096x4096.Transposes [1, 0] S4096x4096
  transposes_S10x4096_S4096x10_1_0 : S10x4096.Transposes [1, 0] S4096x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S16384_d1 : S16384x10.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x784_S784x4096_S16384x4096_1_0_0_1_n_n_wf : DotDims.WF S16384x784 S784x4096 S16384x4096 [1] [0] [0] [1] [] []
  dot_S16384x4096_S4096x4096_S16384x4096_1_0_0_1_n_n_wf : DotDims.WF S16384x4096 S4096x4096 S16384x4096 [1] [0] [0] [1] [] []
  dot_S16384x4096_S4096x10_S16384x10_1_0_0_1_n_n_wf : DotDims.WF S16384x4096 S4096x10 S16384x10 [1] [0] [0] [1] [] []

variable [Facts₀]

def dot_S16384x784_S784x4096_S16384x4096_1_0_0_1_n_n : DotDims S16384x784 S784x4096 S16384x4096 where
  lhsContracting := [1]
  rhsContracting := [0]
  lhsNonContracting := [0]
  rhsNonContracting := [1]
  lhsBatch := []
  rhsBatch := []
  wf := dot_S16384x784_S784x4096_S16384x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x10_S16384x10_1_0_0_1_n_n : DotDims S16384x4096 S4096x10 S16384x10 where
  lhsContracting := [1]
  rhsContracting := [0]
  lhsNonContracting := [0]
  rhsNonContracting := [1]
  lhsBatch := []
  rhsBatch := []
  wf := dot_S16384x4096_S4096x10_S16384x10_1_0_0_1_n_n_wf

class Facts : Prop extends Facts₀ where

variable [Facts]
-- ==== Proof.KernelRun.lean ====
/-
  The idealized kernel program's run with its result named: every weakly fair execution ends, nothing faulting, with
  the result array at what the last of the four regions' write-backs leave in it, and the arguments as launched.
  The buffer contents are followed boundary by boundary: a stretch of host operations applies its operations' fold,
  a region leaves each of its arrays at what its points wrote back and everything else untouched.
-/
import proofs.«105723_j39608188403810_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the contents the last boundary gives it, the arguments as launched. -/
theorem run : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.RunValue

end
-- ==== Proof.Layer.lean ====
/-
  The network on the extended reals, as plain functions of a row and a column.

  A layer sends a batch `a` (16384 rows) to `max (∑ₖ a r k · sign (w j k) + b j) 0`. Batch normalisation then needs, per
  column, the mean of the 16384 entries and their variance. It is written twice here:
  * `actAffine`: the variance as the mean of the squares minus the square of the mean, the normalisation folded into
    one affine map `p · scale + shift` with `scale = g · rsqrt (var + ε)` and `shift = be − mean · scale`;
  * `actCentred`: the variance as the mean of the squared deviations, the normalisation as
    `(p − mean) · rsqrt (var + ε) · g + be`.
  Both end in the sign. They agree wherever every entry is a real number (LayerLaw).
  The last layer has no rectifier and no normalisation; it ends in a log-softmax along its ten columns.
-/
import Idealize.ShloMosaic.PureOps.Ideal
import Idealize.ShloMosaic.Lib.ValueIdx

noncomputable section

namespace Cert.Layer

open Idealize.ShloMosaic

/-- The number of rows, 16384, as the float both programs divide by. -/
abbrev rows : EReal := Ideal.ofBits .f32 0x46800000#32
/-- The normalisation's ε (the float nearest 1e-4). -/
abbrev eps : EReal := Ideal.ofBits .f32 0x38D1B717#32
/-- Minus infinity as a float, where a row's maximum starts. -/
abbrev negInf : EReal := Ideal.ofBits .f32 0xFF800000#32

/-- A row's image under the signs of the weights, plus the bias. -/
def lin {K N : ℕ} (a : Fin 16384 → Fin K → EReal) (w : Fin N → Fin K → EReal) (b : Fin N → EReal)
    (r : Fin 16384) (j : Fin N) : EReal :=
  (∑ k : Fin K, a r k * Ideal.sign (w j k)) + b j

/-- The rectified layer. -/
def pre {K N : ℕ} (a : Fin 16384 → Fin K → EReal) (w : Fin N → Fin K → EReal) (b : Fin N → EReal)
    (r : Fin 16384) (j : Fin N) : EReal :=
  max (lin a w b r j) 0

variable {N : ℕ}

/-- A column's sum over the batch. -/
def colSum (p : Fin 16384 → Fin N → EReal) (j : Fin N) : EReal := ∑ r : Fin 16384, p r j
/-- A column's sum of squares over the batch. -/
def colSq (p : Fin 16384 → Fin N → EReal) (j : Fin N) : EReal := ∑ r : Fin 16384, p r j * p r j
/-- A column's mean. -/
def mean (p : Fin 16384 → Fin N → EReal) (j : Fin N) : EReal := Ideal.div (colSum p j) rows

/-- Variance as mean of squares minus squared mean. -/
def varMoment (p : Fin 16384 → Fin N → EReal) (j : Fin N) : EReal :=
  Ideal.div (colSq p j) rows - mean p j * mean p j
/-- The affine pair the normalisation folds into. -/
def scale (p : Fin 16384 → Fin N → EReal) (g : Fin N → EReal) (j : Fin N) : EReal :=
  g j * Ideal.rsqrt (varMoment p j + eps)
def shift (p : Fin 16384 → Fin N → EReal) (g be : Fin N → EReal) (j : Fin N) : EReal :=
  be j - mean p j * scale p g j
/-- Normalise by the affine pair, then take the sign. -/
def actAffine (p : Fin 16384 → Fin N → EReal) (g be : Fin N → EReal) (r : Fin 16384) (j : Fin N) : EReal :=
  Ideal.sign (p r j * scale p g j + shift p g be j)

/-- Variance as the mean of the squared deviations from the mean. -/
def varCentred (p : Fin 16384 → Fin N → EReal) (j : Fin N) : EReal :=
  Ideal.div (∑ r : Fin 16384, (p r j - mean p j) * (p r j - mean p j)) rows
/-- Centre, normalise, scale and shift, then take the sign. -/
def actCentred (p : Fin 16384 → Fin N → EReal) (g be : Fin N → EReal) (r : Fin 16384) (j : Fin N) : EReal :=
  Ideal.sign ((p r j - mean p j) * Ideal.rsqrt (varCentred p j + eps) * g j + be j)

/-- A row's maximum over its columns, started from minus infinity. -/
def rowMax (l : Fin 16384 → Fin N → EReal) (r : Fin 16384) : EReal :=
  (Finset.univ : Finset (Fin N)).fold max negInf (fun j => l r j)
/-- The log-softmax of a row. -/
def logSoftmax (l : Fin 16384 → Fin N → EReal) (r : Fin 16384) (j : Fin N) : EReal :=
  (l r j - rowMax l r) - Ideal.log (∑ j' : Fin N, Ideal.exp (l r j' - rowMax l r))

/-- The arguments of the network, as functions of row and column. -/
structure Args where
  x : Fin 16384 → Fin 784 → EReal
  w1 : Fin 4096 → Fin 784 → EReal
  b1 : Fin 4096 → EReal
  g1 : Fin 4096 → EReal
  be1 : Fin 4096 → EReal
  w2 : Fin 4096 → Fin 4096 → EReal
  b2 : Fin 4096 → EReal
  g2 : Fin 4096 → EReal
  be2 : Fin 4096 → EReal
  w3 : Fin 4096 → Fin 4096 → EReal
  b3 : Fin 4096 → EReal
  g3 : Fin 4096 → EReal
  be3 : Fin 4096 → EReal
  w4 : Fin 10 → Fin 4096 → EReal
  b4 : Fin 10 → EReal

/-- The whole network over a choice `act` of the normalised sign. -/
def net (act : (Fin 16384 → Fin 4096 → EReal) → (Fin 4096 → EReal) → (Fin 4096 → EReal) → Fin 16384 → Fin 4096 → EReal)
    (A : Args) : Fin 16384 → Fin 10 → EReal :=
  logSoftmax (lin (act (pre (act (pre (act (pre A.x A.w1 A.b1) A.g1 A.be1) A.w2 A.b2) A.g2 A.be2) A.w3 A.b3) A.g3 A.be3) A.w4 A.b4)

/-- The network with the affine normalisation (the kernel's arrangement). -/
def netAffine (A : Args) : Fin 16384 → Fin 10 → EReal := net actAffine A
/-- The network with the centred normalisation (the reference's arrangement). -/
def netCentred (A : Args) : Fin 16384 → Fin 10 → EReal := net actCentred A

/-- Every argument a real number. -/
structure Args.Finite (A : Args) : Prop where
  x : ∀ r k, A.x r k ≠ ⊥ ∧ A.x r k ≠ ⊤
  b1 : ∀ j, A.b1 j ≠ ⊥ ∧ A.b1 j ≠ ⊤
  g1 : ∀ j, A.g1 j ≠ ⊥ ∧ A.g1 j ≠ ⊤
  be1 : ∀ j, A.be1 j ≠ ⊥ ∧ A.be1 j ≠ ⊤
  b2 : ∀ j, A.b2 j ≠ ⊥ ∧ A.b2 j ≠ ⊤
  g2 : ∀ j, A.g2 j ≠ ⊥ ∧ A.g2 j ≠ ⊤
  be2 : ∀ j, A.be2 j ≠ ⊥ ∧ A.be2 j ≠ ⊤
  b3 : ∀ j, A.b3 j ≠ ⊥ ∧ A.b3 j ≠ ⊤
  g3 : ∀ j, A.g3 j ≠ ⊥ ∧ A.g3 j ≠ ⊤
  be3 : ∀ j, A.be3 j ≠ ⊥ ∧ A.be3 j ≠ ⊤

/-- The network's arguments read off the fifteen argument arrays: entry (r, k) of a matrix is the array at the index
    with those two coordinates, entry j of a vector the array at the index with that coordinate. -/
def Args.ofArrays
    (x0 : (⟨2, ![16384, 784]⟩ : Shape).Idx → EReal) (x1 : (⟨2, ![4096, 784]⟩ : Shape).Idx → EReal)
    (x2 x3 x4 : (⟨1, ![4096]⟩ : Shape).Idx → EReal)
    (x5 : (⟨2, ![4096, 4096]⟩ : Shape).Idx → EReal) (x6 x7 x8 : (⟨1, ![4096]⟩ : Shape).Idx → EReal)
    (x9 : (⟨2, ![4096, 4096]⟩ : Shape).Idx → EReal) (x10 x11 x12 : (⟨1, ![4096]⟩ : Shape).Idx → EReal)
    (x13 : (⟨2, ![10, 4096]⟩ : Shape).Idx → EReal) (x14 : (⟨1, ![10]⟩ : Shape).Idx → EReal) : Args where
  x := fun r k => x0 (ValueIdx.ix2 r k)
  w1 := fun j k => x1 (ValueIdx.ix2 j k)
  b1 := fun j => x2 (ValueIdx.ix1 j)
  g1 := fun j => x3 (ValueIdx.ix1 j)
  be1 := fun j => x4 (ValueIdx.ix1 j)
  w2 := fun j k => x5 (ValueIdx.ix2 j k)
  b2 := fun j => x6 (ValueIdx.ix1 j)
  g2 := fun j => x7 (ValueIdx.ix1 j)
  be2 := fun j => x8 (ValueIdx.ix1 j)
  w3 := fun j k => x9 (ValueIdx.ix2 j k)
  b3 := fun j => x10 (ValueIdx.ix1 j)
  g3 := fun j => x11 (ValueIdx.ix1 j)
  be3 := fun j => x12 (ValueIdx.ix1 j)
  w4 := fun j k => x13 (ValueIdx.ix2 j k)
  b4 := fun j => x14 (ValueIdx.ix1 j)

end Cert.Layer

end
-- ==== Proof.ChainDefs.lean ====
/-
  The layers of the network as the idealized kernel program meets them, named once.

  From the fifteen argument arrays on a device: the first layer's rectified output `p1`, its normalised sign `a1` (in
  the affine arrangement), the second layer's `p2`, `a2`, the third's `p3`, `a3`. The kernel's regions produce
  `p1`, `p2`, `p3` and their column sums; the host operations between them produce each layer's scale and shift.
-/
import proofs.«105723_j39608188403810_2_alg».proof.Proof.Gen.KernelIdeal.Frame
import proofs.«105723_j39608188403810_2_alg».proof.Proof.Layer

noncomputable section

namespace Cert.KernelIdeal.Chain

open Cert.KernelIdeal Cert.KernelIdeal.Gen
open Idealize.ShloMosaic Idealize.ShloMosaic.ValueIdx Idealize.ShloMosaic.TcCoe Idealize.SL.Sem
open Cert.Layer

variable (m : (ℓ : Loc nD τ sig) → Buf (Elt Ideal) ℓ)

/-- The network's arguments on device `c`, read off the launch memory. -/
def args (c : Dev nD) : Args :=
  Args.ofArrays
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))

def p1 (c : Dev nD) : Fin 16384 → Fin 4096 → EReal := pre (args m c).x (args m c).w1 (args m c).b1
def a1 (c : Dev nD) : Fin 16384 → Fin 4096 → EReal := actAffine (p1 m c) (args m c).g1 (args m c).be1
def p2 (c : Dev nD) : Fin 16384 → Fin 4096 → EReal := pre (a1 m c) (args m c).w2 (args m c).b2
def a2 (c : Dev nD) : Fin 16384 → Fin 4096 → EReal := actAffine (p2 m c) (args m c).g2 (args m c).be2
def p3 (c : Dev nD) : Fin 16384 → Fin 4096 → EReal := pre (a2 m c) (args m c).w3 (args m c).b3
def a3 (c : Dev nD) : Fin 16384 → Fin 4096 → EReal := actAffine (p3 m c) (args m c).g3 (args m c).be3

/-- The whole network in the affine arrangement is the log-softmax of the last layer's logits over `a3`. -/
theorem netAffine_eq (c : Dev nD) :
    netAffine (args m c) = logSoftmax (lin (a3 m c) (args m c).w4 (args m c).b4) := rfl

end Cert.KernelIdeal.Chain

end
-- ==== Proof.HostPrep.lean ====
/-
  What the host operations before the first region leave in the buffers the regions read.

  Each weight matrix is replaced by its signs, narrowed and transposed; the input is narrowed; each bias vector of n
  entries is recast as one row of n entries. On the extended reals a change of format is the identity, a transposed
  matrix reads at (k, j) what the matrix holds at (j, k), and the recast row reads at (0, j) what the vector holds at j.
-/
import proofs.«105723_j39608188403810_2_alg».proof.Proof.Gen.KernelIdeal.Launch
import proofs.«105723_j39608188403810_2_alg».proof.Proof.Layer
import Idealize.ShloMosaic.Lib.StableHlo.Run
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Host

open Idealize.ShloMosaic Idealize.ShloMosaic.TcCoe Idealize.ShloMosaic.ValueIdx Cert.KernelIdeal Cert.KernelIdeal.Gen

/-- The signs of a matrix, narrowed and transposed, at (k, j): the sign of the matrix's entry (j, k). -/
theorem signT_apply {a b : ℕ} (X : FVec Ideal ⟨2, ![a, b]⟩ .f32) (hlt : FTy.bf16.bits < FTy.f32.bits)
    (h : (⟨2, ![a, b]⟩ : Shape).Transposes [1, 0] ⟨2, ![b, a]⟩) (k : Fin b) (j : Fin a) :
    transpose ⟨2, ![b, a]⟩ [1, 0] (truncf .bf16 (Host.sign X) hlt) h (ix2 k j) = Ideal.sign (X (ix2 j k)) := by
  rw [transpose_ix2_apply]
  rfl

/-- A vector recast as a one-row matrix, at (0, j). -/
theorem row_apply {a : ℕ} (X : (⟨1, ![a]⟩ : Shape).Idx → EReal) (h : (⟨1, ![a]⟩ : Shape).ShapeCasts ⟨2, ![1, a]⟩)
    (j : Fin a) : (fun i => shapeCast ⟨2, ![1, a]⟩ X h i) (ix2 0 j) = X (ix1 j) :=
  shapeCast_a_1a_apply X h 0 j

variable (W : Valuation τ sig (Elt Ideal))

/-- The input, narrowed. -/
theorem prep_x (r : Fin 16384) (k : Fin 784) :
    @Eq EReal (StableHlo.after (hostOps0 (F := Ideal)) W main_v12 (ix2 r k)) (W main_arg0 (ix2 r k)) := by
  after_results_simp
  rfl

/-- The first layer's weights: signs, transposed. -/
theorem prep_w1 (k : Fin 784) (j : Fin 4096) :
    @Eq EReal (StableHlo.after (hostOps0 (F := Ideal)) W main_v2 (ix2 k j)) (Ideal.sign (W main_arg1 (ix2 j k))) := by
  after_results_simp
  exact signT_apply _ _ _ k j

/-- The second layer's weights: signs, transposed. -/
theorem prep_w2 (k j : Fin 4096) :
    @Eq EReal (StableHlo.after (hostOps0 (F := Ideal)) W main_v5 (ix2 k j)) (Ideal.sign (W main_arg5 (ix2 j k))) := by
  after_results_simp
  exact signT_apply _ _ _ k j

/-- The third layer's weights: signs, transposed. -/
theorem prep_w3 (k j : Fin 4096) :
    @Eq EReal (StableHlo.after (hostOps0 (F := Ideal)) W main_v8 (ix2 k j)) (Ideal.sign (W main_arg9 (ix2 j k))) := by
  after_results_simp
  exact signT_apply _ _ _ k j

/-- The output layer's weights: signs, transposed. -/
theorem prep_w4 (k : Fin 4096) (j : Fin 10) :
    @Eq EReal (StableHlo.after (hostOps0 (F := Ideal)) W main_v11 (ix2 k j)) (Ideal.sign (W main_arg13 (ix2 j k))) := by
  after_results_simp
  exact signT_apply _ _ _ k j

/-- The first layer's bias as a row. -/
theorem prep_b1 (j : Fin 4096) :
    @Eq EReal (StableHlo.after (hostOps0 (F := Ideal)) W main_v13 (ix2 0 j)) (W main_arg2 (ix1 j)) := by
  after_results_simp
  exact row_apply _ _ j

/-- The second layer's bias as a row. -/
theorem prep_b2 (j : Fin 4096) :
    @Eq EReal (StableHlo.after (hostOps0 (F := Ideal)) W main_v14 (ix2 0 j)) (W main_arg6 (ix1 j)) := by
  after_results_simp
  exact row_apply _ _ j

/-- The third layer's bias as a row. -/
theorem prep_b3 (j : Fin 4096) :
    @Eq EReal (StableHlo.after (hostOps0 (F := Ideal)) W main_v15 (ix2 0 j)) (W main_arg10 (ix1 j)) := by
  after_results_simp
  exact row_apply _ _ j

/-- The output layer's bias as a row. -/
theorem prep_b4 (j : Fin 10) :
    @Eq EReal (StableHlo.after (hostOps0 (F := Ideal)) W main_v16 (ix2 0 j)) (W main_arg14 (ix1 j)) := by
  after_results_simp
  exact row_apply _ _ j

end Cert.KernelIdeal.Host

end
-- ==== Proof.First.Payload.lean ====
/-
  The first layer's arithmetic on one block of 512 rows, read entry by entry over the extended reals.

  The body multiplies a [512, 784] block of the input by the whole [784, 4096] weight into a zero accumulator, adds the
  bias row to every row, and rectifies. Over the extended reals the product into zero is the plain sum over the 784
  contracted coordinates, the bias row is read at the entry's column, and the rectifier is the maximum with zero.
  The two running sums add to what they held the column sum, over the block's 512 rows, of the rectified block and
  of its square.
-/
import proofs.«105723_j39608188403810_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.First

open Cert.KernelIdeal Cert.KernelIdeal.Gen Idealize.ShloMosaic Idealize.ShloMosaic.ValueIdx

/-- The dimension numbers of the block product: rows of the left operand against columns of the right. -/
abbrev blockDot : DotDims S512x784 S784x4096 S512x4096 := dot_S512x784_S784x4096_S512x4096_1_0_0_1_n_n

theorem blockDot_lhs0 (i : S512x4096.Idx) (q : blockDot.contr.Idx) : (blockDot.lhsIdx i q 0).val = (i 0).val := by
  unfold DotDims.lhsIdx
  rw [dif_neg (show ¬(0 : Fin S512x784.rank) ∈ blockDot.lhsBatch by decide),
    dif_pos (show (0 : Fin S512x784.rank) ∈ blockDot.lhsNonContracting by decide)]
  rfl

theorem blockDot_lhs1 (i : S512x4096.Idx) (q : blockDot.contr.Idx) :
    (blockDot.lhsIdx i q 1).val = (q ⟨0, by decide⟩).val :=
  blockDot.lhsIdx_val_of_single rfl i q

theorem blockDot_rhs0 (i : S512x4096.Idx) (q : blockDot.contr.Idx) :
    (blockDot.rhsIdx i q 0).val = (q ⟨0, by decide⟩).val :=
  blockDot.rhsIdx_val_of_single rfl i q

theorem blockDot_rhs1 (i : S512x4096.Idx) (q : blockDot.contr.Idx) : (blockDot.rhsIdx i q 1).val = (i 1).val := by
  unfold DotDims.rhsIdx
  rw [dif_neg (show ¬(1 : Fin S784x4096.rank) ∈ blockDot.rhsBatch by decide),
    dif_pos (show (1 : Fin S784x4096.rank) ∈ blockDot.rhsNonContracting by decide)]
  rfl

/-- Entry (y, j) of the block product into the zero accumulator: the sum over the contracted coordinate. -/
theorem product_apply (a : FVec Ideal S512x784 .bf16) (w : FVec Ideal S784x4096 .bf16) (y : Fin 512) (j : Fin 4096) :
    matmul blockDot none a w (constant S512x4096 .f32 0x00000000#32) (ix2 y j)
      = ∑ k : Fin 784, a (ix2 y k) * w (ix2 k j) := by
  simp only [matmul]
  rw [Ideal.matmul_constant_zero_apply, ← Equiv.sum_comp (contrEquiv1 blockDot 784 rfl rfl).symm]
  refine Finset.sum_congr rfl fun k _ => ?_
  have hk := contrEquiv1_symm_val blockDot 784 rfl rfl k
  have el : blockDot.lhsIdx (ix2 y j) ((contrEquiv1 blockDot 784 rfl rfl).symm k) = ix2 y k :=
    funext fun d => Fin.ext (by
      match d with
      | ⟨0, _⟩ => exact blockDot_lhs0 _ _
      | ⟨1, _⟩ => exact (blockDot_lhs1 _ _).trans hk)
  have er : blockDot.rhsIdx (ix2 y j) ((contrEquiv1 blockDot 784 rfl rfl).symm k) = ix2 k j :=
    funext fun d => Fin.ext (by
      match d with
      | ⟨0, _⟩ => exact (blockDot_rhs0 _ _).trans hk
      | ⟨1, _⟩ => exact blockDot_rhs1 _ _)
  rw [el, er]

/-- The bias row spread over the block's rows, read at (y, j): the row's entry at column j. -/
theorem bias_apply (b : FVec Ideal S1x4096 .f32) (y : Fin 512) (j : Fin 4096) :
    broadcastTo S512x4096 b broadcasts_S1x4096_S512x4096 (ix2 y j) = b (ix2 0 j) :=
  broadcastTo_apply b broadcasts_S1x4096_S512x4096 (ix2 y j) (ix2 0 j) (fun d => match d with
    | ⟨0, _⟩ => by show (0 : Nat) = if (1 : Nat) = 1 then 0 else _; rw [if_pos rfl]
    | ⟨1, _⟩ => by show j.val = if (4096 : Nat) = 1 then 0 else j.val; rw [if_neg (by decide)])

/-- THE RECTIFIED BLOCK at (y, j): the maximum with zero of row y of the input block against column j of the weight,
    plus the bias at column j. -/
theorem pay3_apply (a : Vec Ideal S512x784 .bf16) (w : Vec Ideal S784x4096 .bf16) (b : Vec Ideal S1x4096 .f32)
    (y : Fin 512) (j : Fin 4096) :
    k0_pay3 a w b (ix2 y j) = max ((∑ k : Fin 784, a (ix2 y k) * w (ix2 k j)) + b (ix2 0 j)) 0 := by
  unfold k0_pay3
  show max (matmul (F := Ideal) blockDot none (shapeCast S512x784 a shapeCasts_S512x784_S512x784)
        (shapeCast S784x4096 w shapeCasts_S784x4096_S784x4096) (constant (F := Ideal) S512x4096 .f32 0x00000000#32) (ix2 y j)
      + broadcastTo S512x4096 (shapeCast S1x4096 b shapeCasts_S1x4096_S1x4096) broadcasts_S1x4096_S512x4096 (ix2 y j))
    (Ideal.ofBits .f32 0x00000000#32) = _
  rw [shapeCast_self a, shapeCast_self w, shapeCast_self b, product_apply, bias_apply, Ideal.ofBits_zero_f32]

/-- The column sum over a block's 512 rows, laid out as a row: entry (0, j) is the sum down column j. -/
theorem colsum_apply (p : FVec Ideal S512x4096 .f32) (j : Fin 4096) :
    shapeCast S1x4096 (multiReduction (F := Ideal) .add [0] S4096 p 0x00000000#32 reduces_S512x4096_S4096 (.inl rfl) rfl)
        shapeCasts_S4096_S1x4096 (ix2 0 j)
      = ∑ y : Fin 512, p (ix2 y j) := by
  refine (shapeCast_a_1a_apply _ shapeCasts_S4096_S1x4096 0 j).trans ?_
  refine (Ideal.multiReduction_add_single p 0x00000000#32 reduces_S512x4096_S4096 (.inl rfl) rfl (ix1 j)).trans ?_
  refine Finset.sum_congr rfl fun y _ => congrArg p (funext fun d => Fin.ext ?_)
  match d with
  | ⟨0, _⟩ => rfl
  | ⟨1, _⟩ => rfl

/-- THE RUNNING SUM's step at column j: what the accumulator row held plus the block's column sum. -/
theorem pay4_apply (a : Vec Ideal S512x784 .bf16) (w : Vec Ideal S784x4096 .bf16) (b : Vec Ideal S1x4096 .f32)
    (acc : Vec Ideal S1x4096 .f32) (j : Fin 4096) :
    k0_pay4 a w b acc (ix2 0 j) = acc (ix2 0 j) + ∑ y : Fin 512, k0_pay3 a w b (ix2 y j) := by
  unfold k0_pay4
  show shapeCast S1x4096 acc shapeCasts_S1x4096_S1x4096 (ix2 0 j)
      + shapeCast S1x4096 (multiReduction (F := Ideal) .add [0] S4096 (k0_pay3 a w b) 0x00000000#32 reduces_S512x4096_S4096 (.inl rfl) rfl)
        shapeCasts_S4096_S1x4096 (ix2 0 j) = _
  rw [shapeCast_self acc, colsum_apply]

/-- THE RUNNING SUM OF SQUARES' step at column j: what the accumulator row held plus the column sum of the squares. -/
theorem pay5_apply (a : Vec Ideal S512x784 .bf16) (w : Vec Ideal S784x4096 .bf16) (b : Vec Ideal S1x4096 .f32)
    (acc : Vec Ideal S1x4096 .f32) (j : Fin 4096) :
    k0_pay5 a w b acc (ix2 0 j)
      = acc (ix2 0 j) + ∑ y : Fin 512, k0_pay3 a w b (ix2 y j) * k0_pay3 a w b (ix2 y j) := by
  unfold k0_pay5
  show shapeCast S1x4096 acc shapeCasts_S1x4096_S1x4096 (ix2 0 j)
      + shapeCast S1x4096 (multiReduction (F := Ideal) .add [0] S4096 (mulf (k0_pay3 a w b) (k0_pay3 a w b)) 0x00000000#32
          reduces_S512x4096_S4096 (.inl rfl) rfl) shapeCasts_S4096_S1x4096 (ix2 0 j) = _
  rw [shapeCast_self acc, colsum_apply]
  rfl

/-- The zero row the two accumulators are reset to. -/
theorem pay1_apply (j : S1x4096.Idx) : k0_pay1 (F := Ideal) j = 0 := Ideal.ofBits_zero_f32
theorem pay2_apply (j : S1x4096.Idx) : k0_pay2 (F := Ideal) j = 0 := Ideal.ofBits_zero_f32

end Cert.KernelIdeal.First

end
-- ==== Proof.First.Pieces.lean ====
/-
  What one grid point of the first layer leaves in its three output buffers, as the body's arithmetic applied to the
  point's input blocks.

  The body stores each output buffer whole, so what a buffer holds afterwards is the stored value itself. At the first
  point of a half of the batch the two accumulator rows are first overwritten with zeros and read back, so their step
  starts from the zero row; at every other point it starts from what the row held. The block of rectified values does
  not depend on the case.
-/
import proofs.«105723_j39608188403810_2_alg».proof.Proof.Gen.KernelIdeal.Frame
import Idealize.ShloMosaic.Lib.Pipeline.Value
import Idealize.ShloMosaic.Lib.Tactic

noncomputable section

namespace Cert.KernelIdeal.First

open Cert.KernelIdeal Cert.KernelIdeal.Gen Idealize.ShloMosaic Idealize.ShloMosaic.TcCoe Idealize.SL.Sem

variable {F : FTy → Type} [FloatOps F]

/-- Every load and store of the body starts at the buffer's origin. -/
theorem zero_offsets : (![0, 0] : Fin 2 → Nat) = fun _ => 0 := funext fun a => by fin_cases a <;> rfl

/-- First point of a half: the block of rectified values. -/
theorem block_first (c : Dev nD) (i : grid0.Coords) (arg2 : Memref sig .tc .vmem S512x784 .bf16) (harg2 : arg2.IsWhole) (arg3 : Memref sig .tc .vmem S784x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S512x784 .bf16) (x1 : Vec F S784x4096 .bf16) (x2 : Vec F S1x4096 .f32) :
    out0_A_3 c i arg2 harg2 arg3 harg3 arg4 harg4 arg5 harg5 arg6 harg6 arg7 harg7 hc0 x0 x1 x2 = k0_pay3 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  rw [View.canon_unit_zero zero_offsets]
  simp only [View.readAt_eq_ld, harg2.read_unread, harg3.read_unread, harg4.read_unread, View.ld_unit_zero (S := S512x784) zero_offsets, View.ld_unit_zero (S := S784x4096) zero_offsets, View.ld_unit_zero (S := S1x4096) zero_offsets]

/-- First point of a half: the sum row restarts from the zero row. -/
theorem sum_first (c : Dev nD) (i : grid0.Coords) (arg2 : Memref sig .tc .vmem S512x784 .bf16) (harg2 : arg2.IsWhole) (arg3 : Memref sig .tc .vmem S784x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S512x784 .bf16) (x1 : Vec F S784x4096 .bf16) (x2 : Vec F S1x4096 .f32) :
    out0_A_4 c i arg2 harg2 arg3 harg3 arg4 harg4 arg5 harg5 arg6 harg6 arg7 harg7 hc0 x0 x1 x2 = k0_pay4 x0 x1 x2 k0_pay1 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x4096) zero_offsets, View.readCov_unit_zero (S := S1x4096) _ zero_offsets]
  simp only [View.readAt_eq_ld, harg2.read_unread, harg3.read_unread, harg4.read_unread, View.ld_unit_zero (S := S512x784) zero_offsets, View.ld_unit_zero (S := S784x4096) zero_offsets, View.ld_unit_zero (S := S1x4096) zero_offsets]

/-- First point of a half: the sum-of-squares row restarts from the zero row. -/
theorem sumsq_first (c : Dev nD) (i : grid0.Coords) (arg2 : Memref sig .tc .vmem S512x784 .bf16) (harg2 : arg2.IsWhole) (arg3 : Memref sig .tc .vmem S784x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S512x784 .bf16) (x1 : Vec F S784x4096 .bf16) (x2 : Vec F S1x4096 .f32) :
    out0_A_5 c i arg2 harg2 arg3 harg3 arg4 harg4 arg5 harg5 arg6 harg6 arg7 harg7 hc0 x0 x1 x2 = k0_pay5 x0 x1 x2 k0_pay2 := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x4096) zero_offsets, View.readCov_unit_zero (S := S1x4096) _ zero_offsets]
  simp only [View.readAt_eq_ld, harg2.read_unread, harg3.read_unread, harg4.read_unread, View.ld_unit_zero (S := S512x784) zero_offsets, View.ld_unit_zero (S := S784x4096) zero_offsets, View.ld_unit_zero (S := S1x4096) zero_offsets]

/-- A later point of a half: the block of rectified values. -/
theorem block_later (c : Dev nD) (i : grid0.Coords) (arg2 : Memref sig .tc .vmem S512x784 .bf16) (harg2 : arg2.IsWhole) (arg3 : Memref sig .tc .vmem S784x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S512x784 .bf16) (x1 : Vec F S784x4096 .bf16) (x2 : Vec F S1x4096 .f32) (xo4 xo5 : Vec F S1x4096 .f32) :
    out0_B_3 c i arg2 harg2 arg3 harg3 arg4 harg4 arg5 harg5 arg6 harg6 arg7 harg7 hc0 x0 x1 x2 xo4 xo5 = k0_pay3 x0 x1 x2 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  rw [View.canon_unit_zero zero_offsets]
  simp only [View.readAt_eq_ld, harg2.read_unread, harg3.read_unread, harg4.read_unread, harg6.read_unread, harg7.read_unread, View.ld_unit_zero (S := S512x784) zero_offsets, View.ld_unit_zero (S := S784x4096) zero_offsets, View.ld_unit_zero (S := S1x4096) zero_offsets]

/-- A later point of a half: the sum row goes on from what it held. -/
theorem sum_later (c : Dev nD) (i : grid0.Coords) (arg2 : Memref sig .tc .vmem S512x784 .bf16) (harg2 : arg2.IsWhole) (arg3 : Memref sig .tc .vmem S784x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S512x784 .bf16) (x1 : Vec F S784x4096 .bf16) (x2 : Vec F S1x4096 .f32) (xo4 xo5 : Vec F S1x4096 .f32) :
    out0_B_4 c i arg2 harg2 arg3 harg3 arg4 harg4 arg5 harg5 arg6 harg6 arg7 harg7 hc0 x0 x1 x2 xo4 xo5 = k0_pay4 x0 x1 x2 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  rw [View.canon_unit_zero zero_offsets]
  simp only [View.readAt_eq_ld, harg2.read_unread, harg3.read_unread, harg4.read_unread, harg6.read_unread, harg7.read_unread, View.ld_unit_zero (S := S512x784) zero_offsets, View.ld_unit_zero (S := S784x4096) zero_offsets, View.ld_unit_zero (S := S1x4096) zero_offsets]

/-- A later point of a half: the sum-of-squares row goes on from what it held. -/
theorem sumsq_later (c : Dev nD) (i : grid0.Coords) (arg2 : Memref sig .tc .vmem S512x784 .bf16) (harg2 : arg2.IsWhole) (arg3 : Memref sig .tc .vmem S784x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S512x784 .bf16) (x1 : Vec F S784x4096 .bf16) (x2 : Vec F S1x4096 .f32) (xo4 xo5 : Vec F S1x4096 .f32) :
    out0_B_5 c i arg2 harg2 arg3 harg3 arg4 harg4 arg5 harg5 arg6 harg6 arg7 harg7 hc0 x0 x1 x2 xo4 xo5 = k0_pay5 x0 x1 x2 xo5 := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  rw [View.canon_unit_zero zero_offsets]
  simp only [View.readAt_eq_ld, harg2.read_unread, harg3.read_unread, harg4.read_unread, harg6.read_unread, harg7.read_unread, View.ld_unit_zero (S := S512x784) zero_offsets, View.ld_unit_zero (S := S784x4096) zero_offsets, View.ld_unit_zero (S := S1x4096) zero_offsets]

end Cert.KernelIdeal.First

end
-- ==== Proof.First.Blocks.lean ====
/-
  The first layer's windows, read entry by entry.

  The grid's point t (of 32, visited in order) takes rows 512·t … 512·t + 511 of the input and of the output; the
  weight and the bias row are taken whole at every point; the two accumulator rows of point t are columns
  4096·(t / 16) … 4096·(t / 16) + 4095 of the two [1, 8192] arrays. An entry of a block sits in its array at the block's
  index times the block's size plus the entry's own coordinate.
-/
import proofs.«105723_j39608188403810_2_alg».proof.Proof.Gen.KernelIdeal.Frame
import Idealize.ShloMosaic.Lib.Pipeline.Value
import Idealize.ShloMosaic.Lib.ValueIdx

noncomputable section

namespace Cert.KernelIdeal.First

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- Where each window's block sits at point t, decided once over the 32 points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val / 16
    ∧ win0_5.index t (0 : Fin 2) = 0 ∧ win0_5.index t (1 : Fin 2) = t.val / 16 :=
  (by decide +kernel : ∀ t : Fin grid0.N, _)

/-- The grid has 32 points. -/
theorem points : cfg0.N = 32 := N_0

/-- Row y of the input block at point t is row 512·t + y of the input. -/
theorem input_block (c : Dev nD) (t : Fin cfg0.N) (y : Fin 512) (k : Fin 784) (r : Fin 16384)
    (hr : r.val = t.val * 512 + y.val) :
    (iblk0 V c 0 t : Vec F S512x784 .bf16) (ix2 y k)
      = (V c (Pipeline.arrRef spec0 0) : S16384x784.Idx → Elt F .bf16) (ix2 r k) := by
  obtain ⟨e0, e1, -⟩ := block_index t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 512 + 1 * y.val = r.val; rw [e0, hr]; omega
  | ⟨1, _⟩ => show win0_0.index t (1 : Fin 2) * 784 + 1 * k.val = k.val; rw [e1]; omega

/-- The weight block at any point is the whole weight. -/
theorem weight_block (c : Dev nD) (t : Fin cfg0.N) (k : Fin 784) (j : Fin 4096) :
    (iblk0 V c 1 t : Vec F S784x4096 .bf16) (ix2 k j)
      = (V c (Pipeline.arrRef spec0 1) : S784x4096.Idx → Elt F .bf16) (ix2 k j) := by
  obtain ⟨-, -, e0, e1, -⟩ := block_index t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 784 + 1 * k.val = k.val; rw [e0]; omega
  | ⟨1, _⟩ => show win0_1.index t (1 : Fin 2) * 4096 + 1 * j.val = j.val; rw [e1]; omega

/-- The bias block at any point is the whole bias row. -/
theorem bias_block (c : Dev nD) (t : Fin cfg0.N) (j : Fin 4096) :
    (iblk0 V c 2 t : Vec F S1x4096 .f32) (ix2 0 j)
      = (V c (Pipeline.arrRef spec0 2) : S1x4096.Idx → Elt F .f32) (ix2 0 j) := by
  obtain ⟨-, -, -, -, e0, e1, -⟩ := block_index t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * 0 = 0; rw [e0]
  | ⟨1, _⟩ => show win0_2.index t (1 : Fin 2) * 4096 + 1 * j.val = j.val; rw [e1]; omega

end Cert.KernelIdeal.First

end
-- ==== Proof.Region.lean ====
/-
  What each of the four kernel regions computes, as plain functions of its operand arrays.

  The first region multiplies rows of the input by the already signed and transposed weights, adds the bias and
  rectifies. A hidden region first applies the previous layer's affine normalisation and sign to its input, entry by
  entry, and then does the same. Each of these also leaves, for either half of the batch, the column sums of its
  output and of its squares; the half's sum is taken block of rows by block of rows, in the order the grid visits them.
  The last region applies the normalisation and sign, the product and the bias, and a log-softmax along the row.
-/
import proofs.«105723_j39608188403810_2_alg».proof.Proof.Layer

noncomputable section

namespace Cert.Layer

open Idealize.ShloMosaic Idealize.ShloMosaic.ValueIdx

/-- The first region's output at row `r`, column `j`: weights arrive transposed, so the product reads `wt (k, j)`. -/
def firstOut (xin : (⟨2, ![16384, 784]⟩ : Shape).Idx → EReal) (wt : (⟨2, ![784, 4096]⟩ : Shape).Idx → EReal)
    (bb : (⟨2, ![1, 4096]⟩ : Shape).Idx → EReal) (r : Fin 16384) (j : Fin 4096) : EReal :=
  max ((∑ k : Fin 784, xin (ix2 r k) * wt (ix2 k j)) + bb (ix2 0 j)) 0

/-- The normalised sign a later region applies to its input before the product. -/
def signAffine (hin : (⟨2, ![16384, 4096]⟩ : Shape).Idx → EReal) (sc sh : (⟨2, ![1, 4096]⟩ : Shape).Idx → EReal)
    (r : Fin 16384) (k : Fin 4096) : EReal :=
  Ideal.sign (hin (ix2 r k) * sc (ix2 0 k) + sh (ix2 0 k))

/-- A hidden region's output at row `r`, column `j`. -/
def hiddenOut (hin : (⟨2, ![16384, 4096]⟩ : Shape).Idx → EReal) (sc sh : (⟨2, ![1, 4096]⟩ : Shape).Idx → EReal)
    (wt : (⟨2, ![4096, 4096]⟩ : Shape).Idx → EReal) (bb : (⟨2, ![1, 4096]⟩ : Shape).Idx → EReal)
    (r : Fin 16384) (j : Fin 4096) : EReal :=
  max ((∑ k : Fin 4096, signAffine hin sc sh r k * wt (ix2 k j)) + bb (ix2 0 j)) 0

/-- The last region's logits at row `r`, column `j`. -/
def lastLogit (hin : (⟨2, ![16384, 4096]⟩ : Shape).Idx → EReal) (sc sh : (⟨2, ![1, 4096]⟩ : Shape).Idx → EReal)
    (wt : (⟨2, ![4096, 10]⟩ : Shape).Idx → EReal) (bb : (⟨2, ![1, 10]⟩ : Shape).Idx → EReal)
    (r : Fin 16384) (j : Fin 10) : EReal :=
  (∑ k : Fin 4096, signAffine hin sc sh r k * wt (ix2 k j)) + bb (ix2 0 j)

/-- The last region's output: the log-softmax of the logits along the row. -/
def lastOut (hin : (⟨2, ![16384, 4096]⟩ : Shape).Idx → EReal) (sc sh : (⟨2, ![1, 4096]⟩ : Shape).Idx → EReal)
    (wt : (⟨2, ![4096, 10]⟩ : Shape).Idx → EReal) (bb : (⟨2, ![1, 10]⟩ : Shape).Idx → EReal)
    (r : Fin 16384) (j : Fin 10) : EReal :=
  logSoftmax (lastLogit hin sc sh wt bb) r j

/-- The sum of `f` over the rows of half `h` of the batch, taken as 16 blocks of 512 rows. -/
def halfSum16x512 (f : Fin 16384 → EReal) (h : Fin 2) : EReal :=
  ∑ t : Fin 16, ∑ y : Fin 512, f ⟨(h.val * 16 + t.val) * 512 + y.val, by have := h.isLt; have := t.isLt; have := y.isLt; omega⟩

/-- The sum of `f` over the rows of half `h` of the batch, taken as 128 blocks of 64 rows. -/
def halfSum128x64 (f : Fin 16384 → EReal) (h : Fin 2) : EReal :=
  ∑ t : Fin 128, ∑ y : Fin 64, f ⟨(h.val * 128 + t.val) * 64 + y.val, by have := h.isLt; have := t.isLt; have := y.isLt; omega⟩

end Cert.Layer

end
-- ==== Proof.First.HalfRun.lean ====
/-
  The sum of a column over one half of the batch, as the grid accumulates it.

  A half of the batch is 16 consecutive grid points of 512 rows each. The accumulator restarts at the first point of a
  half and adds one block's column sum at every point, so after point n it holds the sum of the block sums of the points
  of n's half up to n; after the last point of the half that is the sum over the half's 16 blocks, block by block.
  Stated for any function of the row, over the natural numbers so that the recurrence needs no bounds.
-/
import proofs.«105723_j39608188403810_2_alg».proof.Proof.Region

noncomputable section

namespace Cert.KernelIdeal.First

open Idealize.ShloMosaic

/-- A function of the row, continued by zero past the batch. -/
def rowAt (f : Fin 16384 → EReal) (r : ℕ) : EReal := if h : r < 16384 then f ⟨r, h⟩ else 0

theorem rowAt_of_lt (f : Fin 16384 → EReal) (r : ℕ) (h : r < 16384) : rowAt f r = f ⟨r, h⟩ := dif_pos h

/-- The sum of `f` over the 512 rows of block `t`. -/
def blockSum (f : Fin 16384 → EReal) (t : ℕ) : EReal := ∑ y : Fin 512, rowAt f (t * 512 + y.val)

/-- What the accumulator holds after point `n`: the block sums of the points of `n`'s half, up to `n`. -/
def halfRun (B : ℕ → EReal) (n : ℕ) : EReal := ∑ s ∈ Finset.range (n % 16 + 1), B (n - n % 16 + s)

/-- At the first point of a half: that point's block sum. -/
theorem halfRun_first (B : ℕ → EReal) (n : ℕ) (h : n % 16 = 0) : halfRun B n = B n := by
  unfold halfRun
  rw [h, Finset.sum_range_one]
  rfl

/-- At a later point: what the point before left, plus this point's block sum. -/
theorem halfRun_later (B : ℕ → EReal) (n : ℕ) (h : ¬(n + 1) % 16 = 0) : halfRun B (n + 1) = halfRun B n + B (n + 1) := by
  unfold halfRun
  have h1 : (n + 1) % 16 = n % 16 + 1 := by omega
  have h2 : n + 1 - (n % 16 + 1) = n - n % 16 := by omega
  rw [h1, h2, Finset.sum_range_succ]
  refine congrArg (fun z => _ + B z) ?_
  omega

/-- After the last point of half `h`: the sum over the half, 16 blocks of 512 rows, in the grid's order. -/
theorem halfRun_last (f : Fin 16384 → EReal) (h : Fin 2) :
    halfRun (blockSum f) (16 * h.val + 15) = Cert.Layer.halfSum16x512 f h := by
  unfold halfRun Cert.Layer.halfSum16x512
  have h1 : (16 * h.val + 15) % 16 = 15 := by omega
  rw [h1, Finset.sum_range]
  refine Finset.sum_congr rfl fun t _ => ?_
  unfold blockSum
  refine Finset.sum_congr rfl fun y _ => ?_
  have hh := h.isLt
  have ht := t.isLt
  have hy := y.isLt
  have e : (16 * h.val + 15 - 15 + t.val) * 512 + y.val = (h.val * 16 + t.val) * 512 + y.val := by omega
  rw [e, rowAt_of_lt f _ (by omega)]

end Cert.KernelIdeal.First

end
-- ==== Proof.First.Running.lean ====
/-
  What the three output buffers hold after each grid point of the first layer, over the extended reals.

  After point t the block buffer holds the layer's rectified values at rows 512·t … 512·t + 511. The sum row restarts
  at the first point of a half of the batch and adds the block's column sums at every point, so after point n it holds,
  at column j, the sum of the layer's values over the rows of the blocks of n's half up to n; the sum-of-squares row
  likewise for the squares. The first is read off the case at hand; the other two by induction on the point.
-/
import proofs.«105723_j39608188403810_2_alg».proof.Proof.First.Payload
import proofs.«105723_j39608188403810_2_alg».proof.Proof.First.Pieces
import proofs.«105723_j39608188403810_2_alg».proof.Proof.First.Blocks
import proofs.«105723_j39608188403810_2_alg».proof.Proof.First.HalfRun

noncomputable section

namespace Cert.KernelIdeal.First

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The layer's rectified value at row r, column j, of the three operand arrays as the region finds them. -/
abbrev value (c : Dev nD) (r : Fin 16384) (j : Fin 4096) : EReal :=
  Cert.Layer.firstOut (V c (Pipeline.arrRef spec0 0)) (V c (Pipeline.arrRef spec0 1)) (V c (Pipeline.arrRef spec0 2)) r j

/-- The body's block at point t, entry (y, j), is the layer's value at row 512·t + y, column j. -/
theorem block_value (c : Dev nD) (t : Fin cfg0.N) (y : Fin 512) (j : Fin 4096) (r : Fin 16384)
    (hr : r.val = t.val * 512 + y.val) :
    k0_pay3 (F := Ideal) (iblk0 V c 0 t) (iblk0 V c 1 t) (iblk0 V c 2 t) (ix2 y j) = value V c r j := by
  refine (pay3_apply (iblk0 V c 0 t) (iblk0 V c 1 t) (iblk0 V c 2 t) y j).trans ?_
  show _ = Cert.Layer.firstOut _ _ _ r j
  unfold Cert.Layer.firstOut
  rw [bias_block V c t j]
  refine congrArg (fun s => max (s + _) 0) (Finset.sum_congr rfl fun k _ => ?_)
  rw [input_block V c t y k r hr, weight_block V c t k j]

/-- So the block's column sums are the layer's values summed over the block's rows … -/
theorem block_colsum (c : Dev nD) (t : Fin cfg0.N) (j : Fin 4096) :
    ∑ y : Fin 512, k0_pay3 (F := Ideal) (iblk0 V c 0 t) (iblk0 V c 1 t) (iblk0 V c 2 t) (ix2 y j) = blockSum (fun r => value V c r j) t.val := by
  unfold blockSum
  refine Finset.sum_congr rfl fun y _ => ?_
  have ht : t.val < 32 := lt_of_lt_of_eq t.isLt points
  have hy := y.isLt
  rw [rowAt_of_lt _ _ (by omega)]
  exact block_value V c t y j ⟨t.val * 512 + y.val, by omega⟩ rfl

/-- … and the column sums of its square the squares of the layer's values summed over the block's rows. -/
theorem block_colsq (c : Dev nD) (t : Fin cfg0.N) (j : Fin 4096) :
    ∑ y : Fin 512, k0_pay3 (F := Ideal) (iblk0 V c 0 t) (iblk0 V c 1 t) (iblk0 V c 2 t) (ix2 y j) * k0_pay3 (F := Ideal) (iblk0 V c 0 t) (iblk0 V c 1 t) (iblk0 V c 2 t) (ix2 y j)
      = blockSum (fun r => value V c r j * value V c r j) t.val := by
  unfold blockSum
  refine Finset.sum_congr rfl fun y _ => ?_
  have ht : t.val < 32 := lt_of_lt_of_eq t.isLt points
  have hy := y.isLt
  rw [rowAt_of_lt _ _ (by omega), block_value V c t y j ⟨t.val * 512 + y.val, by omega⟩ rfl]

/-- After any point the block buffer holds the body's block of that point. -/
theorem block_at (c : Dev nD) (t : Fin cfg0.N) :
    (outsAt0 V c t.val t.isLt).1 = k0_pay3 (F := Ideal) (iblk0 V c 0 t) (iblk0 V c 1 t) (iblk0 V c 2 t) := by
  by_cases h0 : t.val % 16 = 0
  · rw [outsAt0_A V c t h0]
    dsimp only
    exact block_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact block_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun hh => h0 ((hcond0_0 t).mp hh)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- At the first point of a half the sum row holds that block's column sums. -/
theorem sum_step_first (c : Dev nD) (t : Fin cfg0.N) (h0 : t.val % 16 = 0) (j : Fin 4096) :
    (outsAt0 V c t.val t.isLt).2.1 (ix2 0 j) = blockSum (fun r => value V c r j) t.val := by
  rw [outsAt0_A V c t h0]
  dsimp only
  rw [sum_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]
  refine (pay4_apply (iblk0 V c 0 t) (iblk0 V c 1 t) (iblk0 V c 2 t) (k0_pay1 (F := Ideal)) j).trans ?_
  rw [pay1_apply, zero_add, block_colsum V c t j]

/-- At a later point it holds what the point before left plus that block's column sums. -/
theorem sum_step_later (c : Dev nD) (t : Fin cfg0.N) (h0 : ¬t.val % 16 = 0) (j : Fin 4096) :
    (outsAt0 V c t.val t.isLt).2.1 (ix2 0 j)
      = (outsAt0 V c (t.val - 1) (Nat.lt_of_le_of_lt (Nat.sub_le _ _) t.isLt)).2.1 (ix2 0 j) + blockSum (fun r => value V c r j) t.val := by
  rw [outsAt0_B V c t h0]
  dsimp only
  rw [sum_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun hh => h0 ((hcond0_0 t).mp hh)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2]
  refine (pay4_apply (iblk0 V c 0 t) (iblk0 V c 1 t) (iblk0 V c 2 t) (outsAt0 V c (t.val - 1) (Nat.lt_of_le_of_lt (Nat.sub_le _ _) t.isLt)).2.1 j).trans ?_
  rw [block_colsum V c t j]

/-- THE SUM ROW after point n, at column j: the layer's values summed over the blocks of n's half up to n. -/
theorem sum_at (c : Dev nD) (j : Fin 4096) : ∀ (n : ℕ) (h : n < cfg0.N),
    (outsAt0 V c n h).2.1 (ix2 0 j) = halfRun (blockSum fun r => value V c r j) n
  | 0, h => (sum_step_first V c ⟨0, h⟩ rfl j).trans (halfRun_first _ 0 rfl).symm
  | n + 1, h => by
    by_cases h0 : (n + 1) % 16 = 0
    · exact (sum_step_first V c ⟨n + 1, h⟩ h0 j).trans (halfRun_first _ (n + 1) h0).symm
    · refine (sum_step_later V c ⟨n + 1, h⟩ h0 j).trans ?_
      rw [halfRun_later _ n h0]
      show (outsAt0 V c n _).2.1 (ix2 0 j) + _ = _
      rw [sum_at c j n]

/-- At the first point of a half the sum-of-squares row holds the column sums of that block's square. -/
theorem sumsq_step_first (c : Dev nD) (t : Fin cfg0.N) (h0 : t.val % 16 = 0) (j : Fin 4096) :
    (outsAt0 V c t.val t.isLt).2.2 (ix2 0 j) = blockSum (fun r => value V c r j * value V c r j) t.val := by
  rw [outsAt0_A V c t h0]
  dsimp only
  rw [sumsq_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]
  refine (pay5_apply (iblk0 V c 0 t) (iblk0 V c 1 t) (iblk0 V c 2 t) (k0_pay2 (F := Ideal)) j).trans ?_
  rw [pay2_apply, zero_add, block_colsq V c t j]

/-- At a later point it holds what the point before left plus the column sums of that block's square. -/
theorem sumsq_step_later (c : Dev nD) (t : Fin cfg0.N) (h0 : ¬t.val % 16 = 0) (j : Fin 4096) :
    (outsAt0 V c t.val t.isLt).2.2 (ix2 0 j)
      = (outsAt0 V c (t.val - 1) (Nat.lt_of_le_of_lt (Nat.sub_le _ _) t.isLt)).2.2 (ix2 0 j) + blockSum (fun r => value V c r j * value V c r j) t.val := by
  rw [outsAt0_B V c t h0]
  dsimp only
  rw [sumsq_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun hh => h0 ((hcond0_0 t).mp hh)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2]
  refine (pay5_apply (iblk0 V c 0 t) (iblk0 V c 1 t) (iblk0 V c 2 t) (outsAt0 V c (t.val - 1) (Nat.lt_of_le_of_lt (Nat.sub_le _ _) t.isLt)).2.2 j).trans ?_
  rw [block_colsq V c t j]

/-- THE SUM-OF-SQUARES ROW after point n, at column j: the squares of the layer's values summed over the blocks of n's
    half up to n. -/
theorem sumsq_at (c : Dev nD) (j : Fin 4096) : ∀ (n : ℕ) (h : n < cfg0.N),
    (outsAt0 V c n h).2.2 (ix2 0 j) = halfRun (blockSum fun r => value V c r j * value V c r j) n
  | 0, h => (sumsq_step_first V c ⟨0, h⟩ rfl j).trans (halfRun_first _ 0 rfl).symm
  | n + 1, h => by
    by_cases h0 : (n + 1) % 16 = 0
    · exact (sumsq_step_first V c ⟨n + 1, h⟩ h0 j).trans (halfRun_first _ (n + 1) h0).symm
    · refine (sumsq_step_later V c ⟨n + 1, h⟩ h0 j).trans ?_
      rw [halfRun_later _ n h0]
      show (outsAt0 V c n _).2.2 (ix2 0 j) + _ = _
      rw [sumsq_at c j n]

end Cert.KernelIdeal.First

end
-- ==== Proof.First.OutArray.lean ====
/-
  The first layer's block output as an array: every grid point writes its 512 rows back, the 32 blocks tile the
  [16384, 4096] array, so after the run the array holds the layer's rectified value at every row and column.
-/
import proofs.«105723_j39608188403810_2_alg».proof.Proof.First.Running
import Idealize.ShloMosaic.Lib.Pipeline.Value

noncomputable section

namespace Cert.KernelIdeal.First

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's values as one array. -/
def valueArray (c : Dev nD) : S16384x4096.Idx → EReal := fun i => value V c (i 0) (i 1)

/-- What point t writes back is rows 512·t … 512·t + 511 of it. -/
theorem value_flushed (c : Dev nD) (t : Fin cfg0.N) (hf : (cfg0.win 3).flush t = true) :
    (dat0 V c).flushed 3 t = ((cfg0.win 3).blk t).view.read (Elt Ideal) (valueArray V c) := by
  have ht : t.val < 32 := lt_of_lt_of_eq t.isLt points
  obtain ⟨-, -, -, -, -, -, e0, e1, -⟩ := block_index t
  show (cfg0.win 3).cut (grid0.coords t) ((dat0 V c).after 3 t) = _
  rw [after0_3, block_at V c t]
  funext y
  obtain ⟨p, q, rfl⟩ : ∃ (p : Fin 512) (q : Fin 4096), y = ix2 p q := ⟨y 0, y 1, eq_ix2 y⟩
  have hp := p.isLt
  have hr : t.val * 512 + p.val < 16384 := by omega
  show k0_pay3 (F := Ideal) (iblk0 V c 0 t) (iblk0 V c 1 t) (iblk0 V c 2 t) (ix2 p q) = valueArray V c (((cfg0.win 3).blk t).view.emb (ix2 p q))
  rw [block_value V c t p q ⟨t.val * 512 + p.val, hr⟩ rfl]
  unfold valueArray
  have r0 : (⟨t.val * 512 + p.val, hr⟩ : Fin 16384) = ((cfg0.win 3).blk t).view.emb (ix2 p q) 0 :=
    Fin.ext (by show t.val * 512 + p.val = win0_3.index t (0 : Fin 2) * 512 + 1 * p.val; rw [e0]; omega)
  have r1 : q = ((cfg0.win 3).blk t).view.emb (ix2 p q) 1 :=
    Fin.ext (by show q.val = win0_3.index t (1 : Fin 2) * 4096 + 1 * q.val; rw [e1]; omega)
  exact congrArg₂ (value V c) r0 r1

/-- Every entry of the array is in some point's block: row r is in block r / 512. -/
theorem value_cover (c : Dev nD) (i : S16384x4096.Idx) :
    ∃ t : Fin cfg0.N, (cfg0.win 3).flush t = true ∧ i ∈ ((cfg0.win 3).blk t).view.set := by
  have hi0 : (i 0).val < 16384 := idx2_lt0 i
  have hi1 : (i 1).val < 4096 := idx2_lt1 i
  have hN : (i 0).val / 512 < cfg0.N := by rw [points]; omega
  obtain ⟨-, -, -, -, -, -, e0, e1, -⟩ := block_index ⟨(i 0).val / 512, hN⟩
  refine ⟨⟨(i 0).val / 512, hN⟩, flush0_3 _, ?_⟩
  show i ∈ ((View.whole main_v17_0).slice (win0_3.rect ⟨(i 0).val / 512, hN⟩)).set
  rw [View.set_slice_whole, Rect.mem_set_unit]
  intro a
  match a with
  | ⟨0, _⟩ =>
    show win0_3.index ⟨(i 0).val / 512, hN⟩ (0 : Fin 2) * 512 ≤ (i 0).val
      ∧ (i 0).val < win0_3.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hN⟩ (1 : Fin 2) * 4096 ≤ (i 1).val
      ∧ (i 1).val < win0_3.index ⟨(i 0).val / 512, hN⟩ (1 : Fin 2) * 4096 + 4096
    rw [e1]; omega

/-- THE BLOCK OUTPUT after the run: the layer's rectified value at every row and column. -/
theorem out_array (c : Dev nD) (r : Fin 16384) (j : Fin 4096) :
    (dat0 (F := Ideal) V c).arrAt 3 cfg0.N (ix2 r j) = Cert.Layer.firstOut (V c (Pipeline.arrRef spec0 0)) (V c (Pipeline.arrRef spec0 1)) (V c (Pipeline.arrRef spec0 2)) r j :=
  congrFun ((dat0 V c).arrAt_eq_of_cover 3 (valueArray V c) (value_flushed V c) (value_cover c)) (ix2 r j)

end Cert.KernelIdeal.First

end
-- ==== Proof.First.Halves.lean ====
/-
  A row of 8192 entries holding, for either half of the batch and each of the 4096 columns, the half's sum of a
  function of row and column: entry 4096·h + j is the sum over half h of column j.
-/
import proofs.«105723_j39608188403810_2_alg».proof.Proof.Region
import Idealize.ShloMosaic.Lib.ValueIdx

noncomputable section

namespace Cert.KernelIdeal.First

open Idealize.ShloMosaic Idealize.ShloMosaic.ValueIdx

/-- The column an entry of the row belongs to, -/
def colOf (n : ℕ) : Fin 4096 := ⟨n % 4096, Nat.mod_lt _ (by decide)⟩
/-- and the half. -/
def halfOf (n : ℕ) (hn : n < 8192) : Fin 2 := ⟨n / 4096, by omega⟩

theorem colOf_eq (h : Fin 2) (q : Fin 4096) (n : ℕ) (e : n = h.val * 4096 + q.val) : colOf n = q :=
  Fin.ext (by show n % 4096 = q.val; have := q.isLt; omega)

theorem halfOf_eq (h : Fin 2) (q : Fin 4096) (n : ℕ) (hn : n < 8192) (e : n = h.val * 4096 + q.val) : halfOf n hn = h :=
  Fin.ext (by show n / 4096 = h.val; have := q.isLt; omega)

/-- The row of the two halves' sums of `f`, `f` taking the column first. -/
def halvesRow (f : Fin 4096 → Fin 16384 → EReal) : (⟨2, ![1, 8192]⟩ : Shape).Idx → EReal := fun i =>
  Cert.Layer.halfSum16x512 (f (colOf (i 1).val)) (halfOf (i 1).val (idx2_lt1 i))

/-- Entry 4096·h + q of the row is the sum of column q over half h. -/
theorem halvesRow_at (f : Fin 4096 → Fin 16384 → EReal) (h : Fin 2) (q : Fin 4096) (i : (⟨2, ![1, 8192]⟩ : Shape).Idx)
    (hi : (i 1).val = h.val * 4096 + q.val) : halvesRow f i = Cert.Layer.halfSum16x512 (f q) h := by
  unfold halvesRow
  rw [colOf_eq h q _ hi, halfOf_eq h q _ _ hi]

end Cert.KernelIdeal.First

end
-- ==== Proof.First.SumArray.lean ====
/-
  The first layer's running sums as an array: the last grid point of either half of the batch writes the half's
  4096 column sums back into its half of the [1, 8192] array, so after the run entry 4096·h + j holds the sum of
  the layer's rectified values of column j over half h, taken block of rows by block of rows.
-/
import proofs.«105723_j39608188403810_2_alg».proof.Proof.First.Running
import proofs.«105723_j39608188403810_2_alg».proof.Proof.First.Halves
import Idealize.ShloMosaic.Lib.Pipeline.Value

noncomputable section

namespace Cert.KernelIdeal.First

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two halves' sums as one row of 8192 entries. -/
def sumRow (c : Dev nD) : S1x8192.Idx → EReal := halvesRow fun j r => value V c r j

/-- What the last point of a half writes back is that half's 4096 entries of the row. -/
theorem sum_flushed (c : Dev nD) (t : Fin cfg0.N) (hf : (cfg0.win 4).flush t = true) :
    (dat0 V c).flushed 4 t = ((cfg0.win 4).blk t).view.read (Elt Ideal) (sumRow V c) := by
  have ht : t.val < 32 := lt_of_lt_of_eq t.isLt points
  have h15 : t.val % 16 = 15 := (flush0_4 t).mp hf
  have htv : t.val = 16 * (t.val / 16) + 15 := by omega
  obtain ⟨-, -, -, -, -, -, -, -, e40, e41, e50, e51⟩ := block_index t
  show (cfg0.win 4).cut (grid0.coords t) ((dat0 V c).after 4 t) = _
  rw [after0_4]
  funext y
  obtain ⟨u, q, rfl⟩ : ∃ (u : Fin 1) (q : Fin 4096), y = ix2 u q := ⟨y 0, y 1, eq_ix2 y⟩
  obtain rfl : u = 0 := Subsingleton.elim _ _
  have hq := q.isLt
  show (outsAt0 V c t.val t.isLt).2.1 (ix2 0 q) = sumRow V c (((cfg0.win 4).blk t).view.emb (ix2 0 q))
  refine (sum_at V c q t.val t.isLt).trans ?_
  unfold sumRow
  refine Eq.trans ?_ (halvesRow_at _ ⟨t.val / 16, by omega⟩ q _ (by
    show win0_4.index t (1 : Fin 2) * 4096 + 1 * q.val = t.val / 16 * 4096 + q.val
    rw [e41]; omega)).symm
  refine Eq.trans ?_ (halfRun_last (fun r => value V c r q) ⟨t.val / 16, by omega⟩)
  exact congrArg (halfRun _) htv

/-- Every entry of the row is in the block of its half's last point. -/
theorem sum_cover (c : Dev nD) (i : S1x8192.Idx) :
    ∃ t : Fin cfg0.N, (cfg0.win 4).flush t = true ∧ i ∈ ((cfg0.win 4).blk t).view.set := by
  have hi0 : (i 0).val < 1 := idx2_lt0 i
  have hi1 : (i 1).val < 8192 := idx2_lt1 i
  have hN : 16 * ((i 1).val / 4096) + 15 < cfg0.N := by rw [points]; omega
  obtain ⟨-, -, -, -, -, -, -, -, e40, e41, e50, e51⟩ := block_index ⟨16 * ((i 1).val / 4096) + 15, hN⟩
  refine ⟨⟨16 * ((i 1).val / 4096) + 15, hN⟩, (flush0_4 _).mpr (by show (16 * ((i 1).val / 4096) + 15) % 16 = 15; omega), ?_⟩
  show i ∈ ((View.whole main_v17_1).slice (win0_4.rect ⟨16 * ((i 1).val / 4096) + 15, hN⟩)).set
  rw [View.set_slice_whole, Rect.mem_set_unit]
  intro a
  match a with
  | ⟨0, _⟩ =>
    show win0_4.index ⟨16 * ((i 1).val / 4096) + 15, hN⟩ (0 : Fin 2) * 1 ≤ (i 0).val
      ∧ (i 0).val < win0_4.index ⟨16 * ((i 1).val / 4096) + 15, hN⟩ (0 : Fin 2) * 1 + 1
    rw [e40]; omega
  | ⟨1, _⟩ =>
    show win0_4.index ⟨16 * ((i 1).val / 4096) + 15, hN⟩ (1 : Fin 2) * 4096 ≤ (i 1).val
      ∧ (i 1).val < win0_4.index ⟨16 * ((i 1).val / 4096) + 15, hN⟩ (1 : Fin 2) * 4096 + 4096
    rw [e41]
    show (16 * ((i 1).val / 4096) + 15) / 16 * 4096 ≤ (i 1).val ∧ (i 1).val < (16 * ((i 1).val / 4096) + 15) / 16 * 4096 + 4096
    omega

/-- THE SUM OUTPUT after the run: entry 4096·h + j is the layer's values of column j summed over half h. -/
theorem sum_array (c : Dev nD) (h : Fin 2) (j : Fin 4096) :
    (dat0 (F := Ideal) V c).arrAt 4 cfg0.N (ix2 0 ⟨h.val * 4096 + j.val, by have := h.isLt; have := j.isLt; omega⟩)
      = Cert.Layer.halfSum16x512 (fun r => Cert.Layer.firstOut (V c (Pipeline.arrRef spec0 0)) (V c (Pipeline.arrRef spec0 1)) (V c (Pipeline.arrRef spec0 2)) r j) h :=
  (congrFun ((dat0 V c).arrAt_eq_of_cover 4 (sumRow V c) (sum_flushed V c) (sum_cover c)) _).trans
    (halvesRow_at _ h j _ rfl)

end Cert.KernelIdeal.First

end
-- ==== Proof.First.SumsqArray.lean ====
/-
  The first layer's running sums of squares as an array: the last grid point of either half of the batch writes the
  half's 4096 column sums of squares back into its half of the [1, 8192] array, so after the run entry 4096·h + j
  holds the sum of the squares of the layer's rectified values of column j over half h, block of rows by block of rows.
-/
import proofs.«105723_j39608188403810_2_alg».proof.Proof.First.Running
import proofs.«105723_j39608188403810_2_alg».proof.Proof.First.Halves
import Idealize.ShloMosaic.Lib.Pipeline.Value

noncomputable section

namespace Cert.KernelIdeal.First

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two halves' sums as one row of 8192 entries. -/
def sumsqRow (c : Dev nD) : S1x8192.Idx → EReal := halvesRow fun j r => value V c r j * value V c r j

/-- What the last point of a half writes back is that half's 4096 entries of the row. -/
theorem sumsq_flushed (c : Dev nD) (t : Fin cfg0.N) (hf : (cfg0.win 5).flush t = true) :
    (dat0 V c).flushed 5 t = ((cfg0.win 5).blk t).view.read (Elt Ideal) (sumsqRow V c) := by
  have ht : t.val < 32 := lt_of_lt_of_eq t.isLt points
  have h15 : t.val % 16 = 15 := (flush0_5 t).mp hf
  have htv : t.val = 16 * (t.val / 16) + 15 := by omega
  obtain ⟨-, -, -, -, -, -, -, -, e40, e41, e50, e51⟩ := block_index t
  show (cfg0.win 5).cut (grid0.coords t) ((dat0 V c).after 5 t) = _
  rw [after0_5]
  funext y
  obtain ⟨u, q, rfl⟩ : ∃ (u : Fin 1) (q : Fin 4096), y = ix2 u q := ⟨y 0, y 1, eq_ix2 y⟩
  obtain rfl : u = 0 := Subsingleton.elim _ _
  have hq := q.isLt
  show (outsAt0 V c t.val t.isLt).2.2 (ix2 0 q) = sumsqRow V c (((cfg0.win 5).blk t).view.emb (ix2 0 q))
  refine (sumsq_at V c q t.val t.isLt).trans ?_
  unfold sumsqRow
  refine Eq.trans ?_ (halvesRow_at _ ⟨t.val / 16, by omega⟩ q _ (by
    show win0_5.index t (1 : Fin 2) * 4096 + 1 * q.val = t.val / 16 * 4096 + q.val
    rw [e51]; omega)).symm
  refine Eq.trans ?_ (halfRun_last (fun r => value V c r q * value V c r q) ⟨t.val / 16, by omega⟩)
  exact congrArg (halfRun _) htv

/-- Every entry of the row is in the block of its half's last point. -/
theorem sumsq_cover (c : Dev nD) (i : S1x8192.Idx) :
    ∃ t : Fin cfg0.N, (cfg0.win 5).flush t = true ∧ i ∈ ((cfg0.win 5).blk t).view.set := by
  have hi0 : (i 0).val < 1 := idx2_lt0 i
  have hi1 : (i 1).val < 8192 := idx2_lt1 i
  have hN : 16 * ((i 1).val / 4096) + 15 < cfg0.N := by rw [points]; omega
  obtain ⟨-, -, -, -, -, -, -, -, e40, e41, e50, e51⟩ := block_index ⟨16 * ((i 1).val / 4096) + 15, hN⟩
  refine ⟨⟨16 * ((i 1).val / 4096) + 15, hN⟩, (flush0_5 _).mpr (by show (16 * ((i 1).val / 4096) + 15) % 16 = 15; omega), ?_⟩
  show i ∈ ((View.whole main_v17_2).slice (win0_5.rect ⟨16 * ((i 1).val / 4096) + 15, hN⟩)).set
  rw [View.set_slice_whole, Rect.mem_set_unit]
  intro a
  match a with
  | ⟨0, _⟩ =>
    show win0_5.index ⟨16 * ((i 1).val / 4096) + 15, hN⟩ (0 : Fin 2) * 1 ≤ (i 0).val
      ∧ (i 0).val < win0_5.index ⟨16 * ((i 1).val / 4096) + 15, hN⟩ (0 : Fin 2) * 1 + 1
    rw [e50]; omega
  | ⟨1, _⟩ =>
    show win0_5.index ⟨16 * ((i 1).val / 4096) + 15, hN⟩ (1 : Fin 2) * 4096 ≤ (i 1).val
      ∧ (i 1).val < win0_5.index ⟨16 * ((i 1).val / 4096) + 15, hN⟩ (1 : Fin 2) * 4096 + 4096
    rw [e51]
    show (16 * ((i 1).val / 4096) + 15) / 16 * 4096 ≤ (i 1).val ∧ (i 1).val < (16 * ((i 1).val / 4096) + 15) / 16 * 4096 + 4096
    omega

/-- THE SUM-OF-SQUARES OUTPUT after the run: entry 4096·h + j is the squares of the layer's values of column j summed
    over half h. -/
theorem sumsq_array (c : Dev nD) (h : Fin 2) (j : Fin 4096) :
    (dat0 (F := Ideal) V c).arrAt 5 cfg0.N (ix2 0 ⟨h.val * 4096 + j.val, by have := h.isLt; have := j.isLt; omega⟩)
      = Cert.Layer.halfSum16x512 (fun r => Cert.Layer.firstOut (V c (Pipeline.arrRef spec0 0)) (V c (Pipeline.arrRef spec0 1)) (V c (Pipeline.arrRef spec0 2)) r j * Cert.Layer.firstOut (V c (Pipeline.arrRef spec0 0)) (V c (Pipeline.arrRef spec0 1)) (V c (Pipeline.arrRef spec0 2)) r j) h :=
  (congrFun ((dat0 V c).arrAt_eq_of_cover 5 (sumsqRow V c) (sumsq_flushed V c) (sumsq_cover c)) _).trans
    (halvesRow_at _ h j _ rfl)

end Cert.KernelIdeal.First

end
-- ==== Proof.Chain0.lean ====
/-
  The first region inside the whole run: its three output arrays in terms of the network's arguments.

  When the first region is entered its three operand arrays are what the host operations before it left: the input
  unchanged, the first layer's weights replaced by their signs and transposed, the bias as a row. So the region's
  rectified product over those arrays is the first layer's rectified output `p1` of the arguments, and the two
  accumulator arrays hold, for either half of the batch, the column sums of `p1` and of its square.
-/
import proofs.«105723_j39608188403810_2_alg».proof.Proof.ChainDefs
import proofs.«105723_j39608188403810_2_alg».proof.Proof.HostPrep
import proofs.«105723_j39608188403810_2_alg».proof.Proof.First.OutArray
import proofs.«105723_j39608188403810_2_alg».proof.Proof.First.SumArray
import proofs.«105723_j39608188403810_2_alg».proof.Proof.First.SumsqArray

noncomputable section

namespace Cert.KernelIdeal.Chain

open Cert.KernelIdeal Cert.KernelIdeal.Gen
open Idealize.ShloMosaic Idealize.ShloMosaic.ValueIdx Idealize.ShloMosaic.TcCoe Idealize.SL.Sem
open Cert.Layer

variable (m : (ℓ : Loc nD τ sig) → Buf (Elt Ideal) ℓ) (ρ : Dev nD → PrngReg)

/-- The region's rectified product over its operand arrays as entered is the first layer's rectified output. -/
theorem first_value (c : Dev nD) (r : Fin 16384) (j : Fin 4096) :
    firstOut (V1 m ρ c (Pipeline.arrRef spec0 0)) (V1 m ρ c (Pipeline.arrRef spec0 1)) (V1 m ρ c (Pipeline.arrRef spec0 2)) r j
      = p1 m c r j := by
  have hx : ∀ k : Fin 784, @Eq EReal (V1 m ρ c (Pipeline.arrRef spec0 0) (ix2 r k)) ((args m c).x r k) :=
    fun k => Host.prep_x (W0 m ρ c) r k
  have hw : ∀ k : Fin 784, @Eq EReal (V1 m ρ c (Pipeline.arrRef spec0 1) (ix2 k j)) (Ideal.sign ((args m c).w1 j k)) :=
    fun k => Host.prep_w1 (W0 m ρ c) k j
  have hb : @Eq EReal (V1 m ρ c (Pipeline.arrRef spec0 2) (ix2 0 j)) ((args m c).b1 j) :=
    Host.prep_b1 (W0 m ρ c) j
  unfold firstOut p1 pre lin
  exact congrArg₂ max (congrArg₂ (· + ·) (Finset.sum_congr rfl fun k _ => congrArg₂ (· * ·) (hx k) (hw k)) hb) rfl

/-- After the first region its block output holds the first layer's rectified output. -/
theorem out0 (c : Dev nD) (r : Fin 16384) (j : Fin 4096) :
    @Eq EReal (W2 m ρ c main_v17_0 (ix2 r j)) (p1 m c r j) :=
  (congrFun (W2_arr m ρ c 3) (ix2 r j)).trans ((First.out_array (V1 m ρ) c r j).trans (first_value m ρ c r j))

/-- After the first region its sum output holds, for half h and column j, the sum of the layer's output over the half. -/
theorem sum0 (c : Dev nD) (h : Fin 2) (j : Fin 4096) :
    @Eq EReal (W2 m ρ c main_v17_1 (ix2 0 ⟨h.val * 4096 + j.val, by have := h.isLt; have := j.isLt; omega⟩))
      (halfSum16x512 (fun r => p1 m c r j) h) :=
  (congrFun (W2_arr m ρ c 4) _).trans ((First.sum_array (V1 m ρ) c h j).trans
    (congrArg (fun f => halfSum16x512 f h) (funext fun r => first_value m ρ c r j)))

/-- After the first region its sum-of-squares output holds, for half h and column j, the sum of the squares of the
    layer's output over the half. -/
theorem sq0 (c : Dev nD) (h : Fin 2) (j : Fin 4096) :
    @Eq EReal (W2 m ρ c main_v17_2 (ix2 0 ⟨h.val * 4096 + j.val, by have := h.isLt; have := j.isLt; omega⟩))
      (halfSum16x512 (fun r => p1 m c r j * p1 m c r j) h) :=
  (congrFun (W2_arr m ρ c 5) _).trans ((First.sumsq_array (V1 m ρ) c h j).trans
    (congrArg (fun f => halfSum16x512 f h) (funext fun r => by rw [first_value m ρ c r j])))

end Cert.KernelIdeal.Chain

end
-- ==== Proof.HostNorm.lean ====
/-
  What the three stretches of host operations between the regions leave in the scale and shift buffers.

  A region leaves, for a column k, the column sum and the column sum of squares of its output in two halves: entry k
  and entry 4096 + k of a row of 8192. The host adds the two halves (s and q), divides both by the row count
  (mean μ = s / n, second moment q / n), forms the variance q / n − μ · μ, adds ε, takes the reciprocal square root and
  multiplies by gamma: the scale. The shift is beta minus the mean times the scale. Every operation acts entry by
  entry, so the buffers' entries at column k are these expressions of the operands' entries at column k; nothing here
  needs the entries to be finite.
-/
import proofs.«105723_j39608188403810_2_alg».proof.Proof.Gen.KernelIdeal.Launch
import proofs.«105723_j39608188403810_2_alg».proof.Proof.Layer
import Idealize.ShloMosaic.Lib.StableHlo.Run
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Host

open Idealize.ShloMosaic Idealize.ShloMosaic.TcCoe Idealize.ShloMosaic.ValueIdx Cert.KernelIdeal Cert.KernelIdeal.Gen

/-- The two halves of a row of 8192 entries, added entry by entry: entry k plus entry 4096 + k. -/
def halves (X : S1x8192.Idx → EReal) (k : Fin 4096) : EReal :=
  X (ix2 0 ⟨k.val, by have := k.isLt; omega⟩) + X (ix2 0 ⟨4096 + k.val, by have := k.isLt; omega⟩)

/-- The scale of the normalisation from gamma, a column's sum s and its sum of squares q:
    gamma · rsqrt ((q / n − (s / n) · (s / n)) + ε). -/
def scaleOf (g s q : EReal) : EReal :=
  g * Ideal.rsqrt ((Ideal.div q Cert.Layer.rows - Ideal.div s Cert.Layer.rows * Ideal.div s Cert.Layer.rows)
    + Cert.Layer.eps)

/-- The shift of the normalisation: beta − (s / n) · scale. -/
def shiftOf (be g s q : EReal) : EReal := be - Ideal.div s Cert.Layer.rows * scaleOf g s q

/-- The specification's scale is this expression of the column's sum and sum of squares. -/
theorem layer_scale_eq {N : ℕ} (p : Fin 16384 → Fin N → EReal) (g : Fin N → EReal) (j : Fin N) :
    Cert.Layer.scale p g j = scaleOf (g j) (Cert.Layer.colSum p j) (Cert.Layer.colSq p j) := rfl

/-- The specification's shift is this expression of the column's sum and sum of squares. -/
theorem layer_shift_eq {N : ℕ} (p : Fin 16384 → Fin N → EReal) (g be : Fin N → EReal) (j : Fin N) :
    Cert.Layer.shift p g be j = shiftOf (be j) (g j) (Cert.Layer.colSum p j) (Cert.Layer.colSq p j) := rfl

/-! ### The operations' terms at a column -/

/-- The first 4096 columns of a row of 8192. -/
theorem slice_lo (X : S1x8192.Idx → EReal) (h : S1x8192.Slices ![0, 0] S1x4096) (k : Fin 4096) :
    extractStridedSlice S1x4096 ![0, 0] X h (ix2 0 k) = X (ix2 0 ⟨k.val, by have := k.isLt; omega⟩) :=
  slice2_axis1_apply 0 X h 0 k ⟨k.val, by have := k.isLt; omega⟩ (Nat.zero_add _).symm

/-- The last 4096 columns of a row of 8192. -/
theorem slice_hi (X : S1x8192.Idx → EReal) (h : S1x8192.Slices ![0, 4096] S1x4096) (k : Fin 4096) :
    extractStridedSlice S1x4096 ![0, 4096] X h (ix2 0 k) = X (ix2 0 ⟨4096 + k.val, by have := k.isLt; omega⟩) :=
  slice2_axis1_apply 4096 X h 0 k ⟨4096 + k.val, by have := k.isLt; omega⟩ rfl

/-- The two slices of a row, added, at a column. -/
theorem halves_apply (X : FVec Ideal S1x8192 .f32) (h0 : S1x8192.Slices ![0, 0] S1x4096)
    (h1 : S1x8192.Slices ![0, 4096] S1x4096) (k : Fin 4096) :
    addf (extractStridedSlice S1x4096 ![0, 0] X h0) (extractStridedSlice S1x4096 ![0, 4096] X h1) (ix2 0 k)
      = halves X k := by
  rw [addf_apply, slice_lo, slice_hi]; rfl

/-- The added halves divided by the row count, at a column. -/
theorem mean_apply (X : FVec Ideal S1x8192 .f32) (h0 : S1x8192.Slices ![0, 0] S1x4096)
    (h1 : S1x8192.Slices ![0, 4096] S1x4096) (hb : S_.BroadcastsInDim S1x4096 ![]) (k : Fin 4096) :
    Host.divf (addf (extractStridedSlice S1x4096 ![0, 0] X h0) (extractStridedSlice S1x4096 ![0, 4096] X h1))
      (broadcastInDim S1x4096 ![] hb (constant (F := Ideal) S_ .f32 0x46800000#32)) (ix2 0 k)
      = Ideal.div (halves X k) Cert.Layer.rows := by
  rw [hostDivf_apply, halves_apply, broadcastInDim_scalar_apply, constant_apply]

/-- The scale's term at a column. -/
theorem scale_apply (G : FVec Ideal S4096 .f32) (X1 X2 : FVec Ideal S1x8192 .f32)
    (h0 : S1x8192.Slices ![0, 0] S1x4096) (h1 : S1x8192.Slices ![0, 4096] S1x4096)
    (hb : S_.BroadcastsInDim S1x4096 ![]) (hc : S4096.ShapeCasts S1x4096) (k : Fin 4096) :
    mulf (fun i => shapeCast S1x4096 G hc i)
      (Host.rsqrt
        (addf
          (subf
            (Host.divf (addf (extractStridedSlice S1x4096 ![0, 0] X2 h0) (extractStridedSlice S1x4096 ![0, 4096] X2 h1))
              (broadcastInDim S1x4096 ![] hb (constant (F := Ideal) S_ .f32 0x46800000#32)))
            (mulf
              (Host.divf
                (addf (extractStridedSlice S1x4096 ![0, 0] X1 h0) (extractStridedSlice S1x4096 ![0, 4096] X1 h1))
                (broadcastInDim S1x4096 ![] hb (constant (F := Ideal) S_ .f32 0x46800000#32)))
              (Host.divf
                (addf (extractStridedSlice S1x4096 ![0, 0] X1 h0) (extractStridedSlice S1x4096 ![0, 4096] X1 h1))
                (broadcastInDim S1x4096 ![] hb (constant (F := Ideal) S_ .f32 0x46800000#32)))))
          (broadcastInDim S1x4096 ![] hb (constant (F := Ideal) S_ .f32 0x38D1B717#32))))
      (ix2 0 k)
      = scaleOf (G (ix1 k)) (halves X1 k) (halves X2 k) := by
  rw [mulf_apply]
  show shapeCast S1x4096 G hc (ix2 0 k) * Ideal.rsqrt (_ : EReal) = _
  rw [shapeCast_a_1a_apply, addf_apply, subf_apply, mulf_apply, mean_apply, mean_apply, broadcastInDim_scalar_apply,
    constant_apply]
  rfl

/-- The shift's term at a column: beta minus the mean times the scale's term. -/
theorem shift_apply (B : FVec Ideal S4096 .f32) (X1 : FVec Ideal S1x8192 .f32) (SC : FVec Ideal S1x4096 .f32)
    (h0 : S1x8192.Slices ![0, 0] S1x4096) (h1 : S1x8192.Slices ![0, 4096] S1x4096)
    (hb : S_.BroadcastsInDim S1x4096 ![]) (hc : S4096.ShapeCasts S1x4096) (k : Fin 4096) :
    subf (fun i => shapeCast S1x4096 B hc i)
      (mulf
        (Host.divf (addf (extractStridedSlice S1x4096 ![0, 0] X1 h0) (extractStridedSlice S1x4096 ![0, 4096] X1 h1))
          (broadcastInDim S1x4096 ![] hb (constant (F := Ideal) S_ .f32 0x46800000#32)))
        SC)
      (ix2 0 k)
      = B (ix1 k) - Ideal.div (halves X1 k) Cert.Layer.rows * SC (ix2 0 k) := by
  rw [subf_apply, mulf_apply, mean_apply]
  show shapeCast S1x4096 B hc (ix2 0 k) - _ = _
  rw [shapeCast_a_1a_apply]

/-! ### The three stretches -/

variable (W : Valuation τ sig (Elt Ideal))

/-- After the first hidden region: the scale buffer at column k. -/
theorem scale1 (k : Fin 4096) : @Eq EReal (StableHlo.after (hostOps1 (F := Ideal)) W main_v34 (ix2 0 k))
    (scaleOf (W main_arg3 (ix1 k)) (halves (W main_v17_1) k) (halves (W main_v17_2) k)) := by
  after_results_simp
  exact scale_apply _ _ _ _ _ _ _ k

/-- After the first hidden region: the shift buffer at column k. -/
theorem shift1 (k : Fin 4096) : @Eq EReal (StableHlo.after (hostOps1 (F := Ideal)) W main_v37 (ix2 0 k))
    (shiftOf (W main_arg4 (ix1 k)) (W main_arg3 (ix1 k)) (halves (W main_v17_1) k) (halves (W main_v17_2) k)) := by
  after_results_simp
  refine (shift_apply _ _ _ _ _ _ _ k).trans ?_
  unfold shiftOf
  congr 2
  exact scale_apply _ _ _ _ _ _ _ k

/-- After the second hidden region: the scale buffer at column k. -/
theorem scale2 (k : Fin 4096) : @Eq EReal (StableHlo.after (hostOps2 (F := Ideal)) W main_v55 (ix2 0 k))
    (scaleOf (W main_arg7 (ix1 k)) (halves (W main_v38_1) k) (halves (W main_v38_2) k)) := by
  after_results_simp
  exact scale_apply _ _ _ _ _ _ _ k

/-- After the second hidden region: the shift buffer at column k. -/
theorem shift2 (k : Fin 4096) : @Eq EReal (StableHlo.after (hostOps2 (F := Ideal)) W main_v58 (ix2 0 k))
    (shiftOf (W main_arg8 (ix1 k)) (W main_arg7 (ix1 k)) (halves (W main_v38_1) k) (halves (W main_v38_2) k)) := by
  after_results_simp
  refine (shift_apply _ _ _ _ _ _ _ k).trans ?_
  unfold shiftOf
  congr 2
  exact scale_apply _ _ _ _ _ _ _ k

/-- After the third hidden region: the scale buffer at column k. -/
theorem scale3 (k : Fin 4096) : @Eq EReal (StableHlo.after (hostOps3 (F := Ideal)) W main_v76 (ix2 0 k))
    (scaleOf (W main_arg11 (ix1 k)) (halves (W main_v59_1) k) (halves (W main_v59_2) k)) := by
  after_results_simp
  exact scale_apply _ _ _ _ _ _ _ k

/-- After the third hidden region: the shift buffer at column k. -/
theorem shift3 (k : Fin 4096) : @Eq EReal (StableHlo.after (hostOps3 (F := Ideal)) W main_v79 (ix2 0 k))
    (shiftOf (W main_arg12 (ix1 k)) (W main_arg11 (ix1 k)) (halves (W main_v59_1) k) (halves (W main_v59_2) k)) := by
  after_results_simp
  refine (shift_apply _ _ _ _ _ _ _ k).trans ?_
  unfold shiftOf
  congr 2
  exact scale_apply _ _ _ _ _ _ _ k

end Cert.KernelIdeal.Host

end
-- ==== Proof.HostKeep.lean ====
/-
  What the stretches of host operations leave alone.

  Each host operation writes exactly one buffer, its result. A buffer that is the result of none of a stretch's
  operations therefore holds after the stretch what it held before it.
-/
import proofs.«105723_j39608188403810_2_alg».proof.Proof.Gen.KernelIdeal.Launch
import Idealize.ShloMosaic.Lib.StableHlo.Run

noncomputable section

namespace Cert.KernelIdeal.Host

open Idealize.ShloMosaic Idealize.ShloMosaic.TcCoe Cert.KernelIdeal Cert.KernelIdeal.Gen

variable {F : FTy → Type} [FloatOps F]

/-- The buffers stretch 0 writes, one per operation, in order. -/
abbrev written0 : List (Ref sig .tc) :=
  [main_v0, main_v1, main_v2, main_v3, main_v4, main_v5, main_v6, main_v7, main_v8, main_v9, main_v10, main_v11, main_v12, main_v13, main_v14, main_v15, main_v16]

theorem writes0 : (hostOps0 : List (HloOp τ sig (Elt F))).Forall fun op =>
    op.writes ⊆ (written0.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-- A buffer stretch 0 does not write holds after it what it held before. -/
theorem keep0 (W : Valuation τ sig (Elt F)) (b : Ref sig .tc) (hb : b ∉ written0) :
    StableHlo.after hostOps0 W b = W b :=
  StableHlo.after_of_writes_sub hostOps0 W writes0 hb

/-- The buffers stretch 1 writes, one per operation, in order. -/
abbrev written1 : List (Ref sig .tc) :=
  [main_v18, main_v19, main_v20, main_v21, main_v22, main_v23, main_cst, main_v24, main_v25, main_cst_0, main_v26, main_v27, main_v28, main_v29, main_v30, main_cst_1, main_v31, main_v32, main_v33, main_v34, main_v35, main_v36, main_v37]

theorem writes1 : (hostOps1 : List (HloOp τ sig (Elt F))).Forall fun op =>
    op.writes ⊆ (written1.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-- A buffer stretch 1 does not write holds after it what it held before. -/
theorem keep1 (W : Valuation τ sig (Elt F)) (b : Ref sig .tc) (hb : b ∉ written1) :
    StableHlo.after hostOps1 W b = W b :=
  StableHlo.after_of_writes_sub hostOps1 W writes1 hb

/-- The buffers stretch 2 writes, one per operation, in order. -/
abbrev written2 : List (Ref sig .tc) :=
  [main_v39, main_v40, main_v41, main_v42, main_v43, main_v44, main_cst_2, main_v45, main_v46, main_cst_3, main_v47, main_v48, main_v49, main_v50, main_v51, main_cst_4, main_v52, main_v53, main_v54, main_v55, main_v56, main_v57, main_v58]

theorem writes2 : (hostOps2 : List (HloOp τ sig (Elt F))).Forall fun op =>
    op.writes ⊆ (written2.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-- A buffer stretch 2 does not write holds after it what it held before. -/
theorem keep2 (W : Valuation τ sig (Elt F)) (b : Ref sig .tc) (hb : b ∉ written2) :
    StableHlo.after hostOps2 W b = W b :=
  StableHlo.after_of_writes_sub hostOps2 W writes2 hb

/-- The buffers stretch 3 writes, one per operation, in order. -/
abbrev written3 : List (Ref sig .tc) :=
  [main_v60, main_v61, main_v62, main_v63, main_v64, main_v65, main_cst_5, main_v66, main_v67, main_cst_6, main_v68, main_v69, main_v70, main_v71, main_v72, main_cst_7, main_v73, main_v74, main_v75, main_v76, main_v77, main_v78, main_v79]

theorem writes3 : (hostOps3 : List (HloOp τ sig (Elt F))).Forall fun op =>
    op.writes ⊆ (written3.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-- A buffer stretch 3 does not write holds after it what it held before. -/
theorem keep3 (W : Valuation τ sig (Elt F)) (b : Ref sig .tc) (hb : b ∉ written3) :
    StableHlo.after hostOps3 W b = W b :=
  StableHlo.after_of_writes_sub hostOps3 W writes3 hb

end Cert.KernelIdeal.Host

end
-- ==== Proof.HalfSum.lean ====
/-
  The two half-batch sums add up to the sum over the whole batch.

  A sum over the rows 0 … a·b − 1 is the sum over a blocks of b consecutive rows: the map (t, y) ↦ t·b + y is a
  bijection from pairs onto rows. Used twice — 16384 rows as 32 blocks of 512 and those 32 blocks as 2 halves of 16,
  or 256 blocks of 64 as 2 halves of 128 — this turns the sum over all rows into the sum of the two halves.
  Only commutativity and associativity of the addition are used, so nothing needs to be finite.
-/
import proofs.«105723_j39608188403810_2_alg».proof.Proof.Region

noncomputable section

namespace Cert.Layer

/-- Row t·b + y of block t lies below a·b. -/
theorem lt_of_block {a b t y : ℕ} (ht : t < a) (hy : y < b) : t * b + y < a * b :=
  calc t * b + y < t * b + b := by omega
    _ = (t + 1) * b := by ring
    _ ≤ a * b := Nat.mul_le_mul_right _ (by omega)

/-- A sum over n = a·b rows, block by block. -/
theorem sum_fin_mul {M : Type*} [AddCommMonoid M] {n : ℕ} (a b : ℕ) (hn : n = a * b) (f : Fin n → M) :
    ∑ r : Fin n, f r = ∑ t : Fin a, ∑ y : Fin b, f ⟨t.val * b + y.val, hn ▸ lt_of_block t.isLt y.isLt⟩ := by
  subst hn
  rw [← Equiv.sum_comp finProdFinEquiv f, Fintype.sum_prod_type]
  refine Finset.sum_congr rfl fun t _ => Finset.sum_congr rfl fun y _ => ?_
  congr 1
  ext
  simp only [finProdFinEquiv_apply_val]
  ring

theorem halfSum16x512_add (f : Fin 16384 → EReal) :
    halfSum16x512 f 0 + halfSum16x512 f 1 = ∑ r : Fin 16384, f r := by
  rw [sum_fin_mul 32 512 (by norm_num) f,
    sum_fin_mul 2 16 (by norm_num) (fun s : Fin 32 => ∑ y : Fin 512, f ⟨s.val * 512 + y.val, _⟩),
    Fin.sum_univ_two]
  rfl

theorem halfSum128x64_add (f : Fin 16384 → EReal) :
    halfSum128x64 f 0 + halfSum128x64 f 1 = ∑ r : Fin 16384, f r := by
  rw [sum_fin_mul 256 64 (by norm_num) f,
    sum_fin_mul 2 128 (by norm_num) (fun s : Fin 256 => ∑ y : Fin 64, f ⟨s.val * 64 + y.val, _⟩),
    Fin.sum_univ_two]
  rfl

end Cert.Layer

end
-- ==== Proof.ChainNorm.lean ====
/-
  From the column sums a region leaves to the next layer's scale and shift.

  A hidden region leaves, for each column j, the sum and the sum of squares of its output over either half of the
  batch: entry j of a row of 8192 for the first half, entry 4096 + j for the second. The host operations that follow
  add the two halves, which gives the column's sum and sum of squares over the whole batch, and from these and the
  layer's gamma and beta form scale = gamma · rsqrt (sumsq / n − (sum / n)² + ε) and shift = beta − (sum / n) · scale:
  the affine pair of the normalisation. Gamma and beta are arguments of the program, and nothing writes an argument:
  not a host operation, not a region. So wherever they are read along the run they hold what they held at the launch.
-/
import proofs.«105723_j39608188403810_2_alg».proof.Proof.ChainDefs
import proofs.«105723_j39608188403810_2_alg».proof.Proof.HostNorm
import proofs.«105723_j39608188403810_2_alg».proof.Proof.HostKeep
import proofs.«105723_j39608188403810_2_alg».proof.Proof.HalfSum

noncomputable section

namespace Cert.KernelIdeal.Chain

open Cert.KernelIdeal Cert.KernelIdeal.Gen Idealize.ShloMosaic Idealize.ShloMosaic.ValueIdx Idealize.ShloMosaic.TcCoe
  Idealize.SL.Sem Cert.Layer

/-- A row of 8192 entries whose entry h · 4096 + j is `s h j`: its two halves, added at column k, are
    `s 0 k + s 1 k`. -/
theorem halves_eq_add (X : S1x8192.Idx → EReal) (s : Fin 2 → Fin 4096 → EReal)
    (hX : ∀ (h : Fin 2) (j : Fin 4096), X (ix2 0 ⟨h.val * 4096 + j.val, by have := h.isLt; have := j.isLt; omega⟩) = s h j) (k : Fin 4096) :
    Host.halves X k = s 0 k + s 1 k := by
  have e0 : X (ix2 0 ⟨k.val, by have := k.isLt; omega⟩) = s 0 k := by
    rw [← hX 0 k]; exact congrArg (fun q : Fin 8192 => X (ix2 0 q)) (Fin.ext (by simp))
  have e1 : X (ix2 0 ⟨4096 + k.val, by have := k.isLt; omega⟩) = s 1 k := by
    rw [← hX 1 k]; exact congrArg (fun q : Fin 8192 => X (ix2 0 q)) (Fin.ext (by simp))
  unfold Host.halves
  rw [e0, e1]

variable (m : (ℓ : Loc nD τ sig) → Buf (Elt Ideal) ℓ) (ρ : Dev nD → PrngReg)

/-- A buffer that neither the first stretch of host operations nor the first region writes holds, at that region's
    exit, what it held at the launch. -/
theorem arg_W2 (c : Dev nD) (b : Ref sig .tc) (h0 : b ∉ Host.written0) (hr0 : ∀ w, Pipeline.arrRef spec0 w ≠ b) :
    W2 m ρ c (Proc.devRef .tc b) = m ((c : Thread nD τ).loc b) :=
  (W2_of_ne m ρ c b hr0).trans (Host.keep0 (W0 m ρ c) b h0)

/-- The same at the second region's exit. -/
theorem arg_W4 (c : Dev nD) (b : Ref sig .tc) (h0 : b ∉ Host.written0) (hr0 : ∀ w, Pipeline.arrRef spec0 w ≠ b)
    (h1 : b ∉ Host.written1) (hr1 : ∀ w, Pipeline.arrRef spec1 w ≠ b) :
    W4 m ρ c (Proc.devRef .tc b) = m ((c : Thread nD τ).loc b) :=
  (W4_of_ne m ρ c b hr1).trans ((Host.keep1 (W2 m ρ c) b h1).trans (arg_W2 m ρ c b h0 hr0))

/-- The same at the third region's exit. -/
theorem arg_W6 (c : Dev nD) (b : Ref sig .tc) (h0 : b ∉ Host.written0) (hr0 : ∀ w, Pipeline.arrRef spec0 w ≠ b)
    (h1 : b ∉ Host.written1) (hr1 : ∀ w, Pipeline.arrRef spec1 w ≠ b)
    (h2 : b ∉ Host.written2) (hr2 : ∀ w, Pipeline.arrRef spec2 w ≠ b) :
    W6 m ρ c (Proc.devRef .tc b) = m ((c : Thread nD τ).loc b) :=
  (W6_of_ne m ρ c b hr2).trans ((Host.keep2 (W4 m ρ c) b h2).trans (arg_W4 m ρ c b h0 hr0 h1 hr1))

/-- After the first hidden region's column sums: the host operations leave the next normalisation's scale and shift. -/
theorem norm1 (c : Dev nD)
    (hsum : ∀ (h : Fin 2) (j : Fin 4096), @Eq EReal (W2 m ρ c main_v17_1 (ix2 0 ⟨h.val * 4096 + j.val, by have := h.isLt; have := j.isLt; omega⟩))
      (halfSum16x512 (fun r => p1 m c r j) h))
    (hsq : ∀ (h : Fin 2) (j : Fin 4096), @Eq EReal (W2 m ρ c main_v17_2 (ix2 0 ⟨h.val * 4096 + j.val, by have := h.isLt; have := j.isLt; omega⟩))
      (halfSum16x512 (fun r => p1 m c r j * p1 m c r j) h))
    (k : Fin 4096) :
    @Eq EReal (W3 m ρ c main_v34 (ix2 0 k)) (Cert.Layer.scale (p1 m c) (args m c).g1 k)
      ∧ @Eq EReal (W3 m ρ c main_v37 (ix2 0 k)) (Cert.Layer.shift (p1 m c) (args m c).g1 (args m c).be1 k) := by
  have hs : Host.halves (W2 m ρ c main_v17_1) k = colSum (p1 m c) k :=
    (halves_eq_add _ (fun h j => halfSum16x512 (fun r => p1 m c r j) h) hsum k).trans (halfSum16x512_add fun r => p1 m c r k)
  have hq : Host.halves (W2 m ρ c main_v17_2) k = colSq (p1 m c) k :=
    (halves_eq_add _ (fun h j => halfSum16x512 (fun r => p1 m c r j * p1 m c r j) h) hsq k).trans
      (halfSum16x512_add fun r => p1 m c r k * p1 m c r k)
  have hg : @Eq EReal (W2 m ρ c main_arg3 (ix1 k)) ((args m c).g1 k) := by
    rw [arg_W2 m ρ c main_arg3 (by decide) (by decide)]; rfl
  have hb : @Eq EReal (W2 m ρ c main_arg4 (ix1 k)) ((args m c).be1 k) := by
    rw [arg_W2 m ρ c main_arg4 (by decide) (by decide)]; rfl
  constructor
  · rw [Host.layer_scale_eq, ← hs, ← hq, ← hg]
    exact Host.scale1 (W2 m ρ c) k
  · rw [Host.layer_shift_eq, ← hs, ← hq, ← hg, ← hb]
    exact Host.shift1 (W2 m ρ c) k

/-- After the second hidden region's column sums: the host operations leave the next normalisation's scale and shift. -/
theorem norm2 (c : Dev nD)
    (hsum : ∀ (h : Fin 2) (j : Fin 4096), @Eq EReal (W4 m ρ c main_v38_1 (ix2 0 ⟨h.val * 4096 + j.val, by have := h.isLt; have := j.isLt; omega⟩))
      (halfSum128x64 (fun r => p2 m c r j) h))
    (hsq : ∀ (h : Fin 2) (j : Fin 4096), @Eq EReal (W4 m ρ c main_v38_2 (ix2 0 ⟨h.val * 4096 + j.val, by have := h.isLt; have := j.isLt; omega⟩))
      (halfSum128x64 (fun r => p2 m c r j * p2 m c r j) h))
    (k : Fin 4096) :
    @Eq EReal (W5 m ρ c main_v55 (ix2 0 k)) (Cert.Layer.scale (p2 m c) (args m c).g2 k)
      ∧ @Eq EReal (W5 m ρ c main_v58 (ix2 0 k)) (Cert.Layer.shift (p2 m c) (args m c).g2 (args m c).be2 k) := by
  have hs : Host.halves (W4 m ρ c main_v38_1) k = colSum (p2 m c) k :=
    (halves_eq_add _ (fun h j => halfSum128x64 (fun r => p2 m c r j) h) hsum k).trans (halfSum128x64_add fun r => p2 m c r k)
  have hq : Host.halves (W4 m ρ c main_v38_2) k = colSq (p2 m c) k :=
    (halves_eq_add _ (fun h j => halfSum128x64 (fun r => p2 m c r j * p2 m c r j) h) hsq k).trans
      (halfSum128x64_add fun r => p2 m c r k * p2 m c r k)
  have hg : @Eq EReal (W4 m ρ c main_arg7 (ix1 k)) ((args m c).g2 k) := by
    rw [arg_W4 m ρ c main_arg7 (by decide) (by decide) (by decide) (by decide)]; rfl
  have hb : @Eq EReal (W4 m ρ c main_arg8 (ix1 k)) ((args m c).be2 k) := by
    rw [arg_W4 m ρ c main_arg8 (by decide) (by decide) (by decide) (by decide)]; rfl
  constructor
  · rw [Host.layer_scale_eq, ← hs, ← hq, ← hg]
    exact Host.scale2 (W4 m ρ c) k
  · rw [Host.layer_shift_eq, ← hs, ← hq, ← hg, ← hb]
    exact Host.shift2 (W4 m ρ c) k

/-- After the third hidden region's column sums: the host operations leave the next normalisation's scale and shift. -/
theorem norm3 (c : Dev nD)
    (hsum : ∀ (h : Fin 2) (j : Fin 4096), @Eq EReal (W6 m ρ c main_v59_1 (ix2 0 ⟨h.val * 4096 + j.val, by have := h.isLt; have := j.isLt; omega⟩))
      (halfSum128x64 (fun r => p3 m c r j) h))
    (hsq : ∀ (h : Fin 2) (j : Fin 4096), @Eq EReal (W6 m ρ c main_v59_2 (ix2 0 ⟨h.val * 4096 + j.val, by have := h.isLt; have := j.isLt; omega⟩))
      (halfSum128x64 (fun r => p3 m c r j * p3 m c r j) h))
    (k : Fin 4096) :
    @Eq EReal (W7 m ρ c main_v76 (ix2 0 k)) (Cert.Layer.scale (p3 m c) (args m c).g3 k)
      ∧ @Eq EReal (W7 m ρ c main_v79 (ix2 0 k)) (Cert.Layer.shift (p3 m c) (args m c).g3 (args m c).be3 k) := by
  have hs : Host.halves (W6 m ρ c main_v59_1) k = colSum (p3 m c) k :=
    (halves_eq_add _ (fun h j => halfSum128x64 (fun r => p3 m c r j) h) hsum k).trans (halfSum128x64_add fun r => p3 m c r k)
  have hq : Host.halves (W6 m ρ c main_v59_2) k = colSq (p3 m c) k :=
    (halves_eq_add _ (fun h j => halfSum128x64 (fun r => p3 m c r j * p3 m c r j) h) hsq k).trans
      (halfSum128x64_add fun r => p3 m c r k * p3 m c r k)
  have hg : @Eq EReal (W6 m ρ c main_arg11 (ix1 k)) ((args m c).g3 k) := by
    rw [arg_W6 m ρ c main_arg11 (by decide) (by decide) (by decide) (by decide) (by decide) (by decide)]; rfl
  have hb : @Eq EReal (W6 m ρ c main_arg12 (ix1 k)) ((args m c).be3 k) := by
    rw [arg_W6 m ρ c main_arg12 (by decide) (by decide) (by decide) (by decide) (by decide) (by decide)]; rfl
  constructor
  · rw [Host.layer_scale_eq, ← hs, ← hq, ← hg]
    exact Host.scale3 (W6 m ρ c) k
  · rw [Host.layer_shift_eq, ← hs, ← hq, ← hg, ← hb]
    exact Host.shift3 (W6 m ρ c) k

end Cert.KernelIdeal.Chain

end
-- ==== Proof.RegionLaw.lean ====
/-
  What a hidden region computes is the next layer of the network: if its input array holds the previous layer's
  rectified output `p`, its scale and shift arrays that layer's scale and shift, its weight array the signs of the
  weights, transposed, and its bias array the bias, then its output is `pre (actAffine p g be) w b`: the sign of
  `p · scale + shift` is the normalised sign in the affine arrangement, entry by entry.
-/
import proofs.«105723_j39608188403810_2_alg».proof.Proof.Region

noncomputable section

namespace Cert.Layer

open Idealize.ShloMosaic Idealize.ShloMosaic.ValueIdx

theorem hiddenOut_eq (p : Fin 16384 → Fin 4096 → EReal) (g be : Fin 4096 → EReal) (w : Fin 4096 → Fin 4096 → EReal)
    (b : Fin 4096 → EReal)
    (hin : (⟨2, ![16384, 4096]⟩ : Shape).Idx → EReal) (sc sh : (⟨2, ![1, 4096]⟩ : Shape).Idx → EReal)
    (wt : (⟨2, ![4096, 4096]⟩ : Shape).Idx → EReal) (bb : (⟨2, ![1, 4096]⟩ : Shape).Idx → EReal)
    (h_in : ∀ (r : Fin 16384) (k : Fin 4096), hin (ix2 r k) = p r k)
    (h_sc : ∀ k : Fin 4096, sc (ix2 0 k) = scale p g k)
    (h_sh : ∀ k : Fin 4096, sh (ix2 0 k) = shift p g be k)
    (h_wt : ∀ (k j : Fin 4096), wt (ix2 k j) = Ideal.sign (w j k))
    (h_bb : ∀ j : Fin 4096, bb (ix2 0 j) = b j) :
    hiddenOut hin sc sh wt bb = pre (actAffine p g be) w b := by
  funext r j
  unfold hiddenOut pre lin
  rw [h_bb j]
  refine congrArg (fun z => max (z + b j) 0) (Finset.sum_congr rfl fun k _ => ?_)
  unfold signAffine
  rw [h_in r k, h_sc k, h_sh k, h_wt k j]
  rfl

end Cert.Layer

end
-- ==== Proof.Hidden1Case.lean ====
/-
  What one grid point leaves in its three output blocks, as terms of the blocks it reads.

  At every point the 64 × 4096 output block is the rectified product block of the point's inputs. The two running
  column sums (of the entries, of their squares) are, at the first point of a half of the batch, the zero row plus the
  block's column sums; at every later point, what the point before left plus the block's column sums.
-/
import proofs.«105723_j39608188403810_2_alg».proof.Proof.Gen.KernelIdeal.Frame
import Idealize.ShloMosaic.Lib.Pipeline.Value
import Idealize.ShloMosaic.Lib.Tactic

noncomputable section

namespace Cert.KernelIdeal.Hidden1

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-! ## A point that is not the first of its half: the running sums continue -/

theorem out_B_5 (c : Dev nD) (i : grid1.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : ¬cond1_0 i) (x0 : Vec F S64x4096 .f32) (x1 : Vec F S1x4096 .f32) (x2 : Vec F S1x4096 .f32) (x3 : Vec F S4096x4096 .bf16) (x4 : Vec F S1x4096 .f32) (xo6 xo7 : Vec F S1x4096 .f32) :
    out1_B_5 c i arg2 harg2 arg3 harg3 arg4 harg4 arg5 harg5 arg6 harg6 arg7 harg7 arg8 harg8 arg9 harg9 hc0 x0 x1 x2 x3 x4 xo6 xo7 = k1_pay4 x0 x1 x2 x3 x4 := by
  unfold out1_B_5
  rw [View.read_writes_eq_canon _ _ _ (cover1_B_5 c i arg2 harg2 arg3 harg3 arg4 harg4 arg5 harg5 arg6 harg6 arg7 harg7 arg8 harg8 arg9 harg9 hc0 x0 x1 x2 x3 x4 xo6 xo7)]
  unfold kernelRun1_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S64x4096) hz, View.ld_unit_zero (S := S1x4096) hz, View.ld_unit_zero (S := S4096x4096) hz]

theorem out_B_6 (c : Dev nD) (i : grid1.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : ¬cond1_0 i) (x0 : Vec F S64x4096 .f32) (x1 : Vec F S1x4096 .f32) (x2 : Vec F S1x4096 .f32) (x3 : Vec F S4096x4096 .bf16) (x4 : Vec F S1x4096 .f32) (xo6 xo7 : Vec F S1x4096 .f32) :
    out1_B_6 c i arg2 harg2 arg3 harg3 arg4 harg4 arg5 harg5 arg6 harg6 arg7 harg7 arg8 harg8 arg9 harg9 hc0 x0 x1 x2 x3 x4 xo6 xo7 = k1_pay5 x0 x1 x2 x3 x4 xo6 := by
  unfold out1_B_6
  rw [View.read_writes_eq_canon _ _ _ (cover1_B_6 c i arg2 harg2 arg3 harg3 arg4 harg4 arg5 harg5 arg6 harg6 arg7 harg7 arg8 harg8 arg9 harg9 hc0 x0 x1 x2 x3 x4 xo6 xo7)]
  unfold kernelRun1_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S64x4096) hz, View.ld_unit_zero (S := S1x4096) hz, View.ld_unit_zero (S := S4096x4096) hz]

theorem out_B_7 (c : Dev nD) (i : grid1.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : ¬cond1_0 i) (x0 : Vec F S64x4096 .f32) (x1 : Vec F S1x4096 .f32) (x2 : Vec F S1x4096 .f32) (x3 : Vec F S4096x4096 .bf16) (x4 : Vec F S1x4096 .f32) (xo6 xo7 : Vec F S1x4096 .f32) :
    out1_B_7 c i arg2 harg2 arg3 harg3 arg4 harg4 arg5 harg5 arg6 harg6 arg7 harg7 arg8 harg8 arg9 harg9 hc0 x0 x1 x2 x3 x4 xo6 xo7 = k1_pay1 (k1_pay4 x0 x1 x2 x3 x4) xo7 := by
  unfold out1_B_7
  rw [View.read_writes_eq_canon _ _ _ (cover1_B_7 c i arg2 harg2 arg3 harg3 arg4 harg4 arg5 harg5 arg6 harg6 arg7 harg7 arg8 harg8 arg9 harg9 hc0 x0 x1 x2 x3 x4 xo6 xo7)]
  unfold kernelRun1_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S64x4096) hz, View.ld_unit_zero (S := S1x4096) hz, View.ld_unit_zero (S := S4096x4096) hz]

/-! ## The first point of a half: the running sums start from the zero row -/

theorem out_A_5 (c : Dev nD) (i : grid1.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : cond1_0 i) (x0 : Vec F S64x4096 .f32) (x1 : Vec F S1x4096 .f32) (x2 : Vec F S1x4096 .f32) (x3 : Vec F S4096x4096 .bf16) (x4 : Vec F S1x4096 .f32) :
    out1_A_5 c i arg2 harg2 arg3 harg3 arg4 harg4 arg5 harg5 arg6 harg6 arg7 harg7 arg8 harg8 arg9 harg9 hc0 x0 x1 x2 x3 x4 = k1_pay4 x0 x1 x2 x3 x4 := by
  unfold out1_A_5
  rw [View.read_writes_eq_canon _ _ _ (cover1_A_5 c i arg2 harg2 arg3 harg3 arg4 harg4 arg5 harg5 arg6 harg6 arg7 harg7 arg8 harg8 arg9 harg9 hc0 x0 x1 x2 x3 x4)]
  unfold kernelRun1_A
  dsimp only
  sl_unfold_words
  rw [View.canon_unit_zero hz]
  simp only [View.readAt_eq_ld, harg2.read_unread, harg3.read_unread, harg4.read_unread, harg5.read_unread, harg6.read_unread, View.ld_unit_zero (S := S64x4096) hz, View.ld_unit_zero (S := S1x4096) hz, View.ld_unit_zero (S := S4096x4096) hz]

theorem out_A_6 (c : Dev nD) (i : grid1.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : cond1_0 i) (x0 : Vec F S64x4096 .f32) (x1 : Vec F S1x4096 .f32) (x2 : Vec F S1x4096 .f32) (x3 : Vec F S4096x4096 .bf16) (x4 : Vec F S1x4096 .f32) :
    out1_A_6 c i arg2 harg2 arg3 harg3 arg4 harg4 arg5 harg5 arg6 harg6 arg7 harg7 arg8 harg8 arg9 harg9 hc0 x0 x1 x2 x3 x4 = k1_pay5 x0 x1 x2 x3 x4 k1_pay2 := by
  unfold out1_A_6
  rw [View.read_writes_eq_canon _ _ _ (cover1_A_6 c i arg2 harg2 arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x4096) hz, View.readCov_unit_zero (S := S1x4096) _ hz]
  simp only [View.readAt_eq_ld, harg2.read_unread, harg3.read_unread, harg4.read_unread, harg5.read_unread, harg6.read_unread, View.ld_unit_zero (S := S64x4096) hz, View.ld_unit_zero (S := S1x4096) hz, View.ld_unit_zero (S := S4096x4096) hz]

theorem out_A_7 (c : Dev nD) (i : grid1.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : cond1_0 i) (x0 : Vec F S64x4096 .f32) (x1 : Vec F S1x4096 .f32) (x2 : Vec F S1x4096 .f32) (x3 : Vec F S4096x4096 .bf16) (x4 : Vec F S1x4096 .f32) :
    out1_A_7 c i arg2 harg2 arg3 harg3 arg4 harg4 arg5 harg5 arg6 harg6 arg7 harg7 arg8 harg8 arg9 harg9 hc0 x0 x1 x2 x3 x4 = k1_pay1 (k1_pay4 x0 x1 x2 x3 x4) k1_pay3 := by
  unfold out1_A_7
  rw [View.read_writes_eq_canon _ _ _ (cover1_A_7 c i arg2 harg2 arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x4096) hz, View.readCov_unit_zero (S := S1x4096) _ hz]
  simp only [View.readAt_eq_ld, harg2.read_unread, harg3.read_unread, harg4.read_unread, harg5.read_unread, harg6.read_unread, View.ld_unit_zero (S := S64x4096) hz, View.ld_unit_zero (S := S1x4096) hz, View.ld_unit_zero (S := S4096x4096) hz]

end Cert.KernelIdeal.Hidden1

end
-- ==== Proof.Hidden1Pay.lean ====
/-
  One grid point of a hidden region, read entry by entry on the extended reals.

  The point holds 64 rows of the previous layer's output. Each entry is first sent through that layer's affine
  normalisation and the sign; the 64 signed rows are multiplied with the whole (already signed and transposed) weight
  matrix, the bias is added and the result rectified: entry (y, j) of the block is
  max (∑ₖ sign (h (y, k) · sc k + sh k) · w (k, j) + b j) 0.
  The two running column sums then grow by the block's column sums: of its entries, and of their squares.
-/
import proofs.«105723_j39608188403810_2_alg».proof.Proof.Gen.KernelIdeal.Skeleton
import Idealize.ShloMosaic.Lib.ValueLayout
import Idealize.ShloMosaic.PureOps.Ideal.Laws

noncomputable section

namespace Cert.KernelIdeal.Hidden1

open Idealize.ShloMosaic Idealize.ShloMosaic.ValueIdx
open Cert.KernelIdeal Cert.KernelIdeal.Gen

/-- The contraction of a 64 × 4096 block with a 4096 × 4096 matrix: one inner axis of 4096 coordinates. -/
abbrev dotBlock : DotDims S64x4096 S4096x4096 S64x4096 := dot_S64x4096_S4096x4096_S64x4096_1_0_0_1_n_n

theorem dotBlock_lhs0 (i : S64x4096.Idx) (q : dotBlock.contr.Idx) : (dotBlock.lhsIdx i q 0).val = (i 0).val := by
  unfold DotDims.lhsIdx
  rw [dif_neg (show ¬(0 : Fin S64x4096.rank) ∈ dotBlock.lhsBatch by decide),
    dif_pos (show (0 : Fin S64x4096.rank) ∈ dotBlock.lhsNonContracting by decide)]
  rfl
theorem dotBlock_lhs1 (i : S64x4096.Idx) (q : dotBlock.contr.Idx) :
    (dotBlock.lhsIdx i q 1).val = (q ⟨0, by decide⟩).val :=
  dotBlock.lhsIdx_val_of_single rfl i q
theorem dotBlock_rhs0 (i : S64x4096.Idx) (q : dotBlock.contr.Idx) :
    (dotBlock.rhsIdx i q 0).val = (q ⟨0, by decide⟩).val :=
  dotBlock.rhsIdx_val_of_single rfl i q
theorem dotBlock_rhs1 (i : S64x4096.Idx) (q : dotBlock.contr.Idx) : (dotBlock.rhsIdx i q 1).val = (i 1).val := by
  unfold DotDims.rhsIdx
  rw [dif_neg (show ¬(1 : Fin S4096x4096.rank) ∈ dotBlock.rhsBatch by decide),
    dif_pos (show (1 : Fin S4096x4096.rank) ∈ dotBlock.rhsNonContracting by decide)]
  rfl

/-- The product into a zero accumulator, at row y and column j: the sum over the inner coordinate. -/
theorem matmul_zero_apply (a : FVec Ideal S64x4096 .bf16) (w : FVec Ideal S4096x4096 .bf16) (y : Fin 64) (j : Fin 4096) :
    FloatOps.matmul dotBlock none a w (constant S64x4096 .f32 0x00000000#32) (ix2 y j)
      = ∑ k : Fin 4096, a (ix2 y k) * w (ix2 k j) := by
  rw [Ideal.matmul_constant_zero_apply, ← Equiv.sum_comp (contrEquiv1 dotBlock 4096 rfl rfl).symm]
  refine Finset.sum_congr rfl fun k _ => ?_
  have hk := contrEquiv1_symm_val dotBlock 4096 rfl rfl k
  have el : dotBlock.lhsIdx (ix2 y j) ((contrEquiv1 dotBlock 4096 rfl rfl).symm k) = ix2 y k :=
    funext fun a => Fin.ext (by
      match a with
      | ⟨0, _⟩ => exact dotBlock_lhs0 _ _
      | ⟨1, _⟩ => exact (dotBlock_lhs1 _ _).trans hk)
  have er : dotBlock.rhsIdx (ix2 y j) ((contrEquiv1 dotBlock 4096 rfl rfl).symm k) = ix2 k j :=
    funext fun a => Fin.ext (by
      match a with
      | ⟨0, _⟩ => exact (dotBlock_rhs0 _ _).trans hk
      | ⟨1, _⟩ => exact dotBlock_rhs1 _ _)
  rw [el, er]

/-- The sum of a 64 × 4096 block over its rows, at column j. -/
theorem colSum_apply (v : FVec Ideal S64x4096 .f32) (j : Fin 4096) :
    multiReduction .add [0] S4096 v 0x00000000#32 reduces_S64x4096_S4096 (.inl rfl) rfl (ix1 j)
      = ∑ y : Fin 64, v (ix2 y j) := by
  refine (Ideal.multiReduction_add_single v 0x00000000#32 reduces_S64x4096_S4096 (.inl rfl) rfl (ix1 j)).trans ?_
  refine Finset.sum_congr rfl fun y _ => congrArg v ?_
  funext a
  match a with
  | ⟨0, _⟩ => rfl
  | ⟨1, _⟩ => rfl

/-- The affine normalisation followed by the sign, at row y and inner coordinate k. -/
def signed (x0 : FVec Ideal S64x4096 .f32) (x1 x2 : FVec Ideal S1x4096 .f32) (y : Fin 64) (k : Fin 4096) : EReal :=
  Ideal.sign (x0 (ix2 y k) * x1 (ix2 0 k) + x2 (ix2 0 k))

/-- The block a point stores, at row y and column j. -/
def blockOut (x0 : FVec Ideal S64x4096 .f32) (x1 x2 : FVec Ideal S1x4096 .f32) (x3 : FVec Ideal S4096x4096 .bf16)
    (x4 : FVec Ideal S1x4096 .f32) (y : Fin 64) (j : Fin 4096) : EReal :=
  max ((∑ k : Fin 4096, signed x0 x1 x2 y k * x3 (ix2 k j)) + x4 (ix2 0 j)) 0

/-- The rectified block, entry by entry. -/
theorem pay4_apply (x0 : FVec Ideal S64x4096 .f32) (x1 x2 : FVec Ideal S1x4096 .f32) (x3 : FVec Ideal S4096x4096 .bf16)
    (x4 : FVec Ideal S1x4096 .f32) (y : Fin 64) (j : Fin 4096) :
    k1_pay4 (F := Ideal) x0 x1 x2 x3 x4 (ix2 y j) = blockOut x0 x1 x2 x3 x4 y j := by
  unfold k1_pay4 blockOut
  refine congrArg₂ max ?_ Ideal.ofBits_zero_f32
  refine congrArg₂ (· + ·) ?_ ?_
  · refine (matmul_zero_apply _ _ y j).trans (Finset.sum_congr rfl fun k _ => ?_)
    refine congrArg₂ (· * ·) ?_ ?_
    · refine (Ideal.jnp_sign_eq_sign_f32 _).trans (congrArg Ideal.sign ?_)
      refine congrArg₂ (· + ·) (congrArg₂ (· * ·) ?_ ?_) ?_
      · exact congrFun (shapeCast_self x0 _) _
      · exact (broadcastTo_1b_ab_apply _ _ y k).trans (congrFun (shapeCast_self x1 _) _)
      · exact (broadcastTo_1b_ab_apply _ _ y k).trans (congrFun (shapeCast_self x2 _) _)
    · exact congrFun (shapeCast_self x3 _) _
  · exact (broadcastTo_1b_ab_apply _ _ y j).trans (congrFun (shapeCast_self x4 _) _)

/-- The running sum of the entries grows by the block's column sum. -/
theorem pay5_apply (x0 : FVec Ideal S64x4096 .f32) (x1 x2 : FVec Ideal S1x4096 .f32) (x3 : FVec Ideal S4096x4096 .bf16)
    (x4 xo : FVec Ideal S1x4096 .f32) (j : Fin 4096) :
    k1_pay5 (F := Ideal) x0 x1 x2 x3 x4 xo (ix2 0 j)
      = xo (ix2 0 j) + ∑ y : Fin 64, k1_pay4 (F := Ideal) x0 x1 x2 x3 x4 (ix2 y j) := by
  unfold k1_pay5
  refine congrArg₂ (· + ·) (congrFun (shapeCast_self xo _) _) ?_
  exact (shapeCast_a_1a_apply _ _ 0 j).trans (colSum_apply _ j)

/-- The running sum of the squares grows by the column sum of the block's squares. -/
theorem pay1_apply (p : FVec Ideal S64x4096 .f32) (xo : FVec Ideal S1x4096 .f32) (j : Fin 4096) :
    k1_pay1 (F := Ideal) p xo (ix2 0 j) = xo (ix2 0 j) + ∑ y : Fin 64, p (ix2 y j) * p (ix2 y j) := by
  unfold k1_pay1
  refine congrArg₂ (· + ·) (congrFun (shapeCast_self xo _) _) ?_
  exact (shapeCast_a_1a_apply _ _ 0 j).trans (colSum_apply _ j)

/-- The reset stores zero in either running sum. -/
theorem pay2_apply (i : S1x4096.Idx) : k1_pay2 (F := Ideal) i = 0 := Ideal.ofBits_zero_f32
theorem pay3_apply (i : S1x4096.Idx) : k1_pay3 (F := Ideal) i = 0 := Ideal.ofBits_zero_f32

end Cert.KernelIdeal.Hidden1

end
-- ==== Proof.Hidden1Blocks.lean ====
/-
  The blocks a grid point reads, as entries of the arrays the region finds.

  Point t of the 256 reads rows 64·t … 64·t + 63 of the previous layer's output (all 4096 columns); the two rows of
  the affine normalisation, the weight matrix and the bias row are read whole at every point. Hence the block a point
  stores is, at its row y and column j, the hidden layer's output at row 64·t + y and column j.
-/
import proofs.«105723_j39608188403810_2_alg».proof.Proof.Gen.KernelIdeal.Frame
import proofs.«105723_j39608188403810_2_alg».proof.Proof.Region
import proofs.«105723_j39608188403810_2_alg».proof.Proof.Hidden1Pay

noncomputable section

namespace Cert.KernelIdeal.Hidden1

open Idealize.ShloMosaic Idealize.ShloMosaic.TcCoe Idealize.SL.Sem Idealize.ShloMosaic.ValueIdx
open Cert.KernelIdeal Cert.KernelIdeal.Gen

/-- The block indices of the eight windows at point t, decided once over the grid: the row-blocked windows sit at block
    row t, the whole-array windows at block (0, 0), the two half-sum windows at block column t / 128. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = t.val / 128
    ∧ win1_7.index t (0 : Fin 2) = 0 ∧ win1_7.index t (1 : Fin 2) = t.val / 128 :=
  (by decide +kernel : ∀ t : Fin grid1.N, _)

section Blocks

variable {F : FTy → Type} [FloatOps F]
variable (V : (c : Dev nD) → (b : Ref sig .tc) → Buf (Elt F) ((c : Thread nD τ).loc b))

/-- The input block at point t, row y: row 64·t + y of the array. -/
theorem iblk_rows (c : Dev nD) (t : Fin cfg1.N) (y : Fin 64) (k : Fin 4096) (r : Fin 16384)
    (hr : r.val = t.val * 64 + y.val) :
    (iblk1 V c 0 t : Vec F S64x4096 .f32) (ix2 y k)
      = (V c (Pipeline.arrRef spec1 0) : S16384x4096.Idx → Elt F .f32) (ix2 r k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 64 + 1 * y.val = r.val; rw [e0, hr]; omega
  | ⟨1, _⟩ => show win1_0.index t 1 * 4096 + 1 * k.val = k.val; rw [e1]; omega

/-- The scale row is read whole. -/
theorem iblk_scale (c : Dev nD) (t : Fin cfg1.N) :
    (iblk1 V c 1 t : Vec F S1x4096 .f32) = (V c (Pipeline.arrRef spec1 1) : S1x4096.Idx → Elt F .f32) := by
  obtain ⟨-, -, e0, e1, -⟩ := idx_facts t
  funext i
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * (i 0).val = (i 0).val; rw [e0]; omega
  | ⟨1, _⟩ => show win1_1.index t 1 * 4096 + 1 * (i 1).val = (i 1).val; rw [e1]; omega

/-- The shift row is read whole. -/
theorem iblk_shift (c : Dev nD) (t : Fin cfg1.N) :
    (iblk1 V c 2 t : Vec F S1x4096 .f32) = (V c (Pipeline.arrRef spec1 2) : S1x4096.Idx → Elt F .f32) := by
  obtain ⟨-, -, -, -, e0, e1, -⟩ := idx_facts t
  funext i
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (i 0).val = (i 0).val; rw [e0]; omega
  | ⟨1, _⟩ => show win1_2.index t 1 * 4096 + 1 * (i 1).val = (i 1).val; rw [e1]; omega

/-- The weight matrix is read whole. -/
theorem iblk_weights (c : Dev nD) (t : Fin cfg1.N) :
    (iblk1 V c 3 t : Vec F S4096x4096 .bf16) = (V c (Pipeline.arrRef spec1 3) : S4096x4096.Idx → Elt F .bf16) := by
  obtain ⟨-, -, -, -, -, -, e0, e1, -⟩ := idx_facts t
  funext i
  unfold iblk1
  rw [View.read_apply]
  show V c (Pipeline.arrRef spec1 3) _ = V c (Pipeline.arrRef spec1 3) _
  congr 1
  funext a
  apply Fin.ext
  match a with
  | ⟨0, _⟩ => show win1_3.index t 0 * 4096 + 1 * (i 0).val = (i 0).val; rw [e0]; omega
  | ⟨1, _⟩ => show win1_3.index t 1 * 4096 + 1 * (i 1).val = (i 1).val; rw [e1]; omega

/-- The bias row is read whole. -/
theorem iblk_bias (c : Dev nD) (t : Fin cfg1.N) :
    (iblk1 V c 4 t : Vec F S1x4096 .f32) = (V c (Pipeline.arrRef spec1 4) : S1x4096.Idx → Elt F .f32) := by
  obtain ⟨-, -, -, -, -, -, -, -, e0, e1, -⟩ := idx_facts t
  funext i
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (i 0).val = (i 0).val; rw [e0]; omega
  | ⟨1, _⟩ => show win1_4.index t 1 * 4096 + 1 * (i 1).val = (i 1).val; rw [e1]; omega

end Blocks

/-! ## The block a point stores, as the hidden layer's output -/

section AtIdeal

variable (V : (c : Dev nD) → (b : Ref sig .tc) → Buf (Elt Ideal) ((c : Thread nD τ).loc b))

/-- The hidden layer's output, of the five arrays the region finds. -/
abbrev hid (c : Dev nD) : Fin 16384 → Fin 4096 → EReal :=
  Cert.Layer.hiddenOut (V c (Pipeline.arrRef spec1 0)) (V c (Pipeline.arrRef spec1 1)) (V c (Pipeline.arrRef spec1 2))
    (V c (Pipeline.arrRef spec1 3)) (V c (Pipeline.arrRef spec1 4))

/-- The rectified product block of point t. -/
abbrev blockAt (c : Dev nD) (t : Fin cfg1.N) : FVec Ideal S64x4096 .f32 :=
  k1_pay4 (F := Ideal) (iblk1 V c 0 t) (iblk1 V c 1 t) (iblk1 V c 2 t) (iblk1 V c 3 t) (iblk1 V c 4 t)

/-- Entry (y, j) of point t's block is the hidden layer's output at row 64·t + y, column j. -/
theorem block_eq (c : Dev nD) (t : Fin cfg1.N) (y : Fin 64) (j : Fin 4096) (r : Fin 16384)
    (hr : r.val = t.val * 64 + y.val) : blockAt V c t (ix2 y j) = hid V c r j := by
  show k1_pay4 (F := Ideal) (iblk1 V c 0 t) (iblk1 V c 1 t) (iblk1 V c 2 t) (iblk1 V c 3 t) (iblk1 V c 4 t) (ix2 y j) = _
  rw [iblk_scale V c t, iblk_shift V c t, iblk_weights V c t, iblk_bias V c t]
  refine (pay4_apply (iblk1 V c 0 t) (V c (Pipeline.arrRef spec1 1)) (V c (Pipeline.arrRef spec1 2))
    (V c (Pipeline.arrRef spec1 3)) (V c (Pipeline.arrRef spec1 4)) y j).trans ?_
  unfold blockOut signed hid Cert.Layer.hiddenOut Cert.Layer.signAffine
  simp only [iblk_rows V c t y _ r hr]

end AtIdeal

end Cert.KernelIdeal.Hidden1

end
-- ==== Proof.Hidden1Run.lean ====
/-
  A running sum that restarts every 128 steps, and the half of the batch it adds up.

  A quantity that is 0 + a n at every step n divisible by 128 and s (n − 1) + a n at every other step is, at step n, the
  sum of a over the steps since the last restart. With a n the sum of f over the 64 rows of block n, the value after
  the last step of half h of the batch is the sum of f over that half, taken block by block.
-/
import proofs.«105723_j39608188403810_2_alg».proof.Proof.Region

noncomputable section

namespace Cert.KernelIdeal.Hidden1

open Idealize.ShloMosaic

/-- The sum since the last restart. -/
theorem restart_sum {β : Type*} [AddCommMonoid β] {N : ℕ} (S : (n : ℕ) → n < N → β) (A : ℕ → β)
    (first : ∀ (n : ℕ) (h : n < N), n % 128 = 0 → S n h = 0 + A n)
    (next : ∀ (n : ℕ) (h : n + 1 < N), ¬(n + 1) % 128 = 0 → S (n + 1) h = S n (Nat.lt_of_succ_lt h) + A (n + 1)) :
    ∀ (n : ℕ) (h : n < N), S n h = ∑ s ∈ Finset.range (n % 128 + 1), A (n - n % 128 + s)
  | 0, h => by
    rw [first 0 h rfl, zero_add]
    exact (Finset.sum_range_one _).symm
  | n + 1, h => by
    by_cases h0 : (n + 1) % 128 = 0
    · rw [first _ h h0, zero_add, h0, Finset.sum_range_one]
      rfl
    · rw [next n h h0, restart_sum S A first next n (Nat.lt_of_succ_lt h)]
      have h1 : (n + 1) % 128 = n % 128 + 1 := by omega
      have h2 : n + 1 - (n % 128 + 1) = n - n % 128 := by omega
      have h3 : n - n % 128 + (n % 128 + 1) = n + 1 := by omega
      rw [h1, h2, Finset.sum_range_succ _ (n % 128 + 1), h3]

/-- The sum of f over the 64 rows of block n (rows 64·n … 64·n + 63; n is below 256 wherever this is used). -/
def blockSum (f : Fin 16384 → EReal) (n : ℕ) : EReal :=
  ∑ y : Fin 64, f ⟨(n * 64 + y.val) % 16384, Nat.mod_lt _ (by decide)⟩

/-- The 128 block sums of half h add up to the half's sum. -/
theorem sum_blockSum (f : Fin 16384 → EReal) (h : Fin 2) :
    ∑ s ∈ Finset.range 128, blockSum f (h.val * 128 + s) = Cert.Layer.halfSum128x64 f h := by
  rw [Finset.sum_range]
  unfold Cert.Layer.halfSum128x64 blockSum
  refine Finset.sum_congr rfl fun t _ => Finset.sum_congr rfl fun y _ => congrArg f (Fin.ext ?_)
  have := h.isLt; have := t.isLt; have := y.isLt
  exact Nat.mod_eq_of_lt (by omega)

end Cert.KernelIdeal.Hidden1

end
-- ==== Proof.Hidden1Acc.lean ====
/-
  What the three output blocks hold after each grid point.

  The 64 × 4096 block is, after point t, the rectified product block of t's inputs. The two sum rows restart at the
  first point of a half of the batch (points 0 and 128) and grow at every point by the block's column sums, so after
  point n they hold the sums over the blocks of the points since the restart: by induction on the point, never by
  listing the grid.
-/
import proofs.«105723_j39608188403810_2_alg».proof.Proof.Hidden1Case
import proofs.«105723_j39608188403810_2_alg».proof.Proof.Hidden1Blocks
import proofs.«105723_j39608188403810_2_alg».proof.Proof.Hidden1Run

noncomputable section

namespace Cert.KernelIdeal.Hidden1

open Idealize.ShloMosaic Idealize.ShloMosaic.TcCoe Idealize.SL.Sem Idealize.ShloMosaic.ValueIdx
open Cert.KernelIdeal Cert.KernelIdeal.Gen

section AnyValues

variable {F : FTy → Type} [FloatOps F]
variable (V : (c : Dev nD) → (b : Ref sig .tc) → Buf (Elt F) ((c : Thread nD τ).loc b))

/-- After the first point of a half: the block, and the zero row plus the block's column sums. -/
theorem outs_first (c : Dev nD) (t : Fin cfg1.N) (h0 : t.val % 128 = 0) :
    outsAt1 V c t.val t.isLt
      = (k1_pay4 (iblk1 V c 0 t) (iblk1 V c 1 t) (iblk1 V c 2 t) (iblk1 V c 3 t) (iblk1 V c 4 t), k1_pay5 (iblk1 V c 0 t) (iblk1 V c 1 t) (iblk1 V c 2 t) (iblk1 V c 3 t) (iblk1 V c 4 t) k1_pay2, k1_pay1 (k1_pay4 (iblk1 V c 0 t) (iblk1 V c 1 t) (iblk1 V c 2 t) (iblk1 V c 3 t) (iblk1 V c 4 t)) k1_pay3) := by
  rw [outsAt1_A V c t h0, out_A_5, out_A_6, out_A_7]

/-- After any other point: the block, and what the point before left plus the block's column sums. -/
theorem outs_next (c : Dev nD) (t : Fin cfg1.N) (h0 : ¬t.val % 128 = 0) :
    outsAt1 V c t.val t.isLt
      = (k1_pay4 (iblk1 V c 0 t) (iblk1 V c 1 t) (iblk1 V c 2 t) (iblk1 V c 3 t) (iblk1 V c 4 t), k1_pay5 (iblk1 V c 0 t) (iblk1 V c 1 t) (iblk1 V c 2 t) (iblk1 V c 3 t) (iblk1 V c 4 t) (outsAt1 V c (t.val - 1) (Nat.lt_of_le_of_lt (Nat.sub_le _ _) t.isLt)).2.1, k1_pay1 (k1_pay4 (iblk1 V c 0 t) (iblk1 V c 1 t) (iblk1 V c 2 t) (iblk1 V c 3 t) (iblk1 V c 4 t)) (outsAt1 V c (t.val - 1) (Nat.lt_of_le_of_lt (Nat.sub_le _ _) t.isLt)).2.2) := by
  rw [outsAt1_B V c t h0, out_B_5, out_B_6, out_B_7]

/-- The 64 × 4096 block after point t. -/
theorem outs_block (c : Dev nD) (t : Fin cfg1.N) : (outsAt1 V c t.val t.isLt).1 = k1_pay4 (iblk1 V c 0 t) (iblk1 V c 1 t) (iblk1 V c 2 t) (iblk1 V c 3 t) (iblk1 V c 4 t) := by
  by_cases h0 : t.val % 128 = 0
  · rw [outs_first V c t h0]
  · rw [outs_next V c t h0]

end AnyValues

section AtIdeal

variable (V : (c : Dev nD) → (b : Ref sig .tc) → Buf (Elt Ideal) ((c : Thread nD τ).loc b))

/-- The column sums of point t's block are the hidden layer's output summed over rows 64·t … 64·t + 63. -/
theorem colSum_block (c : Dev nD) (t : Fin cfg1.N) (j : Fin 4096) :
    ∑ y : Fin 64, blockAt V c t (ix2 y j) = blockSum (fun r => hid V c r j) t.val := by
  have hN : cfg1.N = 256 := N_1
  unfold blockSum
  refine Finset.sum_congr rfl fun y _ => block_eq V c t y j _ ?_
  have := t.isLt; have := y.isLt
  exact Nat.mod_eq_of_lt (by omega)

/-- Likewise for the squares. -/
theorem colSq_block (c : Dev nD) (t : Fin cfg1.N) (j : Fin 4096) :
    ∑ y : Fin 64, blockAt V c t (ix2 y j) * blockAt V c t (ix2 y j)
      = blockSum (fun r => hid V c r j * hid V c r j) t.val := by
  have hN : cfg1.N = 256 := N_1
  unfold blockSum
  refine Finset.sum_congr rfl fun y _ => ?_
  have := t.isLt; have := y.isLt
  rw [block_eq V c t y j ⟨(t.val * 64 + y.val) % 16384, Nat.mod_lt _ (by decide)⟩ (Nat.mod_eq_of_lt (by omega))]

/-- The row of running sums after point n, at column j: the block sums since the last restart. -/
theorem sums_eq (c : Dev nD) (j : Fin 4096) : ∀ (n : ℕ) (h : n < cfg1.N),
    (outsAt1 V c n h).2.1 (ix2 0 j)
      = ∑ s ∈ Finset.range (n % 128 + 1), blockSum (fun r => hid V c r j) (n - n % 128 + s) :=
  restart_sum (N := cfg1.N) (fun n h => (outsAt1 V c n h).2.1 (ix2 0 j)) (blockSum (fun r => hid V c r j))
    (fun n h h0 => by
      show (outsAt1 V c (⟨n, h⟩ : Fin cfg1.N).val (⟨n, h⟩ : Fin cfg1.N).isLt).2.1 (ix2 0 j) = _
      rw [outs_first V c ⟨n, h⟩ h0]
      refine (pay5_apply (iblk1 V c 0 ⟨n, h⟩) (iblk1 V c 1 ⟨n, h⟩) (iblk1 V c 2 ⟨n, h⟩) (iblk1 V c 3 ⟨n, h⟩) (iblk1 V c 4 ⟨n, h⟩) k1_pay2 j).trans ?_
      rw [pay2_apply]
      exact congrArg (0 + ·) (colSum_block V c ⟨n, h⟩ j))
    (fun n h h0 => by
      show (outsAt1 V c (⟨n + 1, h⟩ : Fin cfg1.N).val (⟨n + 1, h⟩ : Fin cfg1.N).isLt).2.1 (ix2 0 j) = _
      rw [outs_next V c ⟨n + 1, h⟩ h0]
      refine (pay5_apply (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) _ j).trans ?_
      exact congrArg (_ + ·) (colSum_block V c ⟨n + 1, h⟩ j))

/-- The row of running sums of squares after point n, at column j. -/
theorem sumsqs_eq (c : Dev nD) (j : Fin 4096) : ∀ (n : ℕ) (h : n < cfg1.N),
    (outsAt1 V c n h).2.2 (ix2 0 j)
      = ∑ s ∈ Finset.range (n % 128 + 1), blockSum (fun r => hid V c r j * hid V c r j) (n - n % 128 + s) :=
  restart_sum (N := cfg1.N) (fun n h => (outsAt1 V c n h).2.2 (ix2 0 j)) (blockSum (fun r => hid V c r j * hid V c r j))
    (fun n h h0 => by
      show (outsAt1 V c (⟨n, h⟩ : Fin cfg1.N).val (⟨n, h⟩ : Fin cfg1.N).isLt).2.2 (ix2 0 j) = _
      rw [outs_first V c ⟨n, h⟩ h0]
      refine (pay1_apply (blockAt V c ⟨n, h⟩) k1_pay3 j).trans ?_
      rw [pay3_apply]
      exact congrArg (0 + ·) (colSq_block V c ⟨n, h⟩ j))
    (fun n h h0 => by
      show (outsAt1 V c (⟨n + 1, h⟩ : Fin cfg1.N).val (⟨n + 1, h⟩ : Fin cfg1.N).isLt).2.2 (ix2 0 j) = _
      rw [outs_next V c ⟨n + 1, h⟩ h0]
      refine (pay1_apply (blockAt V c ⟨n + 1, h⟩) _ j).trans ?_
      exact congrArg (_ + ·) (colSq_block V c ⟨n + 1, h⟩ j))

/-- After the last point of half h the sums row holds the half's column sums. -/
theorem sums_last (c : Dev nD) (t : Fin cfg1.N) (h127 : t.val % 128 = 127) (j : Fin 4096) (h : Fin 2)
    (hh : h.val = t.val / 128) :
    (outsAt1 V c t.val t.isLt).2.1 (ix2 0 j) = Cert.Layer.halfSum128x64 (fun r => hid V c r j) h := by
  rw [sums_eq V c j t.val t.isLt, h127, ← sum_blockSum]
  have e : t.val - 127 = h.val * 128 := by omega
  rw [e]

theorem sumsqs_last (c : Dev nD) (t : Fin cfg1.N) (h127 : t.val % 128 = 127) (j : Fin 4096) (h : Fin 2)
    (hh : h.val = t.val / 128) :
    (outsAt1 V c t.val t.isLt).2.2 (ix2 0 j)
      = Cert.Layer.halfSum128x64 (fun r => hid V c r j * hid V c r j) h := by
  rw [sumsqs_eq V c j t.val t.isLt, h127, ← sum_blockSum]
  have e : t.val - 127 = h.val * 128 := by omega
  rw [e]

end AtIdeal

end Cert.KernelIdeal.Hidden1

end
-- ==== Proof.Hidden1Out.lean ====
/-
  The region's 16384 × 4096 output array after its run.

  Every point writes its 64 × 4096 block back, and block t is rows 64·t … 64·t + 63 of one function of the region's
  operands, the hidden layer's output; the 256 blocks tile the 16384 rows, so the array ends holding that function.
-/
import proofs.«105723_j39608188403810_2_alg».proof.Proof.Hidden1Acc

noncomputable section

namespace Cert.KernelIdeal.Hidden1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The 16384 × 4096 output -/

/-- The hidden layer's output as an array. -/
def outArr (c : Dev nD) : S16384x4096.Idx → EReal :=
  fun i => hid V c ⟨(i 0).val, idx2_lt0 i⟩ ⟨(i 1).val, idx2_lt1 i⟩

/-- What point t writes back is block t of that array. -/
theorem flushed_out (c : Dev nD) (t : Fin cfg1.N) :
    (dat1 V c).flushed 5 t = ((cfg1.win 5).blk t).view.read (Elt Ideal) (outArr V c) := by
  have hN : cfg1.N = 256 := N_1
  obtain ⟨-, -, -, -, -, -, -, -, -, -, e0, e1, -⟩ := idx_facts t
  show (cfg1.win 5).cut (grid1.coords t) ((dat1 V c).after 5 t) = _
  rw [after1_5, outs_block V c t]
  funext y'
  rw [View.read_apply]
  have hy0 : (y' 0).val < 64 := (y' 0).isLt
  have hy1 : (y' 1).val < 4096 := (y' 1).isLt
  have ht := t.isLt
  have ex : (cfg1.win 5).xinj (grid1.coords t) y' = ix2 (⟨(y' 0).val, hy0⟩ : Fin 64) (⟨(y' 1).val, hy1⟩ : Fin 4096) :=
    funext fun a => match a with | ⟨0, _⟩ => rfl | ⟨1, _⟩ => rfl
  show blockAt V c t ((cfg1.win 5).xinj (grid1.coords t) y') = outArr V c (((cfg1.win 5).blk t).view.emb y')
  rw [ex, block_eq V c t ⟨(y' 0).val, hy0⟩ ⟨(y' 1).val, hy1⟩ ⟨t.val * 64 + (y' 0).val, by omega⟩ rfl]
  unfold outArr
  refine congrArg₂ (hid V c) (Fin.ext ?_) (Fin.ext ?_)
  · show t.val * 64 + (y' 0).val = win1_5.index t 0 * 64 + 1 * (y' 0).val
    rw [e0]; omega
  · show (y' 1).val = win1_5.index t 1 * 4096 + 1 * (y' 1).val
    rw [e1]; omega

/-- An index of the array lies in point t's block iff each coordinate lies in the block's range. -/
theorem mem_blk_out (t : Fin cfg1.N) (i : S16384x4096.Idx) :
    i ∈ ((cfg1.win 5).blk t).view.set ↔ ∀ a : Fin 2, win1_5.index t a * S64x4096.size a ≤ (i a).val
      ∧ (i a).val < win1_5.index t a * S64x4096.size a + S64x4096.size a := by
  show i ∈ ((View.whole main_v38_0).slice (win1_5.rect t)).set ↔ _
  rw [View.set_slice_whole, Rect.mem_set_unit]
  exact Iff.rfl

/-- The array after the run. -/
theorem final_out (c : Dev nD) : (dat1 V c).arrAt 5 cfg1.N = outArr V c :=
  (dat1 V c).arrAt_eq_of_cover 5 (outArr V c) (fun t _ => flushed_out V c t) fun i => by
    have hN : cfg1.N = 256 := N_1
    have hi0 : (i 0).val < 16384 := (i 0).isLt
    have hi1 : (i 1).val < 4096 := (i 1).isLt
    let t : Fin cfg1.N := ⟨(i 0).val / 64, by omega⟩
    obtain ⟨-, -, -, -, -, -, -, -, -, -, e0, e1, -⟩ := idx_facts t
    refine ⟨t, flush1_5 t, ?_⟩
    rw [mem_blk_out]
    intro a
    match a with
    | ⟨0, _⟩ =>
      show win1_5.index t 0 * 64 ≤ (i 0).val ∧ (i 0).val < win1_5.index t 0 * 64 + 64
      rw [e0]; show (i 0).val / 64 * 64 ≤ (i 0).val ∧ (i 0).val < (i 0).val / 64 * 64 + 64; omega
    | ⟨1, _⟩ =>
      show win1_5.index t 1 * 4096 ≤ (i 1).val ∧ (i 1).val < win1_5.index t 1 * 4096 + 4096
      rw [e1]; omega

/-- The region's first output, entry by entry. -/
theorem out_array (c : Dev nD) (r : Fin 16384) (j : Fin 4096) :
    (dat1 (F := Ideal) V c).arrAt 5 cfg1.N (ix2 r j)
      = Cert.Layer.hiddenOut (V c (Pipeline.arrRef spec1 0)) (V c (Pipeline.arrRef spec1 1)) (V c (Pipeline.arrRef spec1 2))
          (V c (Pipeline.arrRef spec1 3)) (V c (Pipeline.arrRef spec1 4)) r j := by
  rw [final_out V c]
  rfl

end Cert.KernelIdeal.Hidden1

end
-- ==== Proof.Hidden1Sum.lean ====
/-
  The region's row of half sums after its run.

  The sums row is written back only after the last point of a half of the batch (points 127 and 255), into columns
  4096·h … 4096·h + 4095 of a 1 × 8192 array; it then holds, per column, the half's sum of the hidden layer's output,
  taken block of 64 rows by block in the order the grid visits them. The two blocks tile the 8192 columns.
-/
import proofs.«105723_j39608188403810_2_alg».proof.Proof.Hidden1Acc

noncomputable section

namespace Cert.KernelIdeal.Hidden1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Per column, the sum of the hidden layer's output over the column's half of the batch: columns 4096·h … 4096·h + 4095 belong to half h. -/
def sumArr (c : Dev nD) : S1x8192.Idx → EReal :=
  fun i => Cert.Layer.halfSum128x64 (fun r => hid V c r ⟨(i 1).val % 4096, Nat.mod_lt _ (by decide)⟩)
    ⟨(i 1).val / 4096, by have := idx2_lt1 i; omega⟩

/-- What the last point of a half writes back is that half's block of the sums row. -/
theorem flushed_sum (c : Dev nD) (t : Fin cfg1.N) (hf : (cfg1.win 6).flush t = true) :
    (dat1 V c).flushed 6 t = ((cfg1.win 6).blk t).view.read (Elt Ideal) (sumArr V c) := by
  have hN : cfg1.N = 256 := N_1
  have h127 : t.val % 128 = 127 := (flush1_6 t).mp hf
  obtain ⟨-, -, -, -, -, -, -, -, -, -, -, -, e0, e1, -⟩ := idx_facts t
  show (cfg1.win 6).cut (grid1.coords t) ((dat1 V c).after 6 t) = _
  rw [after1_6]
  funext i'
  rw [View.read_apply]
  have hi0 : (i' 0).val < 1 := (i' 0).isLt
  have hi1 : (i' 1).val < 4096 := (i' 1).isLt
  have ht := t.isLt
  have ex : (cfg1.win 6).xinj (grid1.coords t) i' = ix2 (0 : Fin 1) (⟨(i' 1).val, hi1⟩ : Fin 4096) :=
    funext fun a => match a with
      | ⟨0, _⟩ => Fin.ext (by show (i' 0).val = 0; omega)
      | ⟨1, _⟩ => rfl
  show (outsAt1 V c t.val t.isLt).2.1 ((cfg1.win 6).xinj (grid1.coords t) i') = sumArr V c (((cfg1.win 6).blk t).view.emb i')
  rw [ex, sums_last V c t h127 ⟨(i' 1).val, hi1⟩ ⟨t.val / 128, by omega⟩ rfl]
  unfold sumArr
  have hemb : ((((cfg1.win 6).blk t).view.emb i') 1).val = t.val / 128 * 4096 + (i' 1).val := by
    show win1_6.index t 1 * 4096 + 1 * (i' 1).val = _
    rw [e1]; omega
  refine congrArg₂ (fun (j : Fin 4096) (h : Fin 2) => Cert.Layer.halfSum128x64 (fun r => hid V c r j) h)
    (Fin.ext ?_) (Fin.ext ?_)
  · show (i' 1).val = ((((cfg1.win 6).blk t).view.emb i') 1).val % 4096
    rw [hemb]; omega
  · show t.val / 128 = ((((cfg1.win 6).blk t).view.emb i') 1).val / 4096
    rw [hemb]; omega

/-- An index of the 1 × 8192 array lies in point t's block iff each coordinate lies in the block's range. -/
theorem mem_blk_sum (t : Fin cfg1.N) (i : S1x8192.Idx) :
    i ∈ ((cfg1.win 6).blk t).view.set ↔ ∀ a : Fin 2, win1_6.index t a * S1x4096.size a ≤ (i a).val
      ∧ (i a).val < win1_6.index t a * S1x4096.size a + S1x4096.size a := by
  show i ∈ ((View.whole main_v38_1).slice (win1_6.rect t)).set ↔ _
  rw [View.set_slice_whole, Rect.mem_set_unit]
  exact Iff.rfl

/-- The sums row after the run. -/
theorem final_sum (c : Dev nD) : (dat1 V c).arrAt 6 cfg1.N = sumArr V c :=
  (dat1 V c).arrAt_eq_of_cover 6 (sumArr V c) (fun t hf => flushed_sum V c t hf) fun i => by
    have hN : cfg1.N = 256 := N_1
    have hi0 : (i 0).val < 1 := (i 0).isLt
    have hi1 : (i 1).val < 8192 := (i 1).isLt
    let t : Fin cfg1.N := ⟨(i 1).val / 4096 * 128 + 127, by omega⟩
    obtain ⟨-, -, -, -, -, -, -, -, -, -, -, -, e0, e1, -⟩ := idx_facts t
    refine ⟨t, (flush1_6 t).mpr (by show ((i 1).val / 4096 * 128 + 127) % 128 = 127; omega), ?_⟩
    rw [mem_blk_sum]
    intro a
    match a with
    | ⟨0, _⟩ =>
      show win1_6.index t 0 * 1 ≤ (i 0).val ∧ (i 0).val < win1_6.index t 0 * 1 + 1
      rw [e0]; omega
    | ⟨1, _⟩ =>
      show win1_6.index t 1 * 4096 ≤ (i 1).val ∧ (i 1).val < win1_6.index t 1 * 4096 + 4096
      rw [e1]; show ((i 1).val / 4096 * 128 + 127) / 128 * 4096 ≤ (i 1).val ∧ (i 1).val < ((i 1).val / 4096 * 128 + 127) / 128 * 4096 + 4096
      omega

/-- The region's second output, entry by entry. -/
theorem sum_array (c : Dev nD) (h : Fin 2) (j : Fin 4096) :
    (dat1 (F := Ideal) V c).arrAt 6 cfg1.N (ix2 0 ⟨h.val * 4096 + j.val, by have := h.isLt; have := j.isLt; omega⟩)
      = Cert.Layer.halfSum128x64 (fun r => Cert.Layer.hiddenOut (V c (Pipeline.arrRef spec1 0)) (V c (Pipeline.arrRef spec1 1)) (V c (Pipeline.arrRef spec1 2)) (V c (Pipeline.arrRef spec1 3)) (V c (Pipeline.arrRef spec1 4)) r j) h := by
  rw [final_sum V c]
  have := h.isLt; have := j.isLt
  show Cert.Layer.halfSum128x64 (fun r => hid V c r ⟨(h.val * 4096 + j.val) % 4096, Nat.mod_lt _ (by decide)⟩)
    ⟨(h.val * 4096 + j.val) / 4096, _⟩ = _
  refine congrArg₂ (fun (j : Fin 4096) (h : Fin 2) => Cert.Layer.halfSum128x64 (fun r => hid V c r j) h)
    (Fin.ext ?_) (Fin.ext ?_)
  · show (h.val * 4096 + j.val) % 4096 = j.val; omega
  · show (h.val * 4096 + j.val) / 4096 = h.val; omega

end Cert.KernelIdeal.Hidden1

end
-- ==== Proof.Hidden1SumSq.lean ====
/-
  The region's row of half sums of squares after its run.

  As the row of sums: written back after points 127 and 255 into columns 4096·h … 4096·h + 4095 of a 1 × 8192 array,
  it holds, per column, the half's sum of the squared hidden layer's output, block of 64 rows by block.
-/
import proofs.«105723_j39608188403810_2_alg».proof.Proof.Hidden1Acc

noncomputable section

namespace Cert.KernelIdeal.Hidden1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Per column, the sum of the squares of the hidden layer's output over the column's half of the batch. -/
def sumsqArr (c : Dev nD) : S1x8192.Idx → EReal :=
  fun i => Cert.Layer.halfSum128x64 (fun r => hid V c r ⟨(i 1).val % 4096, Nat.mod_lt _ (by decide)⟩ * hid V c r ⟨(i 1).val % 4096, Nat.mod_lt _ (by decide)⟩)
    ⟨(i 1).val / 4096, by have := idx2_lt1 i; omega⟩

/-- What the last point of a half writes back is that half's block of the row of sums of squares. -/
theorem flushed_sumsq (c : Dev nD) (t : Fin cfg1.N) (hf : (cfg1.win 7).flush t = true) :
    (dat1 V c).flushed 7 t = ((cfg1.win 7).blk t).view.read (Elt Ideal) (sumsqArr V c) := by
  have hN : cfg1.N = 256 := N_1
  have h127 : t.val % 128 = 127 := (flush1_7 t).mp hf
  obtain ⟨-, -, -, -, -, -, -, -, -, -, -, -, -, -, e0, e1⟩ := idx_facts t
  show (cfg1.win 7).cut (grid1.coords t) ((dat1 V c).after 7 t) = _
  rw [after1_7]
  funext i'
  rw [View.read_apply]
  have hi0 : (i' 0).val < 1 := (i' 0).isLt
  have hi1 : (i' 1).val < 4096 := (i' 1).isLt
  have ht := t.isLt
  have ex : (cfg1.win 7).xinj (grid1.coords t) i' = ix2 (0 : Fin 1) (⟨(i' 1).val, hi1⟩ : Fin 4096) :=
    funext fun a => match a with
      | ⟨0, _⟩ => Fin.ext (by show (i' 0).val = 0; omega)
      | ⟨1, _⟩ => rfl
  show (outsAt1 V c t.val t.isLt).2.2 ((cfg1.win 7).xinj (grid1.coords t) i') = sumsqArr V c (((cfg1.win 7).blk t).view.emb i')
  rw [ex, sumsqs_last V c t h127 ⟨(i' 1).val, hi1⟩ ⟨t.val / 128, by omega⟩ rfl]
  unfold sumsqArr
  have hemb : ((((cfg1.win 7).blk t).view.emb i') 1).val = t.val / 128 * 4096 + (i' 1).val := by
    show win1_7.index t 1 * 4096 + 1 * (i' 1).val = _
    rw [e1]; omega
  refine congrArg₂ (fun (j : Fin 4096) (h : Fin 2) => Cert.Layer.halfSum128x64 (fun r => hid V c r j * hid V c r j) h)
    (Fin.ext ?_) (Fin.ext ?_)
  · show (i' 1).val = ((((cfg1.win 7).blk t).view.emb i') 1).val % 4096
    rw [hemb]; omega
  · show t.val / 128 = ((((cfg1.win 7).blk t).view.emb i') 1).val / 4096
    rw [hemb]; omega

/-- An index of the 1 × 8192 array lies in point t's block iff each coordinate lies in the block's range. -/
theorem mem_blk_sumsq (t : Fin cfg1.N) (i : S1x8192.Idx) :
    i ∈ ((cfg1.win 7).blk t).view.set ↔ ∀ a : Fin 2, win1_7.index t a * S1x4096.size a ≤ (i a).val
      ∧ (i a).val < win1_7.index t a * S1x4096.size a + S1x4096.size a := by
  show i ∈ ((View.whole main_v38_2).slice (win1_7.rect t)).set ↔ _
  rw [View.set_slice_whole, Rect.mem_set_unit]
  exact Iff.rfl

/-- The row of sums of squares after the run. -/
theorem final_sumsq (c : Dev nD) : (dat1 V c).arrAt 7 cfg1.N = sumsqArr V c :=
  (dat1 V c).arrAt_eq_of_cover 7 (sumsqArr V c) (fun t hf => flushed_sumsq V c t hf) fun i => by
    have hN : cfg1.N = 256 := N_1
    have hi0 : (i 0).val < 1 := (i 0).isLt
    have hi1 : (i 1).val < 8192 := (i 1).isLt
    let t : Fin cfg1.N := ⟨(i 1).val / 4096 * 128 + 127, by omega⟩
    obtain ⟨-, -, -, -, -, -, -, -, -, -, -, -, -, -, e0, e1⟩ := idx_facts t
    refine ⟨t, (flush1_7 t).mpr (by show ((i 1).val / 4096 * 128 + 127) % 128 = 127; omega), ?_⟩
    rw [mem_blk_sumsq]
    intro a
    match a with
    | ⟨0, _⟩ =>
      show win1_7.index t 0 * 1 ≤ (i 0).val ∧ (i 0).val < win1_7.index t 0 * 1 + 1
      rw [e0]; omega
    | ⟨1, _⟩ =>
      show win1_7.index t 1 * 4096 ≤ (i 1).val ∧ (i 1).val < win1_7.index t 1 * 4096 + 4096
      rw [e1]; show ((i 1).val / 4096 * 128 + 127) / 128 * 4096 ≤ (i 1).val ∧ (i 1).val < ((i 1).val / 4096 * 128 + 127) / 128 * 4096 + 4096
      omega

/-- The region's third output, entry by entry. -/
theorem sumsq_array (c : Dev nD) (h : Fin 2) (j : Fin 4096) :
    (dat1 (F := Ideal) V c).arrAt 7 cfg1.N (ix2 0 ⟨h.val * 4096 + j.val, by have := h.isLt; have := j.isLt; omega⟩)
      = Cert.Layer.halfSum128x64 (fun r => Cert.Layer.hiddenOut (V c (Pipeline.arrRef spec1 0)) (V c (Pipeline.arrRef spec1 1)) (V c (Pipeline.arrRef spec1 2)) (V c (Pipeline.arrRef spec1 3)) (V c (Pipeline.arrRef spec1 4)) r j * Cert.Layer.hiddenOut (V c (Pipeline.arrRef spec1 0)) (V c (Pipeline.arrRef spec1 1)) (V c (Pipeline.arrRef spec1 2)) (V c (Pipeline.arrRef spec1 3)) (V c (Pipeline.arrRef spec1 4)) r j) h := by
  rw [final_sumsq V c]
  have := h.isLt; have := j.isLt
  show Cert.Layer.halfSum128x64 (fun r => hid V c r ⟨(h.val * 4096 + j.val) % 4096, Nat.mod_lt _ (by decide)⟩ * hid V c r ⟨(h.val * 4096 + j.val) % 4096, Nat.mod_lt _ (by decide)⟩)
    ⟨(h.val * 4096 + j.val) / 4096, _⟩ = _
  refine congrArg₂ (fun (j : Fin 4096) (h : Fin 2) => Cert.Layer.halfSum128x64 (fun r => hid V c r j * hid V c r j) h)
    (Fin.ext ?_) (Fin.ext ?_)
  · show (h.val * 4096 + j.val) % 4096 = j.val; omega
  · show (h.val * 4096 + j.val) / 4096 = h.val; omega

end Cert.KernelIdeal.Hidden1

end
-- ==== Proof.ChainHidden1.lean ====
/-
  The second region's step: if, when the region is entered, its input array holds the previous layer's rectified output,
  its scale and shift arrays that layer's scale and shift, and its weight and bias arrays the signs of this layer's
  weights (transposed) and its bias, then at its exit the output array holds this layer's rectified output and the two
  accumulator arrays hold, for each half of the batch, that output's column sums and column sums of squares.
-/
import proofs.«105723_j39608188403810_2_alg».proof.Proof.ChainDefs
import proofs.«105723_j39608188403810_2_alg».proof.Proof.RegionLaw
import proofs.«105723_j39608188403810_2_alg».proof.Proof.Hidden1Out
import proofs.«105723_j39608188403810_2_alg».proof.Proof.Hidden1Sum
import proofs.«105723_j39608188403810_2_alg».proof.Proof.Hidden1SumSq

noncomputable section

namespace Cert.KernelIdeal.Chain

open Cert.KernelIdeal Cert.KernelIdeal.Gen
open Idealize.ShloMosaic Idealize.ShloMosaic.ValueIdx Idealize.ShloMosaic.TcCoe Idealize.SL.Sem
open Cert.Layer

variable (m : (ℓ : Loc nD τ sig) → Buf (Elt Ideal) ℓ) (ρ : Dev nD → PrngReg)

theorem hidden1 (c : Dev nD)
    (h_in : ∀ (r : Fin 16384) (k : Fin 4096), @Eq EReal (W3 m ρ c main_v17_0 (ix2 r k)) (p1 m c r k))
    (h_sc : ∀ k : Fin 4096, @Eq EReal (W3 m ρ c main_v34 (ix2 0 k)) (scale (p1 m c) (args m c).g1 k))
    (h_sh : ∀ k : Fin 4096, @Eq EReal (W3 m ρ c main_v37 (ix2 0 k)) (shift (p1 m c) (args m c).g1 (args m c).be1 k))
    (h_wt : ∀ (k j : Fin 4096), @Eq EReal (W3 m ρ c main_v5 (ix2 k j)) (Ideal.sign ((args m c).w2 j k)))
    (h_bb : ∀ j : Fin 4096, @Eq EReal (W3 m ρ c main_v14 (ix2 0 j)) ((args m c).b2 j)) :
    (∀ (r : Fin 16384) (j : Fin 4096), @Eq EReal (W4 m ρ c main_v38_0 (ix2 r j)) (p2 m c r j))
    ∧ (∀ (h : Fin 2) (j : Fin 4096), @Eq EReal
        (W4 m ρ c main_v38_1 (ix2 0 ⟨h.val * 4096 + j.val, by have := h.isLt; have := j.isLt; omega⟩))
        (halfSum128x64 (fun r => p2 m c r j) h))
    ∧ (∀ (h : Fin 2) (j : Fin 4096), @Eq EReal
        (W4 m ρ c main_v38_2 (ix2 0 ⟨h.val * 4096 + j.val, by have := h.isLt; have := j.isLt; omega⟩))
        (halfSum128x64 (fun r => p2 m c r j * p2 m c r j) h)) := by
  have hE : hiddenOut (V3 m ρ c (Pipeline.arrRef spec1 0)) (V3 m ρ c (Pipeline.arrRef spec1 1))
      (V3 m ρ c (Pipeline.arrRef spec1 2)) (V3 m ρ c (Pipeline.arrRef spec1 3)) (V3 m ρ c (Pipeline.arrRef spec1 4))
      = p2 m c :=
    hiddenOut_eq (p1 m c) (args m c).g1 (args m c).be1 (args m c).w2 (args m c).b2 _ _ _ _ _ h_in h_sc h_sh h_wt h_bb
  refine ⟨fun r j => ?_, fun h j => ?_, fun h j => ?_⟩
  · refine (congrFun (W4_arr m ρ c 5) (ix2 r j)).trans ?_
    refine (Hidden1.out_array (V3 m ρ) c r j).trans ?_
    rw [hE]
  · refine (congrFun (W4_arr m ρ c 6) _).trans ?_
    refine (Hidden1.sum_array (V3 m ρ) c h j).trans ?_
    rw [hE]
  · refine (congrFun (W4_arr m ρ c 7) _).trans ?_
    refine (Hidden1.sumsq_array (V3 m ρ) c h j).trans ?_
    rw [hE]

end Cert.KernelIdeal.Chain

end
-- ==== Proof.Hidden2Case.lean ====
/-
  What one grid point leaves in its three output blocks, as terms of the blocks it reads.

  At every point the 64 × 4096 output block is the rectified product block of the point's inputs. The two running
  column sums (of the entries, of their squares) are, at the first point of a half of the batch, the zero row plus the
  block's column sums; at every later point, what the point before left plus the block's column sums.
-/
import proofs.«105723_j39608188403810_2_alg».proof.Proof.Gen.KernelIdeal.Frame
import Idealize.ShloMosaic.Lib.Pipeline.Value
import Idealize.ShloMosaic.Lib.Tactic

noncomputable section

namespace Cert.KernelIdeal.Hidden2

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-! ## A point that is not the first of its half: the running sums continue -/

theorem out_B_5 (c : Dev nD) (i : grid2.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : ¬cond2_0 i) (x0 : Vec F S64x4096 .f32) (x1 : Vec F S1x4096 .f32) (x2 : Vec F S1x4096 .f32) (x3 : Vec F S4096x4096 .bf16) (x4 : Vec F S1x4096 .f32) (xo6 xo7 : Vec F S1x4096 .f32) :
    out2_B_5 c i arg2 harg2 arg3 harg3 arg4 harg4 arg5 harg5 arg6 harg6 arg7 harg7 arg8 harg8 arg9 harg9 hc0 x0 x1 x2 x3 x4 xo6 xo7 = k2_pay4 x0 x1 x2 x3 x4 := by
  unfold out2_B_5
  rw [View.read_writes_eq_canon _ _ _ (cover2_B_5 c i arg2 harg2 arg3 harg3 arg4 harg4 arg5 harg5 arg6 harg6 arg7 harg7 arg8 harg8 arg9 harg9 hc0 x0 x1 x2 x3 x4 xo6 xo7)]
  unfold kernelRun2_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S64x4096) hz, View.ld_unit_zero (S := S1x4096) hz, View.ld_unit_zero (S := S4096x4096) hz]

theorem out_B_6 (c : Dev nD) (i : grid2.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : ¬cond2_0 i) (x0 : Vec F S64x4096 .f32) (x1 : Vec F S1x4096 .f32) (x2 : Vec F S1x4096 .f32) (x3 : Vec F S4096x4096 .bf16) (x4 : Vec F S1x4096 .f32) (xo6 xo7 : Vec F S1x4096 .f32) :
    out2_B_6 c i arg2 harg2 arg3 harg3 arg4 harg4 arg5 harg5 arg6 harg6 arg7 harg7 arg8 harg8 arg9 harg9 hc0 x0 x1 x2 x3 x4 xo6 xo7 = k2_pay5 x0 x1 x2 x3 x4 xo6 := by
  unfold out2_B_6
  rw [View.read_writes_eq_canon _ _ _ (cover2_B_6 c i arg2 harg2 arg3 harg3 arg4 harg4 arg5 harg5 arg6 harg6 arg7 harg7 arg8 harg8 arg9 harg9 hc0 x0 x1 x2 x3 x4 xo6 xo7)]
  unfold kernelRun2_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S64x4096) hz, View.ld_unit_zero (S := S1x4096) hz, View.ld_unit_zero (S := S4096x4096) hz]

theorem out_B_7 (c : Dev nD) (i : grid2.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : ¬cond2_0 i) (x0 : Vec F S64x4096 .f32) (x1 : Vec F S1x4096 .f32) (x2 : Vec F S1x4096 .f32) (x3 : Vec F S4096x4096 .bf16) (x4 : Vec F S1x4096 .f32) (xo6 xo7 : Vec F S1x4096 .f32) :
    out2_B_7 c i arg2 harg2 arg3 harg3 arg4 harg4 arg5 harg5 arg6 harg6 arg7 harg7 arg8 harg8 arg9 harg9 hc0 x0 x1 x2 x3 x4 xo6 xo7 = k2_pay1 (k2_pay4 x0 x1 x2 x3 x4) xo7 := by
  unfold out2_B_7
  rw [View.read_writes_eq_canon _ _ _ (cover2_B_7 c i arg2 harg2 arg3 harg3 arg4 harg4 arg5 harg5 arg6 harg6 arg7 harg7 arg8 harg8 arg9 harg9 hc0 x0 x1 x2 x3 x4 xo6 xo7)]
  unfold kernelRun2_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S64x4096) hz, View.ld_unit_zero (S := S1x4096) hz, View.ld_unit_zero (S := S4096x4096) hz]

/-! ## The first point of a half: the running sums start from the zero row -/

theorem out_A_5 (c : Dev nD) (i : grid2.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : cond2_0 i) (x0 : Vec F S64x4096 .f32) (x1 : Vec F S1x4096 .f32) (x2 : Vec F S1x4096 .f32) (x3 : Vec F S4096x4096 .bf16) (x4 : Vec F S1x4096 .f32) :
    out2_A_5 c i arg2 harg2 arg3 harg3 arg4 harg4 arg5 harg5 arg6 harg6 arg7 harg7 arg8 harg8 arg9 harg9 hc0 x0 x1 x2 x3 x4 = k2_pay4 x0 x1 x2 x3 x4 := by
  unfold out2_A_5
  rw [View.read_writes_eq_canon _ _ _ (cover2_A_5 c i arg2 harg2 arg3 harg3 arg4 harg4 arg5 harg5 arg6 harg6 arg7 harg7 arg8 harg8 arg9 harg9 hc0 x0 x1 x2 x3 x4)]
  unfold kernelRun2_A
  dsimp only
  sl_unfold_words
  rw [View.canon_unit_zero hz]
  simp only [View.readAt_eq_ld, harg2.read_unread, harg3.read_unread, harg4.read_unread, harg5.read_unread, harg6.read_unread, View.ld_unit_zero (S := S64x4096) hz, View.ld_unit_zero (S := S1x4096) hz, View.ld_unit_zero (S := S4096x4096) hz]

theorem out_A_6 (c : Dev nD) (i : grid2.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : cond2_0 i) (x0 : Vec F S64x4096 .f32) (x1 : Vec F S1x4096 .f32) (x2 : Vec F S1x4096 .f32) (x3 : Vec F S4096x4096 .bf16) (x4 : Vec F S1x4096 .f32) :
    out2_A_6 c i arg2 harg2 arg3 harg3 arg4 harg4 arg5 harg5 arg6 harg6 arg7 harg7 arg8 harg8 arg9 harg9 hc0 x0 x1 x2 x3 x4 = k2_pay5 x0 x1 x2 x3 x4 k2_pay2 := by
  unfold out2_A_6
  rw [View.read_writes_eq_canon _ _ _ (cover2_A_6 c i arg2 harg2 arg3 harg3 arg4 harg4 arg5 harg5 arg6 harg6 arg7 harg7 arg8 harg8 arg9 harg9 hc0 x0 x1 x2 x3 x4)]
  unfold kernelRun2_A
  dsimp only
  sl_unfold_words
  rw [View.canon_cons_unit_zero (S := S1x4096) hz, View.readCov_unit_zero (S := S1x4096) _ hz]
  simp only [View.readAt_eq_ld, harg2.read_unread, harg3.read_unread, harg4.read_unread, harg5.read_unread, harg6.read_unread, View.ld_unit_zero (S := S64x4096) hz, View.ld_unit_zero (S := S1x4096) hz, View.ld_unit_zero (S := S4096x4096) hz]

theorem out_A_7 (c : Dev nD) (i : grid2.Coords) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x4096 .bf16) (harg5 : arg5.IsWhole) (arg6 : Memref sig .tc .vmem S1x4096 .f32) (harg6 : arg6.IsWhole) (arg7 : Memref sig .tc .vmem S64x4096 .f32) (harg7 : arg7.IsWhole) (arg8 : Memref sig .tc .vmem S1x4096 .f32) (harg8 : arg8.IsWhole) (arg9 : Memref sig .tc .vmem S1x4096 .f32) (harg9 : arg9.IsWhole) (hc0 : cond2_0 i) (x0 : Vec F S64x4096 .f32) (x1 : Vec F S1x4096 .f32) (x2 : Vec F S1x4096 .f32) (x3 : Vec F S4096x4096 .bf16) (x4 : Vec F S1x4096 .f32) :
    out2_A_7 c i arg2 harg2 arg3 harg3 arg4 harg4 arg5 harg5 arg6 harg6 arg7 harg7 arg8 harg8 arg9 harg9 hc0 x0 x1 x2 x3 x4 = k2_pay1 (k2_pay4 x0 x1 x2 x3 x4) k2_pay3 := by
  unfold out2_A_7
  rw [View.read_writes_eq_canon _ _ _ (cover2_A_7 c i arg2 harg2 arg3 harg3 arg4 harg4 arg5 harg5 arg6 harg6 arg7 harg7 arg8 harg8 arg9 harg9 hc0 x0 x1 x2 x3 x4)]
  unfold kernelRun2_A
  dsimp only
  sl_unfold_words
  rw [View.canon_cons_unit_zero (S := S1x4096) hz, View.readCov_unit_zero (S := S1x4096) _ hz]
  simp only [View.readAt_eq_ld, harg2.read_unread, harg3.read_unread, harg4.read_unread, harg5.read_unread, harg6.read_unread, View.ld_unit_zero (S := S64x4096) hz, View.ld_unit_zero (S := S1x4096) hz, View.ld_unit_zero (S := S4096x4096) hz]

end Cert.KernelIdeal.Hidden2

end
-- ==== Proof.Hidden2Pay.lean ====
/-
  One grid point of a hidden region, read entry by entry on the extended reals.

  The point holds 64 rows of the previous layer's output. Each entry is first sent through that layer's affine
  normalisation and the sign; the 64 signed rows are multiplied with the whole (already signed and transposed) weight
  matrix, the bias is added and the result rectified: entry (y, j) of the block is
  max (∑ₖ sign (h (y, k) · sc k + sh k) · w (k, j) + b j) 0.
  The two running column sums then grow by the block's column sums: of its entries, and of their squares.
-/
import proofs.«105723_j39608188403810_2_alg».proof.Proof.Gen.KernelIdeal.Skeleton
import Idealize.ShloMosaic.Lib.ValueLayout
import Idealize.ShloMosaic.PureOps.Ideal.Laws

noncomputable section

namespace Cert.KernelIdeal.Hidden2

open Idealize.ShloMosaic Idealize.ShloMosaic.ValueIdx
open Cert.KernelIdeal Cert.KernelIdeal.Gen

/-- The contraction of a 64 × 4096 block with a 4096 × 4096 matrix: one inner axis of 4096 coordinates. -/
abbrev dotBlock : DotDims S64x4096 S4096x4096 S64x4096 := dot_S64x4096_S4096x4096_S64x4096_1_0_0_1_n_n

theorem dotBlock_lhs0 (i : S64x4096.Idx) (q : dotBlock.contr.Idx) : (dotBlock.lhsIdx i q 0).val = (i 0).val := by
  unfold DotDims.lhsIdx
  rw [dif_neg (show ¬(0 : Fin S64x4096.rank) ∈ dotBlock.lhsBatch by decide),
    dif_pos (show (0 : Fin S64x4096.rank) ∈ dotBlock.lhsNonContracting by decide)]
  rfl
theorem dotBlock_lhs1 (i : S64x4096.Idx) (q : dotBlock.contr.Idx) :
    (dotBlock.lhsIdx i q 1).val = (q ⟨0, by decide⟩).val :=
  dotBlock.lhsIdx_val_of_single rfl i q
theorem dotBlock_rhs0 (i : S64x4096.Idx) (q : dotBlock.contr.Idx) :
    (dotBlock.rhsIdx i q 0).val = (q ⟨0, by decide⟩).val :=
  dotBlock.rhsIdx_val_of_single rfl i q
theorem dotBlock_rhs1 (i : S64x4096.Idx) (q : dotBlock.contr.Idx) : (dotBlock.rhsIdx i q 1).val = (i 1).val := by
  unfold DotDims.rhsIdx
  rw [dif_neg (show ¬(1 : Fin S4096x4096.rank) ∈ dotBlock.rhsBatch by decide),
    dif_pos (show (1 : Fin S4096x4096.rank) ∈ dotBlock.rhsNonContracting by decide)]
  rfl

/-- The product into a zero accumulator, at row y and column j: the sum over the inner coordinate. -/
theorem matmul_zero_apply (a : FVec Ideal S64x4096 .bf16) (w : FVec Ideal S4096x4096 .bf16) (y : Fin 64) (j : Fin 4096) :
    FloatOps.matmul dotBlock none a w (constant S64x4096 .f32 0x00000000#32) (ix2 y j)
      = ∑ k : Fin 4096, a (ix2 y k) * w (ix2 k j) := by
  rw [Ideal.matmul_constant_zero_apply, ← Equiv.sum_comp (contrEquiv1 dotBlock 4096 rfl rfl).symm]
  refine Finset.sum_congr rfl fun k _ => ?_
  have hk := contrEquiv1_symm_val dotBlock 4096 rfl rfl k
  have el : dotBlock.lhsIdx (ix2 y j) ((contrEquiv1 dotBlock 4096 rfl rfl).symm k) = ix2 y k :=
    funext fun a => Fin.ext (by
      match a with
      | ⟨0, _⟩ => exact dotBlock_lhs0 _ _
      | ⟨1, _⟩ => exact (dotBlock_lhs1 _ _).trans hk)
  have er : dotBlock.rhsIdx (ix2 y j) ((contrEquiv1 dotBlock 4096 rfl rfl).symm k) = ix2 k j :=
    funext fun a => Fin.ext (by
      match a with
      | ⟨0, _⟩ => exact (dotBlock_rhs0 _ _).trans hk
      | ⟨1, _⟩ => exact dotBlock_rhs1 _ _)
  rw [el, er]

/-- The sum of a 64 × 4096 block over its rows, at column j. -/
theorem colSum_apply (v : FVec Ideal S64x4096 .f32) (j : Fin 4096) :
    multiReduction .add [0] S4096 v 0x00000000#32 reduces_S64x4096_S4096 (.inl rfl) rfl (ix1 j)
      = ∑ y : Fin 64, v (ix2 y j) := by
  refine (Ideal.multiReduction_add_single v 0x00000000#32 reduces_S64x4096_S4096 (.inl rfl) rfl (ix1 j)).trans ?_
  refine Finset.sum_congr rfl fun y _ => congrArg v ?_
  funext a
  match a with
  | ⟨0, _⟩ => rfl
  | ⟨1, _⟩ => rfl

/-- The affine normalisation followed by the sign, at row y and inner coordinate k. -/
def signed (x0 : FVec Ideal S64x4096 .f32) (x1 x2 : FVec Ideal S1x4096 .f32) (y : Fin 64) (k : Fin 4096) : EReal :=
  Ideal.sign (x0 (ix2 y k) * x1 (ix2 0 k) + x2 (ix2 0 k))

/-- The block a point stores, at row y and column j. -/
def blockOut (x0 : FVec Ideal S64x4096 .f32) (x1 x2 : FVec Ideal S1x4096 .f32) (x3 : FVec Ideal S4096x4096 .bf16)
    (x4 : FVec Ideal S1x4096 .f32) (y : Fin 64) (j : Fin 4096) : EReal :=
  max ((∑ k : Fin 4096, signed x0 x1 x2 y k * x3 (ix2 k j)) + x4 (ix2 0 j)) 0

/-- The rectified block, entry by entry. -/
theorem pay4_apply (x0 : FVec Ideal S64x4096 .f32) (x1 x2 : FVec Ideal S1x4096 .f32) (x3 : FVec Ideal S4096x4096 .bf16)
    (x4 : FVec Ideal S1x4096 .f32) (y : Fin 64) (j : Fin 4096) :
    k2_pay4 (F := Ideal) x0 x1 x2 x3 x4 (ix2 y j) = blockOut x0 x1 x2 x3 x4 y j := by
  unfold k2_pay4 blockOut
  refine congrArg₂ max ?_ Ideal.ofBits_zero_f32
  refine congrArg₂ (· + ·) ?_ ?_
  · refine (matmul_zero_apply _ _ y j).trans (Finset.sum_congr rfl fun k _ => ?_)
    refine congrArg₂ (· * ·) ?_ ?_
    · refine (Ideal.jnp_sign_eq_sign_f32 _).trans (congrArg Ideal.sign ?_)
      refine congrArg₂ (· + ·) (congrArg₂ (· * ·) ?_ ?_) ?_
      · exact congrFun (shapeCast_self x0 _) _
      · exact (broadcastTo_1b_ab_apply _ _ y k).trans (congrFun (shapeCast_self x1 _) _)
      · exact (broadcastTo_1b_ab_apply _ _ y k).trans (congrFun (shapeCast_self x2 _) _)
    · exact congrFun (shapeCast_self x3 _) _
  · exact (broadcastTo_1b_ab_apply _ _ y j).trans (congrFun (shapeCast_self x4 _) _)

/-- The running sum of the entries grows by the block's column sum. -/
theorem pay5_apply (x0 : FVec Ideal S64x4096 .f32) (x1 x2 : FVec Ideal S1x4096 .f32) (x3 : FVec Ideal S4096x4096 .bf16)
    (x4 xo : FVec Ideal S1x4096 .f32) (j : Fin 4096) :
    k2_pay5 (F := Ideal) x0 x1 x2 x3 x4 xo (ix2 0 j)
      = xo (ix2 0 j) + ∑ y : Fin 64, k2_pay4 (F := Ideal) x0 x1 x2 x3 x4 (ix2 y j) := by
  unfold k2_pay5
  refine congrArg₂ (· + ·) (congrFun (shapeCast_self xo _) _) ?_
  exact (shapeCast_a_1a_apply _ _ 0 j).trans (colSum_apply _ j)

/-- The running sum of the squares grows by the column sum of the block's squares. -/
theorem pay1_apply (p : FVec Ideal S64x4096 .f32) (xo : FVec Ideal S1x4096 .f32) (j : Fin 4096) :
    k2_pay1 (F := Ideal) p xo (ix2 0 j) = xo (ix2 0 j) + ∑ y : Fin 64, p (ix2 y j) * p (ix2 y j) := by
  unfold k2_pay1
  refine congrArg₂ (· + ·) (congrFun (shapeCast_self xo _) _) ?_
  exact (shapeCast_a_1a_apply _ _ 0 j).trans (colSum_apply _ j)

/-- The reset stores zero in either running sum. -/
theorem pay2_apply (i : S1x4096.Idx) : k2_pay2 (F := Ideal) i = 0 := Ideal.ofBits_zero_f32
theorem pay3_apply (i : S1x4096.Idx) : k2_pay3 (F := Ideal) i = 0 := Ideal.ofBits_zero_f32

end Cert.KernelIdeal.Hidden2

end
-- ==== Proof.Hidden2Blocks.lean ====
/-
  The blocks a grid point reads, as entries of the arrays the region finds.

  Point t of the 256 reads rows 64·t … 64·t + 63 of the previous layer's output (all 4096 columns); the two rows of
  the affine normalisation, the weight matrix and the bias row are read whole at every point. Hence the block a point
  stores is, at its row y and column j, the hidden layer's output at row 64·t + y and column j.
-/
import proofs.«105723_j39608188403810_2_alg».proof.Proof.Gen.KernelIdeal.Frame
import proofs.«105723_j39608188403810_2_alg».proof.Proof.Region
import proofs.«105723_j39608188403810_2_alg».proof.Proof.Hidden2Pay

noncomputable section

namespace Cert.KernelIdeal.Hidden2

open Idealize.ShloMosaic Idealize.ShloMosaic.TcCoe Idealize.SL.Sem Idealize.ShloMosaic.ValueIdx
open Cert.KernelIdeal Cert.KernelIdeal.Gen

/-- The block indices of the eight windows at point t, decided once over the grid: the row-blocked windows sit at block
    row t, the whole-array windows at block (0, 0), the two half-sum windows at block column t / 128. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = t.val / 128
    ∧ win2_7.index t (0 : Fin 2) = 0 ∧ win2_7.index t (1 : Fin 2) = t.val / 128 :=
  (by decide +kernel : ∀ t : Fin grid2.N, _)

section Blocks

variable {F : FTy → Type} [FloatOps F]
variable (V : (c : Dev nD) → (b : Ref sig .tc) → Buf (Elt F) ((c : Thread nD τ).loc b))

/-- The input block at point t, row y: row 64·t + y of the array. -/
theorem iblk_rows (c : Dev nD) (t : Fin cfg2.N) (y : Fin 64) (k : Fin 4096) (r : Fin 16384)
    (hr : r.val = t.val * 64 + y.val) :
    (iblk2 V c 0 t : Vec F S64x4096 .f32) (ix2 y k)
      = (V c (Pipeline.arrRef spec2 0) : S16384x4096.Idx → Elt F .f32) (ix2 r k) := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t 0 * 64 + 1 * y.val = r.val; rw [e0, hr]; omega
  | ⟨1, _⟩ => show win2_0.index t 1 * 4096 + 1 * k.val = k.val; rw [e1]; omega

/-- The scale row is read whole. -/
theorem iblk_scale (c : Dev nD) (t : Fin cfg2.N) :
    (iblk2 V c 1 t : Vec F S1x4096 .f32) = (V c (Pipeline.arrRef spec2 1) : S1x4096.Idx → Elt F .f32) := by
  obtain ⟨-, -, e0, e1, -⟩ := idx_facts t
  funext i
  unfold iblk2
  rw [View.read_apply]
  show V c (Pipeline.arrRef spec2 1) _ = V c (Pipeline.arrRef spec2 1) _
  congr 1
  funext a
  apply Fin.ext
  match a with
  | ⟨0, _⟩ => show win2_1.index t 0 * 1 + 1 * (i 0).val = (i 0).val; rw [e0]; omega
  | ⟨1, _⟩ => show win2_1.index t 1 * 4096 + 1 * (i 1).val = (i 1).val; rw [e1]; omega

/-- The shift row is read whole. -/
theorem iblk_shift (c : Dev nD) (t : Fin cfg2.N) :
    (iblk2 V c 2 t : Vec F S1x4096 .f32) = (V c (Pipeline.arrRef spec2 2) : S1x4096.Idx → Elt F .f32) := by
  obtain ⟨-, -, -, -, e0, e1, -⟩ := idx_facts t
  funext i
  unfold iblk2
  rw [View.read_apply]
  show V c (Pipeline.arrRef spec2 2) _ = V c (Pipeline.arrRef spec2 2) _
  congr 1
  funext a
  apply Fin.ext
  match a with
  | ⟨0, _⟩ => show win2_2.index t 0 * 1 + 1 * (i 0).val = (i 0).val; rw [e0]; omega
  | ⟨1, _⟩ => show win2_2.index t 1 * 4096 + 1 * (i 1).val = (i 1).val; rw [e1]; omega

/-- The weight matrix is read whole. -/
theorem iblk_weights (c : Dev nD) (t : Fin cfg2.N) :
    (iblk2 V c 3 t : Vec F S4096x4096 .bf16) = (V c (Pipeline.arrRef spec2 3) : S4096x4096.Idx → Elt F .bf16) := by
  obtain ⟨-, -, -, -, -, -, e0, e1, -⟩ := idx_facts t
  funext i
  unfold iblk2
  rw [View.read_apply]
  show V c (Pipeline.arrRef spec2 3) _ = V c (Pipeline.arrRef spec2 3) _
  congr 1
  funext a
  apply Fin.ext
  match a with
  | ⟨0, _⟩ => show win2_3.index t 0 * 4096 + 1 * (i 0).val = (i 0).val; rw [e0]; omega
  | ⟨1, _⟩ => show win2_3.index t 1 * 4096 + 1 * (i 1).val = (i 1).val; rw [e1]; omega

/-- The bias row is read whole. -/
theorem iblk_bias (c : Dev nD) (t : Fin cfg2.N) :
    (iblk2 V c 4 t : Vec F S1x4096 .f32) = (V c (Pipeline.arrRef spec2 4) : S1x4096.Idx → Elt F .f32) := by
  obtain ⟨-, -, -, -, -, -, -, -, e0, e1, -⟩ := idx_facts t
  funext i
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * (i 0).val = (i 0).val; rw [e0]; omega
  | ⟨1, _⟩ => show win2_4.index t 1 * 4096 + 1 * (i 1).val = (i 1).val; rw [e1]; omega

end Blocks

/-! ## The block a point stores, as the hidden layer's output -/

section AtIdeal

variable (V : (c : Dev nD) → (b : Ref sig .tc) → Buf (Elt Ideal) ((c : Thread nD τ).loc b))

/-- The hidden layer's output, of the five arrays the region finds. -/
abbrev hid (c : Dev nD) : Fin 16384 → Fin 4096 → EReal :=
  Cert.Layer.hiddenOut (V c (Pipeline.arrRef spec2 0)) (V c (Pipeline.arrRef spec2 1)) (V c (Pipeline.arrRef spec2 2))
    (V c (Pipeline.arrRef spec2 3)) (V c (Pipeline.arrRef spec2 4))

/-- The rectified product block of point t. -/
abbrev blockAt (c : Dev nD) (t : Fin cfg2.N) : FVec Ideal S64x4096 .f32 :=
  k2_pay4 (F := Ideal) (iblk2 V c 0 t) (iblk2 V c 1 t) (iblk2 V c 2 t) (iblk2 V c 3 t) (iblk2 V c 4 t)

/-- Entry (y, j) of point t's block is the hidden layer's output at row 64·t + y, column j. -/
theorem block_eq (c : Dev nD) (t : Fin cfg2.N) (y : Fin 64) (j : Fin 4096) (r : Fin 16384)
    (hr : r.val = t.val * 64 + y.val) : blockAt V c t (ix2 y j) = hid V c r j := by
  show k2_pay4 (F := Ideal) (iblk2 V c 0 t) (iblk2 V c 1 t) (iblk2 V c 2 t) (iblk2 V c 3 t) (iblk2 V c 4 t) (ix2 y j) = _
  rw [iblk_scale V c t, iblk_shift V c t, iblk_weights V c t, iblk_bias V c t]
  refine (pay4_apply (iblk2 V c 0 t) (V c (Pipeline.arrRef spec2 1)) (V c (Pipeline.arrRef spec2 2))
    (V c (Pipeline.arrRef spec2 3)) (V c (Pipeline.arrRef spec2 4)) y j).trans ?_
  unfold blockOut signed hid Cert.Layer.hiddenOut Cert.Layer.signAffine
  simp only [iblk_rows V c t y _ r hr]

end AtIdeal

end Cert.KernelIdeal.Hidden2

end
-- ==== Proof.Hidden2Acc.lean ====
/-
  What the three output blocks hold after each grid point.

  The 64 × 4096 block is, after point t, the rectified product block of t's inputs. The two sum rows restart at the
  first point of a half of the batch (points 0 and 128) and grow at every point by the block's column sums, so after
  point n they hold the sums over the blocks of the points since the restart: by induction on the point, never by
  listing the grid.
-/
import proofs.«105723_j39608188403810_2_alg».proof.Proof.Hidden2Case
import proofs.«105723_j39608188403810_2_alg».proof.Proof.Hidden2Blocks
import proofs.«105723_j39608188403810_2_alg».proof.Proof.Hidden1Run

noncomputable section

namespace Cert.KernelIdeal.Hidden2

open Idealize.ShloMosaic Idealize.ShloMosaic.TcCoe Idealize.SL.Sem Idealize.ShloMosaic.ValueIdx
open Cert.KernelIdeal Cert.KernelIdeal.Gen

section AnyValues

variable {F : FTy → Type} [FloatOps F]
variable (V : (c : Dev nD) → (b : Ref sig .tc) → Buf (Elt F) ((c : Thread nD τ).loc b))

/-- After the first point of a half: the block, and the zero row plus the block's column sums. -/
theorem outs_first (c : Dev nD) (t : Fin cfg2.N) (h0 : t.val % 128 = 0) :
    outsAt2 V c t.val t.isLt
      = (k2_pay4 (iblk2 V c 0 t) (iblk2 V c 1 t) (iblk2 V c 2 t) (iblk2 V c 3 t) (iblk2 V c 4 t), k2_pay5 (iblk2 V c 0 t) (iblk2 V c 1 t) (iblk2 V c 2 t) (iblk2 V c 3 t) (iblk2 V c 4 t) k2_pay2, k2_pay1 (k2_pay4 (iblk2 V c 0 t) (iblk2 V c 1 t) (iblk2 V c 2 t) (iblk2 V c 3 t) (iblk2 V c 4 t)) k2_pay3) := by
  rw [outsAt2_A V c t h0, out_A_5, out_A_6, out_A_7]

/-- After any other point: the block, and what the point before left plus the block's column sums. -/
theorem outs_next (c : Dev nD) (t : Fin cfg2.N) (h0 : ¬t.val % 128 = 0) :
    outsAt2 V c t.val t.isLt
      = (k2_pay4 (iblk2 V c 0 t) (iblk2 V c 1 t) (iblk2 V c 2 t) (iblk2 V c 3 t) (iblk2 V c 4 t), k2_pay5 (iblk2 V c 0 t) (iblk2 V c 1 t) (iblk2 V c 2 t) (iblk2 V c 3 t) (iblk2 V c 4 t) (outsAt2 V c (t.val - 1) (Nat.lt_of_le_of_lt (Nat.sub_le _ _) t.isLt)).2.1, k2_pay1 (k2_pay4 (iblk2 V c 0 t) (iblk2 V c 1 t) (iblk2 V c 2 t) (iblk2 V c 3 t) (iblk2 V c 4 t)) (outsAt2 V c (t.val - 1) (Nat.lt_of_le_of_lt (Nat.sub_le _ _) t.isLt)).2.2) := by
  rw [outsAt2_B V c t h0, out_B_5, out_B_6, out_B_7]

/-- The 64 × 4096 block after point t. -/
theorem outs_block (c : Dev nD) (t : Fin cfg2.N) : (outsAt2 V c t.val t.isLt).1 = k2_pay4 (iblk2 V c 0 t) (iblk2 V c 1 t) (iblk2 V c 2 t) (iblk2 V c 3 t) (iblk2 V c 4 t) := by
  by_cases h0 : t.val % 128 = 0
  · rw [outs_first V c t h0]
  · rw [outs_next V c t h0]

end AnyValues

section AtIdeal

variable (V : (c : Dev nD) → (b : Ref sig .tc) → Buf (Elt Ideal) ((c : Thread nD τ).loc b))

/-- The column sums of point t's block are the hidden layer's output summed over rows 64·t … 64·t + 63. -/
theorem colSum_block (c : Dev nD) (t : Fin cfg2.N) (j : Fin 4096) :
    ∑ y : Fin 64, blockAt V c t (ix2 y j) = Hidden1.blockSum (fun r => hid V c r j) t.val := by
  have hN : cfg2.N = 256 := N_2
  unfold Hidden1.blockSum
  refine Finset.sum_congr rfl fun y _ => block_eq V c t y j _ ?_
  have := t.isLt; have := y.isLt
  exact Nat.mod_eq_of_lt (by omega)

/-- Likewise for the squares. -/
theorem colSq_block (c : Dev nD) (t : Fin cfg2.N) (j : Fin 4096) :
    ∑ y : Fin 64, blockAt V c t (ix2 y j) * blockAt V c t (ix2 y j)
      = Hidden1.blockSum (fun r => hid V c r j * hid V c r j) t.val := by
  have hN : cfg2.N = 256 := N_2
  unfold Hidden1.blockSum
  refine Finset.sum_congr rfl fun y _ => ?_
  have := t.isLt; have := y.isLt
  rw [block_eq V c t y j ⟨(t.val * 64 + y.val) % 16384, Nat.mod_lt _ (by decide)⟩ (Nat.mod_eq_of_lt (by omega))]

/-- The row of running sums after point n, at column j: the block sums since the last restart. -/
theorem sums_eq (c : Dev nD) (j : Fin 4096) : ∀ (n : ℕ) (h : n < cfg2.N),
    (outsAt2 V c n h).2.1 (ix2 0 j)
      = ∑ s ∈ Finset.range (n % 128 + 1), Hidden1.blockSum (fun r => hid V c r j) (n - n % 128 + s) :=
  Hidden1.restart_sum (N := cfg2.N) (fun n h => (outsAt2 V c n h).2.1 (ix2 0 j)) (Hidden1.blockSum (fun r => hid V c r j))
    (fun n h h0 => by
      show (outsAt2 V c (⟨n, h⟩ : Fin cfg2.N).val (⟨n, h⟩ : Fin cfg2.N).isLt).2.1 (ix2 0 j) = _
      rw [outs_first V c ⟨n, h⟩ h0]
      refine (pay5_apply (iblk2 V c 0 ⟨n, h⟩) (iblk2 V c 1 ⟨n, h⟩) (iblk2 V c 2 ⟨n, h⟩) (iblk2 V c 3 ⟨n, h⟩) (iblk2 V c 4 ⟨n, h⟩) k2_pay2 j).trans ?_
      rw [pay2_apply]
      exact congrArg (0 + ·) (colSum_block V c ⟨n, h⟩ j))
    (fun n h h0 => by
      show (outsAt2 V c (⟨n + 1, h⟩ : Fin cfg2.N).val (⟨n + 1, h⟩ : Fin cfg2.N).isLt).2.1 (ix2 0 j) = _
      rw [outs_next V c ⟨n + 1, h⟩ h0]
      refine (pay5_apply (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ j).trans ?_
      exact congrArg (_ + ·) (colSum_block V c ⟨n + 1, h⟩ j))

/-- The row of running sums of squares after point n, at column j. -/
theorem sumsqs_eq (c : Dev nD) (j : Fin 4096) : ∀ (n : ℕ) (h : n < cfg2.N),
    (outsAt2 V c n h).2.2 (ix2 0 j)
      = ∑ s ∈ Finset.range (n % 128 + 1), Hidden1.blockSum (fun r => hid V c r j * hid V c r j) (n - n % 128 + s) :=
  Hidden1.restart_sum (N := cfg2.N) (fun n h => (outsAt2 V c n h).2.2 (ix2 0 j)) (Hidden1.blockSum (fun r => hid V c r j * hid V c r j))
    (fun n h h0 => by
      show (outsAt2 V c (⟨n, h⟩ : Fin cfg2.N).val (⟨n, h⟩ : Fin cfg2.N).isLt).2.2 (ix2 0 j) = _
      rw [outs_first V c ⟨n, h⟩ h0]
      refine (pay1_apply (blockAt V c ⟨n, h⟩) k2_pay3 j).trans ?_
      rw [pay3_apply]
      exact congrArg (0 + ·) (colSq_block V c ⟨n, h⟩ j))
    (fun n h h0 => by
      show (outsAt2 V c (⟨n + 1, h⟩ : Fin cfg2.N).val (⟨n + 1, h⟩ : Fin cfg2.N).isLt).2.2 (ix2 0 j) = _
      rw [outs_next V c ⟨n + 1, h⟩ h0]
      refine (pay1_apply (blockAt V c ⟨n + 1, h⟩) _ j).trans ?_
      exact congrArg (_ + ·) (colSq_block V c ⟨n + 1, h⟩ j))

/-- After the last point of half h the sums row holds the half's column sums. -/
theorem sums_last (c : Dev nD) (t : Fin cfg2.N) (h127 : t.val % 128 = 127) (j : Fin 4096) (h : Fin 2)
    (hh : h.val = t.val / 128) :
    (outsAt2 V c t.val t.isLt).2.1 (ix2 0 j) = Cert.Layer.halfSum128x64 (fun r => hid V c r j) h := by
  rw [sums_eq V c j t.val t.isLt, h127, ← Hidden1.sum_blockSum]
  have e : t.val - 127 = h.val * 128 := by omega
  rw [e]

theorem sumsqs_last (c : Dev nD) (t : Fin cfg2.N) (h127 : t.val % 128 = 127) (j : Fin 4096) (h : Fin 2)
    (hh : h.val = t.val / 128) :
    (outsAt2 V c t.val t.isLt).2.2 (ix2 0 j)
      = Cert.Layer.halfSum128x64 (fun r => hid V c r j * hid V c r j) h := by
  rw [sumsqs_eq V c j t.val t.isLt, h127, ← Hidden1.sum_blockSum]
  have e : t.val - 127 = h.val * 128 := by omega
  rw [e]

end AtIdeal

end Cert.KernelIdeal.Hidden2

end
-- ==== Proof.Hidden2Out.lean ====
/-
  The region's 16384 × 4096 output array after its run.

  Every point writes its 64 × 4096 block back, and block t is rows 64·t … 64·t + 63 of one function of the region's
  operands, the hidden layer's output; the 256 blocks tile the 16384 rows, so the array ends holding that function.
-/
import proofs.«105723_j39608188403810_2_alg».proof.Proof.Hidden2Acc

noncomputable section

namespace Cert.KernelIdeal.Hidden2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The 16384 × 4096 output -/

/-- The hidden layer's output as an array. -/
def outArr (c : Dev nD) : S16384x4096.Idx → EReal :=
  fun i => hid V c ⟨(i 0).val, idx2_lt0 i⟩ ⟨(i 1).val, idx2_lt1 i⟩

/-- What point t writes back is block t of that array. -/
theorem flushed_out (c : Dev nD) (t : Fin cfg2.N) :
    (dat2 V c).flushed 5 t = ((cfg2.win 5).blk t).view.read (Elt Ideal) (outArr V c) := by
  have hN : cfg2.N = 256 := N_2
  obtain ⟨-, -, -, -, -, -, -, -, -, -, e0, e1, -⟩ := idx_facts t
  show (cfg2.win 5).cut (grid2.coords t) ((dat2 V c).after 5 t) = _
  rw [after2_5, outs_block V c t]
  funext y'
  rw [View.read_apply]
  have hy0 : (y' 0).val < 64 := (y' 0).isLt
  have hy1 : (y' 1).val < 4096 := (y' 1).isLt
  have ht := t.isLt
  have ex : (cfg2.win 5).xinj (grid2.coords t) y' = ix2 (⟨(y' 0).val, hy0⟩ : Fin 64) (⟨(y' 1).val, hy1⟩ : Fin 4096) :=
    funext fun a => match a with | ⟨0, _⟩ => rfl | ⟨1, _⟩ => rfl
  show blockAt V c t ((cfg2.win 5).xinj (grid2.coords t) y') = outArr V c (((cfg2.win 5).blk t).view.emb y')
  rw [ex, block_eq V c t ⟨(y' 0).val, hy0⟩ ⟨(y' 1).val, hy1⟩ ⟨t.val * 64 + (y' 0).val, by omega⟩ rfl]
  unfold outArr
  refine congrArg₂ (hid V c) (Fin.ext ?_) (Fin.ext ?_)
  · show t.val * 64 + (y' 0).val = win2_5.index t 0 * 64 + 1 * (y' 0).val
    rw [e0]; omega
  · show (y' 1).val = win2_5.index t 1 * 4096 + 1 * (y' 1).val
    rw [e1]; omega

/-- An index of the array lies in point t's block iff each coordinate lies in the block's range. -/
theorem mem_blk_out (t : Fin cfg2.N) (i : S16384x4096.Idx) :
    i ∈ ((cfg2.win 5).blk t).view.set ↔ ∀ a : Fin 2, win2_5.index t a * S64x4096.size a ≤ (i a).val
      ∧ (i a).val < win2_5.index t a * S64x4096.size a + S64x4096.size a := by
  show i ∈ ((View.whole main_v59_0).slice (win2_5.rect t)).set ↔ _
  rw [View.set_slice_whole, Rect.mem_set_unit]
  exact Iff.rfl

/-- The array after the run. -/
theorem final_out (c : Dev nD) : (dat2 V c).arrAt 5 cfg2.N = outArr V c :=
  (dat2 V c).arrAt_eq_of_cover 5 (outArr V c) (fun t _ => flushed_out V c t) fun i => by
    have hN : cfg2.N = 256 := N_2
    have hi0 : (i 0).val < 16384 := (i 0).isLt
    have hi1 : (i 1).val < 4096 := (i 1).isLt
    let t : Fin cfg2.N := ⟨(i 0).val / 64, by omega⟩
    obtain ⟨-, -, -, -, -, -, -, -, -, -, e0, e1, -⟩ := idx_facts t
    refine ⟨t, flush2_5 t, ?_⟩
    rw [mem_blk_out]
    intro a
    match a with
    | ⟨0, _⟩ =>
      show win2_5.index t 0 * 64 ≤ (i 0).val ∧ (i 0).val < win2_5.index t 0 * 64 + 64
      rw [e0]; show (i 0).val / 64 * 64 ≤ (i 0).val ∧ (i 0).val < (i 0).val / 64 * 64 + 64; omega
    | ⟨1, _⟩ =>
      show win2_5.index t 1 * 4096 ≤ (i 1).val ∧ (i 1).val < win2_5.index t 1 * 4096 + 4096
      rw [e1]; omega

/-- The region's first output, entry by entry. -/
theorem out_array (c : Dev nD) (r : Fin 16384) (j : Fin 4096) :
    (dat2 (F := Ideal) V c).arrAt 5 cfg2.N (ix2 r j)
      = Cert.Layer.hiddenOut (V c (Pipeline.arrRef spec2 0)) (V c (Pipeline.arrRef spec2 1)) (V c (Pipeline.arrRef spec2 2))
          (V c (Pipeline.arrRef spec2 3)) (V c (Pipeline.arrRef spec2 4)) r j := by
  rw [final_out V c]
  rfl

end Cert.KernelIdeal.Hidden2

end
-- ==== Proof.Hidden2Sum.lean ====
/-
  The region's row of half sums after its run.

  The sums row is written back only after the last point of a half of the batch (points 127 and 255), into columns
  4096·h … 4096·h + 4095 of a 1 × 8192 array; it then holds, per column, the half's sum of the hidden layer's output,
  taken block of 64 rows by block in the order the grid visits them. The two blocks tile the 8192 columns.
-/
import proofs.«105723_j39608188403810_2_alg».proof.Proof.Hidden2Acc

noncomputable section

namespace Cert.KernelIdeal.Hidden2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Per column, the sum of the hidden layer's output over the column's half of the batch: columns 4096·h … 4096·h + 4095 belong to half h. -/
def sumArr (c : Dev nD) : S1x8192.Idx → EReal :=
  fun i => Cert.Layer.halfSum128x64 (fun r => hid V c r ⟨(i 1).val % 4096, Nat.mod_lt _ (by decide)⟩)
    ⟨(i 1).val / 4096, by have := idx2_lt1 i; omega⟩

/-- What the last point of a half writes back is that half's block of the sums row. -/
theorem flushed_sum (c : Dev nD) (t : Fin cfg2.N) (hf : (cfg2.win 6).flush t = true) :
    (dat2 V c).flushed 6 t = ((cfg2.win 6).blk t).view.read (Elt Ideal) (sumArr V c) := by
  have hN : cfg2.N = 256 := N_2
  have h127 : t.val % 128 = 127 := (flush2_6 t).mp hf
  obtain ⟨-, -, -, -, -, -, -, -, -, -, -, -, e0, e1, -⟩ := idx_facts t
  show (cfg2.win 6).cut (grid2.coords t) ((dat2 V c).after 6 t) = _
  rw [after2_6]
  funext i'
  rw [View.read_apply]
  have hi0 : (i' 0).val < 1 := (i' 0).isLt
  have hi1 : (i' 1).val < 4096 := (i' 1).isLt
  have ht := t.isLt
  have ex : (cfg2.win 6).xinj (grid2.coords t) i' = ix2 (0 : Fin 1) (⟨(i' 1).val, hi1⟩ : Fin 4096) :=
    funext fun a => match a with
      | ⟨0, _⟩ => Fin.ext (by show (i' 0).val = 0; omega)
      | ⟨1, _⟩ => rfl
  show (outsAt2 V c t.val t.isLt).2.1 ((cfg2.win 6).xinj (grid2.coords t) i') = sumArr V c (((cfg2.win 6).blk t).view.emb i')
  rw [ex, sums_last V c t h127 ⟨(i' 1).val, hi1⟩ ⟨t.val / 128, by omega⟩ rfl]
  unfold sumArr
  have hemb : ((((cfg2.win 6).blk t).view.emb i') 1).val = t.val / 128 * 4096 + (i' 1).val := by
    show win2_6.index t 1 * 4096 + 1 * (i' 1).val = _
    rw [e1]; omega
  refine congrArg₂ (fun (j : Fin 4096) (h : Fin 2) => Cert.Layer.halfSum128x64 (fun r => hid V c r j) h)
    (Fin.ext ?_) (Fin.ext ?_)
  · show (i' 1).val = ((((cfg2.win 6).blk t).view.emb i') 1).val % 4096
    rw [hemb]; omega
  · show t.val / 128 = ((((cfg2.win 6).blk t).view.emb i') 1).val / 4096
    rw [hemb]; omega

/-- An index of the 1 × 8192 array lies in point t's block iff each coordinate lies in the block's range. -/
theorem mem_blk_sum (t : Fin cfg2.N) (i : S1x8192.Idx) :
    i ∈ ((cfg2.win 6).blk t).view.set ↔ ∀ a : Fin 2, win2_6.index t a * S1x4096.size a ≤ (i a).val
      ∧ (i a).val < win2_6.index t a * S1x4096.size a + S1x4096.size a := by
  show i ∈ ((View.whole main_v59_1).slice (win2_6.rect t)).set ↔ _
  rw [View.set_slice_whole, Rect.mem_set_unit]
  exact Iff.rfl

/-- The sums row after the run. -/
theorem final_sum (c : Dev nD) : (dat2 V c).arrAt 6 cfg2.N = sumArr V c :=
  (dat2 V c).arrAt_eq_of_cover 6 (sumArr V c) (fun t hf => flushed_sum V c t hf) fun i => by
    have hN : cfg2.N = 256 := N_2
    have hi0 : (i 0).val < 1 := (i 0).isLt
    have hi1 : (i 1).val < 8192 := (i 1).isLt
    let t : Fin cfg2.N := ⟨(i 1).val / 4096 * 128 + 127, by omega⟩
    obtain ⟨-, -, -, -, -, -, -, -, -, -, -, -, e0, e1, -⟩ := idx_facts t
    refine ⟨t, (flush2_6 t).mpr (by show ((i 1).val / 4096 * 128 + 127) % 128 = 127; omega), ?_⟩
    rw [mem_blk_sum]
    intro a
    match a with
    | ⟨0, _⟩ =>
      show win2_6.index t 0 * 1 ≤ (i 0).val ∧ (i 0).val < win2_6.index t 0 * 1 + 1
      rw [e0]; omega
    | ⟨1, _⟩ =>
      show win2_6.index t 1 * 4096 ≤ (i 1).val ∧ (i 1).val < win2_6.index t 1 * 4096 + 4096
      rw [e1]; show ((i 1).val / 4096 * 128 + 127) / 128 * 4096 ≤ (i 1).val ∧ (i 1).val < ((i 1).val / 4096 * 128 + 127) / 128 * 4096 + 4096
      omega

/-- The region's second output, entry by entry. -/
theorem sum_array (c : Dev nD) (h : Fin 2) (j : Fin 4096) :
    (dat2 (F := Ideal) V c).arrAt 6 cfg2.N (ix2 0 ⟨h.val * 4096 + j.val, by have := h.isLt; have := j.isLt; omega⟩)
      = Cert.Layer.halfSum128x64 (fun r => Cert.Layer.hiddenOut (V c (Pipeline.arrRef spec2 0)) (V c (Pipeline.arrRef spec2 1)) (V c (Pipeline.arrRef spec2 2)) (V c (Pipeline.arrRef spec2 3)) (V c (Pipeline.arrRef spec2 4)) r j) h := by
  rw [final_sum V c]
  have := h.isLt; have := j.isLt
  show Cert.Layer.halfSum128x64 (fun r => hid V c r ⟨(h.val * 4096 + j.val) % 4096, Nat.mod_lt _ (by decide)⟩)
    ⟨(h.val * 4096 + j.val) / 4096, _⟩ = _
  refine congrArg₂ (fun (j : Fin 4096) (h : Fin 2) => Cert.Layer.halfSum128x64 (fun r => hid V c r j) h)
    (Fin.ext ?_) (Fin.ext ?_)
  · show (h.val * 4096 + j.val) % 4096 = j.val; omega
  · show (h.val * 4096 + j.val) / 4096 = h.val; omega

end Cert.KernelIdeal.Hidden2

end
-- ==== Proof.Hidden2SumSq.lean ====
/-
  The region's row of half sums of squares after its run.

  As the row of sums: written back after points 127 and 255 into columns 4096·h … 4096·h + 4095 of a 1 × 8192 array,
  it holds, per column, the half's sum of the squared hidden layer's output, block of 64 rows by block.
-/
import proofs.«105723_j39608188403810_2_alg».proof.Proof.Hidden2Acc

noncomputable section

namespace Cert.KernelIdeal.Hidden2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Per column, the sum of the squares of the hidden layer's output over the column's half of the batch. -/
def sumsqArr (c : Dev nD) : S1x8192.Idx → EReal :=
  fun i => Cert.Layer.halfSum128x64 (fun r => hid V c r ⟨(i 1).val % 4096, Nat.mod_lt _ (by decide)⟩ * hid V c r ⟨(i 1).val % 4096, Nat.mod_lt _ (by decide)⟩)
    ⟨(i 1).val / 4096, by have := idx2_lt1 i; omega⟩

/-- What the last point of a half writes back is that half's block of the row of sums of squares. -/
theorem flushed_sumsq (c : Dev nD) (t : Fin cfg2.N) (hf : (cfg2.win 7).flush t = true) :
    (dat2 V c).flushed 7 t = ((cfg2.win 7).blk t).view.read (Elt Ideal) (sumsqArr V c) := by
  have hN : cfg2.N = 256 := N_2
  have h127 : t.val % 128 = 127 := (flush2_7 t).mp hf
  obtain ⟨-, -, -, -, -, -, -, -, -, -, -, -, -, -, e0, e1⟩ := idx_facts t
  show (cfg2.win 7).cut (grid2.coords t) ((dat2 V c).after 7 t) = _
  rw [after2_7]
  funext i'
  rw [View.read_apply]
  have hi0 : (i' 0).val < 1 := (i' 0).isLt
  have hi1 : (i' 1).val < 4096 := (i' 1).isLt
  have ht := t.isLt
  have ex : (cfg2.win 7).xinj (grid2.coords t) i' = ix2 (0 : Fin 1) (⟨(i' 1).val, hi1⟩ : Fin 4096) :=
    funext fun a => match a with
      | ⟨0, _⟩ => Fin.ext (by show (i' 0).val = 0; omega)
      | ⟨1, _⟩ => rfl
  show (outsAt2 V c t.val t.isLt).2.2 ((cfg2.win 7).xinj (grid2.coords t) i') = sumsqArr V c (((cfg2.win 7).blk t).view.emb i')
  rw [ex, sumsqs_last V c t h127 ⟨(i' 1).val, hi1⟩ ⟨t.val / 128, by omega⟩ rfl]
  unfold sumsqArr
  have hemb : ((((cfg2.win 7).blk t).view.emb i') 1).val = t.val / 128 * 4096 + (i' 1).val := by
    show win2_7.index t 1 * 4096 + 1 * (i' 1).val = _
    rw [e1]; omega
  refine congrArg₂ (fun (j : Fin 4096) (h : Fin 2) => Cert.Layer.halfSum128x64 (fun r => hid V c r j * hid V c r j) h)
    (Fin.ext ?_) (Fin.ext ?_)
  · show (i' 1).val = ((((cfg2.win 7).blk t).view.emb i') 1).val % 4096
    rw [hemb]; omega
  · show t.val / 128 = ((((cfg2.win 7).blk t).view.emb i') 1).val / 4096
    rw [hemb]; omega

/-- An index of the 1 × 8192 array lies in point t's block iff each coordinate lies in the block's range. -/
theorem mem_blk_sumsq (t : Fin cfg2.N) (i : S1x8192.Idx) :
    i ∈ ((cfg2.win 7).blk t).view.set ↔ ∀ a : Fin 2, win2_7.index t a * S1x4096.size a ≤ (i a).val
      ∧ (i a).val < win2_7.index t a * S1x4096.size a + S1x4096.size a := by
  show i ∈ ((View.whole main_v59_2).slice (win2_7.rect t)).set ↔ _
  rw [View.set_slice_whole, Rect.mem_set_unit]
  exact Iff.rfl

/-- The row of sums of squares after the run. -/
theorem final_sumsq (c : Dev nD) : (dat2 V c).arrAt 7 cfg2.N = sumsqArr V c :=
  (dat2 V c).arrAt_eq_of_cover 7 (sumsqArr V c) (fun t hf => flushed_sumsq V c t hf) fun i => by
    have hN : cfg2.N = 256 := N_2
    have hi0 : (i 0).val < 1 := (i 0).isLt
    have hi1 : (i 1).val < 8192 := (i 1).isLt
    let t : Fin cfg2.N := ⟨(i 1).val / 4096 * 128 + 127, by omega⟩
    obtain ⟨-, -, -, -, -, -, -, -, -, -, -, -, -, -, e0, e1⟩ := idx_facts t
    refine ⟨t, (flush2_7 t).mpr (by show ((i 1).val / 4096 * 128 + 127) % 128 = 127; omega), ?_⟩
    rw [mem_blk_sumsq]
    intro a
    match a with
    | ⟨0, _⟩ =>
      show win2_7.index t 0 * 1 ≤ (i 0).val ∧ (i 0).val < win2_7.index t 0 * 1 + 1
      rw [e0]; omega
    | ⟨1, _⟩ =>
      show win2_7.index t 1 * 4096 ≤ (i 1).val ∧ (i 1).val < win2_7.index t 1 * 4096 + 4096
      rw [e1]; show ((i 1).val / 4096 * 128 + 127) / 128 * 4096 ≤ (i 1).val ∧ (i 1).val < ((i 1).val / 4096 * 128 + 127) / 128 * 4096 + 4096
      omega

/-- The region's third output, entry by entry. -/
theorem sumsq_array (c : Dev nD) (h : Fin 2) (j : Fin 4096) :
    (dat2 (F := Ideal) V c).arrAt 7 cfg2.N (ix2 0 ⟨h.val * 4096 + j.val, by have := h.isLt; have := j.isLt; omega⟩)
      = Cert.Layer.halfSum128x64 (fun r => Cert.Layer.hiddenOut (V c (Pipeline.arrRef spec2 0)) (V c (Pipeline.arrRef spec2 1)) (V c (Pipeline.arrRef spec2 2)) (V c (Pipeline.arrRef spec2 3)) (V c (Pipeline.arrRef spec2 4)) r j * Cert.Layer.hiddenOut (V c (Pipeline.arrRef spec2 0)) (V c (Pipeline.arrRef spec2 1)) (V c (Pipeline.arrRef spec2 2)) (V c (Pipeline.arrRef spec2 3)) (V c (Pipeline.arrRef spec2 4)) r j) h := by
  rw [final_sumsq V c]
  have := h.isLt; have := j.isLt
  show Cert.Layer.halfSum128x64 (fun r => hid V c r ⟨(h.val * 4096 + j.val) % 4096, Nat.mod_lt _ (by decide)⟩ * hid V c r ⟨(h.val * 4096 + j.val) % 4096, Nat.mod_lt _ (by decide)⟩)
    ⟨(h.val * 4096 + j.val) / 4096, _⟩ = _
  refine congrArg₂ (fun (j : Fin 4096) (h : Fin 2) => Cert.Layer.halfSum128x64 (fun r => hid V c r j * hid V c r j) h)
    (Fin.ext ?_) (Fin.ext ?_)
  · show (h.val * 4096 + j.val) % 4096 = j.val; omega
  · show (h.val * 4096 + j.val) / 4096 = h.val; omega

end Cert.KernelIdeal.Hidden2

end
-- ==== Proof.ChainHidden2.lean ====
/-
  The third region's step: if, when the region is entered, its input array holds the previous layer's rectified output,
  its scale and shift arrays that layer's scale and shift, and its weight and bias arrays the signs of this layer's
  weights (transposed) and its bias, then at its exit the output array holds this layer's rectified output and the two
  accumulator arrays hold, for each half of the batch, that output's column sums and column sums of squares.
-/
import proofs.«105723_j39608188403810_2_alg».proof.Proof.ChainDefs
import proofs.«105723_j39608188403810_2_alg».proof.Proof.RegionLaw
import proofs.«105723_j39608188403810_2_alg».proof.Proof.Hidden2Out
import proofs.«105723_j39608188403810_2_alg».proof.Proof.Hidden2Sum
import proofs.«105723_j39608188403810_2_alg».proof.Proof.Hidden2SumSq

noncomputable section

namespace Cert.KernelIdeal.Chain

open Cert.KernelIdeal Cert.KernelIdeal.Gen
open Idealize.ShloMosaic Idealize.ShloMosaic.ValueIdx Idealize.ShloMosaic.TcCoe Idealize.SL.Sem
open Cert.Layer

variable (m : (ℓ : Loc nD τ sig) → Buf (Elt Ideal) ℓ) (ρ : Dev nD → PrngReg)

theorem hidden2 (c : Dev nD)
    (h_in : ∀ (r : Fin 16384) (k : Fin 4096), @Eq EReal (W5 m ρ c main_v38_0 (ix2 r k)) (p2 m c r k))
    (h_sc : ∀ k : Fin 4096, @Eq EReal (W5 m ρ c main_v55 (ix2 0 k)) (scale (p2 m c) (args m c).g2 k))
    (h_sh : ∀ k : Fin 4096, @Eq EReal (W5 m ρ c main_v58 (ix2 0 k)) (shift (p2 m c) (args m c).g2 (args m c).be2 k))
    (h_wt : ∀ (k j : Fin 4096), @Eq EReal (W5 m ρ c main_v8 (ix2 k j)) (Ideal.sign ((args m c).w3 j k)))
    (h_bb : ∀ j : Fin 4096, @Eq EReal (W5 m ρ c main_v15 (ix2 0 j)) ((args m c).b3 j)) :
    (∀ (r : Fin 16384) (j : Fin 4096), @Eq EReal (W6 m ρ c main_v59_0 (ix2 r j)) (p3 m c r j))
    ∧ (∀ (h : Fin 2) (j : Fin 4096), @Eq EReal
        (W6 m ρ c main_v59_1 (ix2 0 ⟨h.val * 4096 + j.val, by have := h.isLt; have := j.isLt; omega⟩))
        (halfSum128x64 (fun r => p3 m c r j) h))
    ∧ (∀ (h : Fin 2) (j : Fin 4096), @Eq EReal
        (W6 m ρ c main_v59_2 (ix2 0 ⟨h.val * 4096 + j.val, by have := h.isLt; have := j.isLt; omega⟩))
        (halfSum128x64 (fun r => p3 m c r j * p3 m c r j) h)) := by
  have hE : hiddenOut (V5 m ρ c (Pipeline.arrRef spec2 0)) (V5 m ρ c (Pipeline.arrRef spec2 1))
      (V5 m ρ c (Pipeline.arrRef spec2 2)) (V5 m ρ c (Pipeline.arrRef spec2 3)) (V5 m ρ c (Pipeline.arrRef spec2 4))
      = p3 m c :=
    hiddenOut_eq (p2 m c) (args m c).g2 (args m c).be2 (args m c).w3 (args m c).b3 _ _ _ _ _ h_in h_sc h_sh h_wt h_bb
  refine ⟨fun r j => ?_, fun h j => ?_, fun h j => ?_⟩
  · refine (congrFun (W6_arr m ρ c 5) (ix2 r j)).trans ?_
    refine (Hidden2.out_array (V5 m ρ) c r j).trans ?_
    rw [hE]
  · refine (congrFun (W6_arr m ρ c 6) _).trans ?_
    refine (Hidden2.sum_array (V5 m ρ) c h j).trans ?_
    rw [hE]
  · refine (congrFun (W6_arr m ρ c 7) _).trans ?_
    refine (Hidden2.sumsq_array (V5 m ρ) c h j).trans ?_
    rw [hE]

end Cert.KernelIdeal.Chain

end
-- ==== Proof.LibColumn.lean ====
/-
  Two layout operations read at an index, for a column kept as a unit axis: a vector of length `a` cast to an
  `[a, 1]` array, and an `[a, 1]` array broadcast along its unit axis to `[a, b]`. Together they say that a per-row
  quantity (a row's maximum, a row's sum) spread back over the row's columns reads, at `(p, c)`, the quantity of row `p`.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`:
    both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LastPayload.lean ====
/-
  The last region's body, read at one entry of its block of 512 rows.

  The body is cut into three stages that compose to it: the normalised sign of the input block (an affine map of
  each entry by its column's scale and shift, then the sign), the logits (the product with the weights over the 4096
  columns, plus the bias row), and the log-softmax of each row of ten logits (subtract the row's maximum, subtract
  the logarithm of the sum of the exponentials).
-/
import proofs.«105723_j39608188403810_2_alg».proof.Proof.Gen.KernelIdeal.Skeleton
import proofs.«105723_j39608188403810_2_alg».proof.Proof.Region
import proofs.«105723_j39608188403810_2_alg».proof.Proof.LibColumn
import Idealize.ShloMosaic.PureOps.Ideal.Laws
import Idealize.ShloMosaic.Lib.ValueLayout
import Idealize.ShloMosaic.Lib.Pipeline.Value

noncomputable section

namespace Cert.KernelIdeal.Last

open Cert.KernelIdeal Cert.KernelIdeal.Gen
open Idealize.ShloMosaic Idealize.ShloMosaic.ValueIdx Idealize.SL.Sem

section Stages
variable {F : FTy → Type} [FloatOps F]

/-- The normalised sign of a block: each entry times its column's scale plus its column's shift, then the sign. -/
def signBlock (v0 : Vec F S512x4096 .f32) (v2 : Vec F S1x4096 .f32) (v6 : Vec F S1x4096 .f32) : FVec F S512x4096 .bf16 :=
  have v1 : FVec F S512x4096 .f32 := shapeCast S512x4096 v0 shapeCasts_S512x4096_S512x4096
  have v3 : FVec F S1x4096 .f32 := shapeCast S1x4096 v2 shapeCasts_S1x4096_S1x4096
  have v4 : FVec F S512x4096 .f32 := broadcastTo S512x4096 v3 broadcasts_S1x4096_S512x4096
  have v5 : FVec F S512x4096 .f32 := mulf v1 v4
  have v7 : FVec F S1x4096 .f32 := shapeCast S1x4096 v6 shapeCasts_S1x4096_S1x4096
  have v8 : FVec F S512x4096 .f32 := broadcastTo S512x4096 v7 broadcasts_S1x4096_S512x4096
  have v9 : FVec F S512x4096 .f32 := addf v5 v8
  have v15 : FVec F S512x4096 .f32 := select (cmpf .olt v9 (constant S512x4096 .f32 0x00000000#32)) (constant S512x4096 .f32 0xBF800000#32) (constant S512x4096 .f32 0x3F800000#32)
  have v16 : FVec F S512x4096 .f32 := absf v9
  have cst : F .f32 := Scalar.ofBits .f32 0x00000000#32
  have v17 : FVec F S512x4096 .f32 := broadcast S512x4096 cst
  have v18 : IVec S512x4096 1 := cmpf .ogt v16 v17
  have v19 : FVec F S512x4096 .f32 := select v18 v15 v9
  have v20 : FVec F S512x4096 .bf16 := truncf .bf16 v19 bitsLt_bf16_f32
  v20

/-- The logits of a block: the product with the weights, plus the bias row. -/
def logitBlock (v20 : FVec F S512x4096 .bf16) (v21 : Vec F S4096x10 .bf16) (v24 : Vec F S1x10 .f32) : FVec F S512x10 .f32 :=
  have v22 : FVec F S4096x10 .bf16 := shapeCast S4096x10 v21 shapeCasts_S4096x10_S4096x10
  have cst_7 : FVec F S512x10 .f32 := constant S512x10 .f32 0x00000000#32
  have v23 : FVec F S512x10 .f32 := matmul dot_S512x4096_S4096x10_S512x10_1_0_0_1_n_n none v20 v22 cst_7
  have v25 : FVec F S1x10 .f32 := shapeCast S1x10 v24 shapeCasts_S1x10_S1x10
  have v26 : FVec F S512x10 .f32 := broadcastTo S512x10 v25 broadcasts_S1x10_S512x10
  have v27 : FVec F S512x10 .f32 := addf v23 v26
  v27

/-- The log-softmax of each row of a block of logits. -/
def softBlock (v27 : FVec F S512x10 .f32) : FVec F S512x10 .f32 :=
  have v28 : FVec F S512 .f32 := multiReduction .maximumf [1] S512 v27 0xFF800000#32 reduces_S512x10_S512 (.inl rfl) rfl
  have v29 : FVec F S512x1 .f32 := shapeCast S512x1 v28 shapeCasts_S512_S512x1
  have v30 : FVec F S512x10 .f32 := broadcastTo S512x10 v29 broadcasts_S512x1_S512x10
  have v31 : FVec F S512x10 .f32 := subf v27 v30
  have v32 : FVec F S512x10 .f32 := exp v31
  have v33 : FVec F S512 .f32 := multiReduction .add [1] S512 v32 0x00000000#32 reduces_S512x10_S512 (.inl rfl) rfl
  have v34 : FVec F S512x1 .f32 := shapeCast S512x1 v33 shapeCasts_S512_S512x1
  have v35 : FVec F S512x1 .f32 := log v34
  have v36 : FVec F S512x10 .f32 := broadcastTo S512x10 v35 broadcasts_S512x1_S512x10
  have v37 : FVec F S512x10 .f32 := subf v31 v36
  v37

/-- The body's one payload is the three stages composed. -/
theorem pay_stages (v0 : Vec F S512x4096 .f32) (v2 : Vec F S1x4096 .f32) (v6 : Vec F S1x4096 .f32) (v21 : Vec F S4096x10 .bf16)
    (v24 : Vec F S1x10 .f32) : k3_pay1 v0 v2 v6 v21 v24 = softBlock (logitBlock (signBlock v0 v2 v6) v21 v24) := rfl

end Stages

/-- The normalised sign at row `y`, column `k` of the block. -/
theorem signBlock_apply (v0 : Vec Ideal S512x4096 .f32) (v2 v6 : Vec Ideal S1x4096 .f32) (y : Fin 512) (k : Fin 4096) :
    signBlock (F := Ideal) v0 v2 v6 (ix2 y k) = Ideal.sign (v0 (ix2 y k) * v2 (ix2 0 k) + v6 (ix2 0 k)) := by
  have e : (addf (mulf (shapeCast S512x4096 v0 shapeCasts_S512x4096_S512x4096)
        (broadcastTo S512x4096 (shapeCast S1x4096 v2 shapeCasts_S1x4096_S1x4096) broadcasts_S1x4096_S512x4096))
        (broadcastTo S512x4096 (shapeCast S1x4096 v6 shapeCasts_S1x4096_S1x4096) broadcasts_S1x4096_S512x4096) : FVec Ideal S512x4096 .f32) (ix2 y k)
      = v0 (ix2 y k) * v2 (ix2 0 k) + v6 (ix2 0 k) := by
    rw [addf_apply, mulf_apply, shapeCast_self, shapeCast_self, shapeCast_self, broadcastTo_1b_ab_apply, broadcastTo_1b_ab_apply]
  exact (Ideal.jnp_sign_eq_sign_f32 _).trans (congrArg Ideal.sign e)

/-- The product's left operand is read at the output's row: that axis is not contracted. -/
theorem lhs_row (i : S512x10.Idx) (q : dot_S512x4096_S4096x10_S512x10_1_0_0_1_n_n.contr.Idx) : (dot_S512x4096_S4096x10_S512x10_1_0_0_1_n_n.lhsIdx i q 0).val = (i 0).val := by
  unfold DotDims.lhsIdx
  rw [dif_neg (show ¬(0 : Fin S512x4096.rank) ∈ dot_S512x4096_S4096x10_S512x10_1_0_0_1_n_n.lhsBatch by decide), dif_pos (show (0 : Fin S512x4096.rank) ∈ dot_S512x4096_S4096x10_S512x10_1_0_0_1_n_n.lhsNonContracting by decide)]
  rfl
/-- The product's right operand is read at the output's column: that axis is not contracted. -/
theorem rhs_col (i : S512x10.Idx) (q : dot_S512x4096_S4096x10_S512x10_1_0_0_1_n_n.contr.Idx) : (dot_S512x4096_S4096x10_S512x10_1_0_0_1_n_n.rhsIdx i q 1).val = (i 1).val := by
  unfold DotDims.rhsIdx
  rw [dif_neg (show ¬(1 : Fin S4096x10.rank) ∈ dot_S512x4096_S4096x10_S512x10_1_0_0_1_n_n.rhsBatch by decide), dif_pos (show (1 : Fin S4096x10.rank) ∈ dot_S512x4096_S4096x10_S512x10_1_0_0_1_n_n.rhsNonContracting by decide)]
  rfl

/-- The logits at row `y`, column `j` of the block: a sum over the 4096 contracted columns, plus the bias. -/
theorem logitBlock_apply (a : FVec Ideal S512x4096 .bf16) (v21 : Vec Ideal S4096x10 .bf16) (v24 : Vec Ideal S1x10 .f32)
    (y : Fin 512) (j : Fin 10) :
    logitBlock (F := Ideal) a v21 v24 (ix2 y j) = (∑ k : Fin 4096, a (ix2 y k) * v21 (ix2 k j)) + v24 (ix2 0 j) := by
  unfold logitBlock
  rw [addf_apply, shapeCast_self, shapeCast_self, broadcastTo_1b_ab_apply]
  refine congrArg (· + v24 (ix2 0 j)) ?_
  simp only [matmul]
  rw [Ideal.matmul_constant_zero_apply, ← Equiv.sum_comp (contrEquiv1 dot_S512x4096_S4096x10_S512x10_1_0_0_1_n_n 4096 rfl rfl).symm]
  refine Finset.sum_congr rfl fun k _ => ?_
  have hk := contrEquiv1_symm_val dot_S512x4096_S4096x10_S512x10_1_0_0_1_n_n 4096 rfl rfl k
  have el : dot_S512x4096_S4096x10_S512x10_1_0_0_1_n_n.lhsIdx (ix2 y j) ((contrEquiv1 dot_S512x4096_S4096x10_S512x10_1_0_0_1_n_n 4096 rfl rfl).symm k) = ix2 y k := funext fun ax => Fin.ext (by
    match ax with
    | ⟨0, _⟩ => exact lhs_row _ _
    | ⟨1, _⟩ => exact (dot_S512x4096_S4096x10_S512x10_1_0_0_1_n_n.lhsIdx_val_of_single rfl (ix2 y j) _).trans hk)
  have er : dot_S512x4096_S4096x10_S512x10_1_0_0_1_n_n.rhsIdx (ix2 y j) ((contrEquiv1 dot_S512x4096_S4096x10_S512x10_1_0_0_1_n_n 4096 rfl rfl).symm k) = ix2 k j := funext fun ax => Fin.ext (by
    match ax with
    | ⟨0, _⟩ => exact (dot_S512x4096_S4096x10_S512x10_1_0_0_1_n_n.rhsIdx_val_of_single rfl (ix2 y j) _).trans hk
    | ⟨1, _⟩ => exact rhs_col _ _)
  rw [el, er]

/-- The log-softmax at row `y`, column `j` of a block of logits: the entry less the row's maximum, less the
    logarithm of the row's sum of exponentials of the entries less that maximum. -/
theorem softBlock_apply (l : FVec Ideal S512x10 .f32) (y : Fin 512) (j : Fin 10) :
    softBlock (F := Ideal) l (ix2 y j)
      = (l (ix2 y j) - (Finset.univ : Finset (Fin 10)).fold max Cert.Layer.negInf (fun j' => l (ix2 y j')))
        - Ideal.log (∑ j' : Fin 10, Ideal.exp (l (ix2 y j') - (Finset.univ : Finset (Fin 10)).fold max Cert.Layer.negInf (fun j'' => l (ix2 y j'')))) := by
  -- the reduced axis put back: the index (y, q) of the block
  have hlift : ∀ q : Fin 10, (reduces_S512x10_S512 : S512x10.Reduces [1] S512).lift (ix1 y) q = ix2 y q := fun q =>
    funext fun ax => Fin.ext (by match ax with | ⟨0, _⟩ => rfl | ⟨1, _⟩ => rfl)
  -- the row's maximum
  have hmax : (multiReduction .maximumf [1] S512 l 0xFF800000#32 reduces_S512x10_S512 (.inl rfl) rfl : FVec Ideal S512 .f32) (ix1 y)
      = (Finset.univ : Finset (Fin 10)).fold max Cert.Layer.negInf (fun j' => l (ix2 y j')) := by
    refine (Ideal.multiReduction_maximumf_single l 0xFF800000#32 reduces_S512x10_S512 (.inl rfl) rfl (ix1 y)).trans ?_
    exact congrArg (fun f => (Finset.univ : Finset (Fin 10)).fold max Cert.Layer.negInf f) (funext fun q => congrArg l (hlift q))
  -- an entry less its row's maximum
  have hshift : ∀ q : Fin 10, (subf l (broadcastTo S512x10 (shapeCast S512x1
        (multiReduction .maximumf [1] S512 l 0xFF800000#32 reduces_S512x10_S512 (.inl rfl) rfl) shapeCasts_S512_S512x1) broadcasts_S512x1_S512x10) : FVec Ideal S512x10 .f32) (ix2 y q)
      = l (ix2 y q) - (Finset.univ : Finset (Fin 10)).fold max Cert.Layer.negInf (fun j' => l (ix2 y j')) := fun q =>
    (congrArg (l (ix2 y q) - ·) ((broadcastTo_a1_ab_apply _ broadcasts_S512x1_S512x10 y q).trans
      ((shapeCast_a_a1_apply _ shapeCasts_S512_S512x1 y (0 : Fin 1)).trans hmax)))
  -- the logarithm of the row's sum of exponentials
  have hlog : (broadcastTo S512x10 (log (shapeCast S512x1 (multiReduction .add [1] S512
        (exp (subf l (broadcastTo S512x10 (shapeCast S512x1
          (multiReduction .maximumf [1] S512 l 0xFF800000#32 reduces_S512x10_S512 (.inl rfl) rfl) shapeCasts_S512_S512x1) broadcasts_S512x1_S512x10)))
        0x00000000#32 reduces_S512x10_S512 (.inl rfl) rfl) shapeCasts_S512_S512x1)) broadcasts_S512x1_S512x10 : FVec Ideal S512x10 .f32) (ix2 y j)
      = Ideal.log (∑ j' : Fin 10, Ideal.exp (l (ix2 y j') - (Finset.univ : Finset (Fin 10)).fold max Cert.Layer.negInf (fun j'' => l (ix2 y j'')))) := by
    refine (broadcastTo_a1_ab_apply _ broadcasts_S512x1_S512x10 y j).trans ?_
    show Ideal.log ((shapeCast S512x1 _ shapeCasts_S512_S512x1 : FVec Ideal S512x1 .f32) (ix2 y (0 : Fin 1))) = _
    refine congrArg Ideal.log ((shapeCast_a_a1_apply _ shapeCasts_S512_S512x1 y (0 : Fin 1)).trans ?_)
    refine (Ideal.multiReduction_add_single _ 0x00000000#32 reduces_S512x10_S512 (.inl rfl) rfl (ix1 y)).trans ?_
    refine Finset.sum_congr rfl fun q _ => ?_
    refine (congrArg _ (hlift q)).trans ?_
    show Ideal.exp _ = _
    exact congrArg Ideal.exp (hshift q)
  exact (congrArg₂ (· - ·) (hshift j) hlog)

/-- The log-softmax of one row of ten logits. -/
def rowSoft (L : Fin 10 → EReal) (j : Fin 10) : EReal :=
  (L j - (Finset.univ : Finset (Fin 10)).fold max Cert.Layer.negInf L)
    - Ideal.log (∑ j' : Fin 10, Ideal.exp (L j' - (Finset.univ : Finset (Fin 10)).fold max Cert.Layer.negInf L))

/-- The network's last stage is that row function of the row's logits. -/
theorem lastOut_eq (hin : (⟨2, ![16384, 4096]⟩ : Shape).Idx → EReal) (sc sh : (⟨2, ![1, 4096]⟩ : Shape).Idx → EReal)
    (wt : (⟨2, ![4096, 10]⟩ : Shape).Idx → EReal) (bb : (⟨2, ![1, 10]⟩ : Shape).Idx → EReal) (r : Fin 16384) (j : Fin 10) :
    Cert.Layer.lastOut hin sc sh wt bb r j = rowSoft (fun q => Cert.Layer.lastLogit hin sc sh wt bb r q) j := rfl

/-- The body's payload at row `y`, column `j` of the block: the log-softmax of the row's logits, each the sum over
    the 4096 columns of the normalised sign of the input entry times the weight, plus the bias. -/
theorem pay_apply (v0 : Vec Ideal S512x4096 .f32) (v2 v6 : Vec Ideal S1x4096 .f32) (v21 : Vec Ideal S4096x10 .bf16)
    (v24 : Vec Ideal S1x10 .f32) (y : Fin 512) (j : Fin 10) :
    k3_pay1 (F := Ideal) v0 v2 v6 v21 v24 (ix2 y j)
      = rowSoft (fun q => (∑ k : Fin 4096, Ideal.sign (v0 (ix2 y k) * v2 (ix2 0 k) + v6 (ix2 0 k)) * v21 (ix2 k q)) + v24 (ix2 0 q)) j := by
  rw [pay_stages, softBlock_apply]
  simp only [logitBlock_apply, signBlock_apply]
  rfl

end Cert.KernelIdeal.Last

end
-- ==== Proof.LastArray.lean ====
/-
  The last region's output array: row `r`, column `j` ends at the log-softmax of row `r`'s logits.

  The grid has 32 points; point `t` reads rows `512 t … 512 t + 511` of the input and writes the same rows of the
  output, and reads the scale, shift, weight and bias arrays whole. So what point `t` writes back is the restriction
  to its rows of one function of the arrays, and every row lies in the block of the point `r / 512`.
-/
import proofs.«105723_j39608188403810_2_alg».proof.Proof.Gen.KernelIdeal.Frame
import proofs.«105723_j39608188403810_2_alg».proof.Proof.LastPayload

set_option maxRecDepth 16384

noncomputable section

namespace Cert.KernelIdeal.Last

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices, decided once over the grid: the input and the output move with the point along the rows, the
    other four windows stay at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The five operand arrays as the region finds them. -/
abbrev aIn (c : Dev nD) : S16384x4096.Idx → EReal := V c (Pipeline.arrRef spec3 0)
abbrev aSc (c : Dev nD) : S1x4096.Idx → EReal := V c (Pipeline.arrRef spec3 1)
abbrev aSh (c : Dev nD) : S1x4096.Idx → EReal := V c (Pipeline.arrRef spec3 2)
abbrev aWt (c : Dev nD) : S4096x10.Idx → EReal := V c (Pipeline.arrRef spec3 3)
abbrev aBb (c : Dev nD) : S1x10.Idx → EReal := V c (Pipeline.arrRef spec3 4)

/-- The whole output array as one function of the operand arrays. -/
def G (c : Dev nD) : S16384x10.Idx → EReal := fun i =>
  Cert.Layer.lastOut (aIn V c) (aSc V c) (aSh V c) (aWt V c) (aBb V c) ⟨(i 0).val, (i 0).isLt⟩ ⟨(i 1).val, (i 1).isLt⟩

/-! ## What a point reads: its rows of the input, and the other four arrays whole -/

theorem read_in (c : Dev nD) (t : Fin cfg3.N) (y : Fin 512) (k : Fin 4096) :
    iblk3 V c 0 t (ix2 y k) = aIn V c (ix2 ⟨t.val * 512 + y.val, by have := t.isLt; have hN : cfg3.N = 32 := N_3; have := y.isLt; omega⟩ k) := by
  obtain ⟨e0, e1, -⟩ := idx_facts t
  unfold iblk3
  rw [View.read_apply]
  refine congrArg (aIn V c) (funext fun a => Fin.ext ?_)
  match a with
  | ⟨0, _⟩ => show win3_0.index t (0 : Fin 2) * 512 + 1 * y.val = t.val * 512 + y.val; rw [e0]; omega
  | ⟨1, _⟩ => show win3_0.index t (1 : Fin 2) * 4096 + 1 * k.val = k.val; rw [e1]; omega

theorem read_sc (c : Dev nD) (t : Fin cfg3.N) (u : Fin 1) (k : Fin 4096) :
    iblk3 V c 1 t (ix2 u k) = aSc V c (ix2 u k) := by
  obtain ⟨-, -, e2, e3, -⟩ := idx_facts t
  unfold iblk3
  rw [View.read_apply]
  refine congrArg (aSc V c) (funext fun a => Fin.ext ?_)
  match a with
  | ⟨0, _⟩ => show win3_1.index t (0 : Fin 2) * 1 + 1 * u.val = u.val; rw [e2]; omega
  | ⟨1, _⟩ => show win3_1.index t (1 : Fin 2) * 4096 + 1 * k.val = k.val; rw [e3]; omega

theorem read_sh (c : Dev nD) (t : Fin cfg3.N) (u : Fin 1) (k : Fin 4096) :
    iblk3 V c 2 t (ix2 u k) = aSh V c (ix2 u k) := by
  obtain ⟨-, -, -, -, e4, e5, -⟩ := idx_facts t
  unfold iblk3
  rw [View.read_apply]
  refine congrArg (aSh V c) (funext fun a => Fin.ext ?_)
  match a with
  | ⟨0, _⟩ => show win3_2.index t (0 : Fin 2) * 1 + 1 * u.val = u.val; rw [e4]; omega
  | ⟨1, _⟩ => show win3_2.index t (1 : Fin 2) * 4096 + 1 * k.val = k.val; rw [e5]; omega

theorem read_wt (c : Dev nD) (t : Fin cfg3.N) (k : Fin 4096) (q : Fin 10) :
    iblk3 V c 3 t (ix2 k q) = aWt V c (ix2 k q) := by
  obtain ⟨-, -, -, -, -, -, e6, e7, -⟩ := idx_facts t
  unfold iblk3
  rw [View.read_apply]
  refine congrArg (aWt V c) (funext fun a => Fin.ext ?_)
  match a with
  | ⟨0, _⟩ => show win3_3.index t (0 : Fin 2) * 4096 + 1 * k.val = k.val; rw [e6]; omega
  | ⟨1, _⟩ => show win3_3.index t (1 : Fin 2) * 10 + 1 * q.val = q.val; rw [e7]; omega

theorem read_bb (c : Dev nD) (t : Fin cfg3.N) (u : Fin 1) (q : Fin 10) :
    iblk3 V c 4 t (ix2 u q) = aBb V c (ix2 u q) := by
  obtain ⟨-, -, -, -, -, -, -, -, e8, e9, -⟩ := idx_facts t
  unfold iblk3
  rw [View.read_apply]
  refine congrArg (aBb V c) (funext fun a => Fin.ext ?_)
  match a with
  | ⟨0, _⟩ => show win3_4.index t (0 : Fin 2) * 1 + 1 * u.val = u.val; rw [e8]; omega
  | ⟨1, _⟩ => show win3_4.index t (1 : Fin 2) * 10 + 1 * q.val = q.val; rw [e9]; omega

/-! ## What a point writes back is its rows of `G` -/

theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S512x4096) hz, View.ld_unit_zero (S := S1x4096) hz, View.ld_unit_zero (S := S4096x10) hz,
    View.ld_unit_zero (S := S1x10) hz]
  obtain ⟨-, -, -, -, -, -, -, -, -, -, e10, e11⟩ := idx_facts t
  funext i
  obtain ⟨y, q, rfl⟩ : ∃ (y : Fin 512) (q : Fin 10), i = ix2 y q := ⟨i 0, i 1, eq_ix2 i⟩
  show k3_pay1 (iblk3 V c 0 t) (iblk3 V c 1 t) (iblk3 V c 2 t) (iblk3 V c 3 t) (iblk3 V c 4 t) (ix2 y q)
    = G V c (((cfg3.win 5).blk t).view.emb (ix2 y q))
  refine (pay_apply _ _ _ _ _ y q).trans ?_
  have hG : G V c (((cfg3.win 5).blk t).view.emb (ix2 y q))
      = Cert.Layer.lastOut (aIn V c) (aSc V c) (aSh V c) (aWt V c) (aBb V c) ⟨t.val * 512 + y.val, by have := t.isLt; have hN : cfg3.N = 32 := N_3; have := y.isLt; omega⟩ q := by
    unfold G
    refine congrArg₂ (Cert.Layer.lastOut (aIn V c) (aSc V c) (aSh V c) (aWt V c) (aBb V c)) (Fin.ext ?_) (Fin.ext ?_)
    · show win3_5.index t (0 : Fin 2) * 512 + 1 * y.val = t.val * 512 + y.val; rw [e10]; omega
    · show win3_5.index t (1 : Fin 2) * 10 + 1 * q.val = q.val; rw [e11]; omega
  rw [hG, lastOut_eq]
  refine congrArg (fun L => rowSoft L q) (funext fun q' => ?_)
  simp only [read_in V c t, read_sc V c t, read_sh V c t, read_wt V c t, read_bb V c t]
  rfl

/-! ## Every row lies in the block of the point `r / 512` -/

theorem mem_blk (t : Fin cfg3.N) (i : S16384x10.Idx) :
    i ∈ ((cfg3.win 5).blk t).view.set ↔ ∀ a : Fin 2, win3_5.index t a * S512x10.size a ≤ (i a).val
      ∧ (i a).val < win3_5.index t a * S512x10.size a + S512x10.size a := by
  show i ∈ ((View.whole main_v80).slice (win3_5.rect t)).set ↔ _
  rw [View.set_slice_whole, Rect.mem_set_unit]
  exact Iff.rfl

/-- The output array after the region is `G` of the operand arrays. -/
theorem final (c : Dev nD) : (dat3 V c).arrAt 5 cfg3.N = G V c :=
  (dat3 V c).arrAt_eq_of_cover 5 (G V c) (fun t _ => flushed_eq V c t) fun i => by
    have hN : cfg3.N = 32 := N_3
    have hi0 : (i 0).val < 16384 := (i 0).isLt
    have hi1 : (i 1).val < 10 := (i 1).isLt
    have hlt : (i 0).val / 512 < cfg3.N := by rw [hN]; omega
    obtain ⟨-, -, -, -, -, -, -, -, -, -, e10, e11⟩ := idx_facts ⟨(i 0).val / 512, hlt⟩
    refine ⟨⟨(i 0).val / 512, hlt⟩, flush3_5 _, ?_⟩
    rw [mem_blk]
    intro a
    match a with
    | ⟨0, _⟩ =>
      show win3_5.index ⟨(i 0).val / 512, hlt⟩ (0 : Fin 2) * 512 ≤ (i 0).val
        ∧ (i 0).val < win3_5.index ⟨(i 0).val / 512, hlt⟩ (0 : Fin 2) * 512 + 512
      rw [e10]; dsimp only; omega
    | ⟨1, _⟩ =>
      show win3_5.index ⟨(i 0).val / 512, hlt⟩ (1 : Fin 2) * 10 ≤ (i 1).val
        ∧ (i 1).val < win3_5.index ⟨(i 0).val / 512, hlt⟩ (1 : Fin 2) * 10 + 10
      rw [e11]; omega

/-- Row `r`, column `j` of the output array after the region. -/
theorem out_array (c : Dev nD) (r : Fin 16384) (j : Fin 10) :
    (dat3 V c).arrAt 5 cfg3.N (ix2 r j)
      = Cert.Layer.lastOut (aIn V c) (aSc V c) (aSh V c) (aWt V c) (aBb V c) r j := by
  rw [final]
  rfl

end Cert.KernelIdeal.Last

end
-- ==== Proof.ChainLast.lean ====
/-
  The last region's step: if, when the last region is entered, its input array holds the third layer's rectified
  output, its scale and shift arrays hold that layer's scale and shift, and its weight and bias arrays hold the signs
  of the output weights (transposed) and the output bias, then the result array ends at the whole network in the
  affine arrangement: the sign of `p3 · scale + shift` is the third layer's normalised sign, the product with the
  signed weights plus the bias is the output layer, and the region ends in the log-softmax of each row.
-/
import proofs.«105723_j39608188403810_2_alg».proof.Proof.ChainDefs
import proofs.«105723_j39608188403810_2_alg».proof.Proof.LastArray

noncomputable section

namespace Cert.KernelIdeal.Chain

open Cert.KernelIdeal Cert.KernelIdeal.Gen
open Idealize.ShloMosaic Idealize.ShloMosaic.ValueIdx Idealize.ShloMosaic.TcCoe Idealize.SL.Sem
open Cert.Layer

variable (m : (ℓ : Loc nD τ sig) → Buf (Elt Ideal) ℓ) (ρ : Dev nD → PrngReg)

/-- The logits the last region forms from those arrays are the output layer over the third layer's normalised sign. -/
theorem lastLogit_eq (c : Dev nD)
    (hin : (⟨2, ![16384, 4096]⟩ : Shape).Idx → EReal) (sc sh : (⟨2, ![1, 4096]⟩ : Shape).Idx → EReal)
    (wt : (⟨2, ![4096, 10]⟩ : Shape).Idx → EReal) (bb : (⟨2, ![1, 10]⟩ : Shape).Idx → EReal)
    (h_in : ∀ (r : Fin 16384) (k : Fin 4096), hin (ix2 r k) = p3 m c r k)
    (h_sc : ∀ k : Fin 4096, sc (ix2 0 k) = scale (p3 m c) (args m c).g3 k)
    (h_sh : ∀ k : Fin 4096, sh (ix2 0 k) = shift (p3 m c) (args m c).g3 (args m c).be3 k)
    (h_wt : ∀ (k : Fin 4096) (q : Fin 10), wt (ix2 k q) = Ideal.sign ((args m c).w4 q k))
    (h_bb : ∀ q : Fin 10, bb (ix2 0 q) = (args m c).b4 q) :
    lastLogit hin sc sh wt bb = lin (a3 m c) (args m c).w4 (args m c).b4 := by
  funext r q
  unfold lastLogit lin
  rw [h_bb q]
  refine congrArg (· + (args m c).b4 q) (Finset.sum_congr rfl fun k _ => ?_)
  unfold signAffine
  rw [h_in r k, h_sc k, h_sh k, h_wt k q]
  rfl

/-- The result array after the last region. -/
theorem last (c : Dev nD)
    (h_in : ∀ (r : Fin 16384) (k : Fin 4096), @Eq EReal (W7 m ρ c main_v59_0 (ix2 r k)) (p3 m c r k))
    (h_sc : ∀ k : Fin 4096, @Eq EReal (W7 m ρ c main_v76 (ix2 0 k)) (scale (p3 m c) (args m c).g3 k))
    (h_sh : ∀ k : Fin 4096, @Eq EReal (W7 m ρ c main_v79 (ix2 0 k)) (shift (p3 m c) (args m c).g3 (args m c).be3 k))
    (h_wt : ∀ (k : Fin 4096) (q : Fin 10), @Eq EReal (W7 m ρ c main_v11 (ix2 k q)) (Ideal.sign ((args m c).w4 q k)))
    (h_bb : ∀ q : Fin 10, @Eq EReal (W7 m ρ c main_v16 (ix2 0 q)) ((args m c).b4 q))
    (r : Fin 16384) (j : Fin 10) :
    @Eq EReal (W8 m ρ c main_v80 (ix2 r j)) (netAffine (args m c) r j) := by
  have hW : W8 m ρ c (Proc.devRef .tc main_v80) = (dat3 (V7 m ρ) c).arrAt 5 cfg3.N := W8_arr m ρ c 5
  have h1 := congrFun hW (ix2 r j)
  refine h1.trans ?_
  refine (Last.out_array (V7 m ρ) c r j).trans ?_
  unfold lastOut
  rw [lastLogit_eq m c _ _ _ _ _ h_in h_sc h_sh h_wt h_bb, netAffine_eq]

end Cert.KernelIdeal.Chain

end
-- ==== Proof.Walk.lean ====
/-
  Buffers that are written once and read later. A region's output array is not touched by the host operations that
  follow the region; the transposed signed weights and the reshaped biases are written by the first stretch of host
  operations and touched by nothing afterwards, so wherever a later region reads them they still hold the signs of the
  weight arguments and the bias arguments.
-/
import proofs.«105723_j39608188403810_2_alg».proof.Proof.ChainDefs
import proofs.«105723_j39608188403810_2_alg».proof.Proof.HostKeep
import proofs.«105723_j39608188403810_2_alg».proof.Proof.HostPrep

noncomputable section

namespace Cert.KernelIdeal.Chain

open Cert.KernelIdeal Cert.KernelIdeal.Gen
open Idealize.ShloMosaic Idealize.ShloMosaic.ValueIdx Idealize.ShloMosaic.TcCoe Idealize.SL.Sem
open Cert.Layer

variable (m : (ℓ : Loc nD τ sig) → Buf (Elt Ideal) ℓ) (ρ : Dev nD → PrngReg)

/-! ## A region's output survives the stretch that follows -/

theorem out0_at3 (c : Dev nD) : W3 m ρ c main_v17_0 = W2 m ρ c main_v17_0 := Host.keep1 (W2 m ρ c) main_v17_0 (by decide)
theorem out1_at5 (c : Dev nD) : W5 m ρ c main_v38_0 = W4 m ρ c main_v38_0 := Host.keep2 (W4 m ρ c) main_v38_0 (by decide)
theorem out2_at7 (c : Dev nD) : W7 m ρ c main_v59_0 = W6 m ρ c main_v59_0 := Host.keep3 (W6 m ρ c) main_v59_0 (by decide)

/-! ## What the first stretch prepared is still there when it is read -/

theorem w2_at3 (c : Dev nD) : W3 m ρ c main_v5 = W1 m ρ c main_v5 :=
  (Host.keep1 (W2 m ρ c) main_v5 (by decide)).trans (W2_of_ne m ρ c main_v5 (by decide))
theorem b2_at3 (c : Dev nD) : W3 m ρ c main_v14 = W1 m ρ c main_v14 :=
  (Host.keep1 (W2 m ρ c) main_v14 (by decide)).trans (W2_of_ne m ρ c main_v14 (by decide))

theorem w3_at5 (c : Dev nD) : W5 m ρ c main_v8 = W1 m ρ c main_v8 :=
  (Host.keep2 (W4 m ρ c) main_v8 (by decide)).trans ((W4_of_ne m ρ c main_v8 (by decide)).trans
    ((Host.keep1 (W2 m ρ c) main_v8 (by decide)).trans (W2_of_ne m ρ c main_v8 (by decide))))
theorem b3_at5 (c : Dev nD) : W5 m ρ c main_v15 = W1 m ρ c main_v15 :=
  (Host.keep2 (W4 m ρ c) main_v15 (by decide)).trans ((W4_of_ne m ρ c main_v15 (by decide)).trans
    ((Host.keep1 (W2 m ρ c) main_v15 (by decide)).trans (W2_of_ne m ρ c main_v15 (by decide))))

theorem w4_at7 (c : Dev nD) : W7 m ρ c main_v11 = W1 m ρ c main_v11 :=
  (Host.keep3 (W6 m ρ c) main_v11 (by decide)).trans ((W6_of_ne m ρ c main_v11 (by decide)).trans
    ((Host.keep2 (W4 m ρ c) main_v11 (by decide)).trans ((W4_of_ne m ρ c main_v11 (by decide)).trans
      ((Host.keep1 (W2 m ρ c) main_v11 (by decide)).trans (W2_of_ne m ρ c main_v11 (by decide))))))
theorem b4_at7 (c : Dev nD) : W7 m ρ c main_v16 = W1 m ρ c main_v16 :=
  (Host.keep3 (W6 m ρ c) main_v16 (by decide)).trans ((W6_of_ne m ρ c main_v16 (by decide)).trans
    ((Host.keep2 (W4 m ρ c) main_v16 (by decide)).trans ((W4_of_ne m ρ c main_v16 (by decide)).trans
      ((Host.keep1 (W2 m ρ c) main_v16 (by decide)).trans (W2_of_ne m ρ c main_v16 (by decide))))))

/-! ## Read at an entry: the signs of the weight arguments, transposed, and the bias arguments -/

theorem wt_hidden1 (c : Dev nD) (k j : Fin 4096) :
    @Eq EReal (W3 m ρ c main_v5 (ix2 k j)) (Ideal.sign ((args m c).w2 j k)) :=
  (congrFun (w2_at3 m ρ c) (ix2 k j)).trans (Host.prep_w2 (W0 m ρ c) k j)
theorem bb_hidden1 (c : Dev nD) (j : Fin 4096) :
    @Eq EReal (W3 m ρ c main_v14 (ix2 0 j)) ((args m c).b2 j) :=
  (congrFun (b2_at3 m ρ c) (ix2 0 j)).trans (Host.prep_b2 (W0 m ρ c) j)

theorem wt_hidden2 (c : Dev nD) (k j : Fin 4096) :
    @Eq EReal (W5 m ρ c main_v8 (ix2 k j)) (Ideal.sign ((args m c).w3 j k)) :=
  (congrFun (w3_at5 m ρ c) (ix2 k j)).trans (Host.prep_w3 (W0 m ρ c) k j)
theorem bb_hidden2 (c : Dev nD) (j : Fin 4096) :
    @Eq EReal (W5 m ρ c main_v15 (ix2 0 j)) ((args m c).b3 j) :=
  (congrFun (b3_at5 m ρ c) (ix2 0 j)).trans (Host.prep_b3 (W0 m ρ c) j)

theorem wt_last (c : Dev nD) (k : Fin 4096) (q : Fin 10) :
    @Eq EReal (W7 m ρ c main_v11 (ix2 k q)) (Ideal.sign ((args m c).w4 q k)) :=
  (congrFun (w4_at7 m ρ c) (ix2 k q)).trans (Host.prep_w4 (W0 m ρ c) k q)
theorem bb_last (c : Dev nD) (q : Fin 10) :
    @Eq EReal (W7 m ρ c main_v16 (ix2 0 q)) ((args m c).b4 q) :=
  (congrFun (b4_at7 m ρ c) (ix2 0 q)).trans (Host.prep_b4 (W0 m ρ c) q)

end Cert.KernelIdeal.Chain

end
-- ==== Proof.ChainAll.lean ====
/-
  The idealized kernel program's result, entry by entry: the whole network in the affine arrangement.

  The buffer contents are followed from the launch to the return. The first region leaves the first layer's rectified
  output and its half-batch column sums; the host operations turn the sums into that layer's scale and shift; each
  hidden region applies them with the sign and leaves the next layer's output and sums; and the last region applies
  the third layer's scale and shift, the output layer and the log-softmax.
-/
import proofs.«105723_j39608188403810_2_alg».proof.Proof.Chain0
import proofs.«105723_j39608188403810_2_alg».proof.Proof.ChainNorm
import proofs.«105723_j39608188403810_2_alg».proof.Proof.ChainHidden1
import proofs.«105723_j39608188403810_2_alg».proof.Proof.ChainHidden2
import proofs.«105723_j39608188403810_2_alg».proof.Proof.ChainLast
import proofs.«105723_j39608188403810_2_alg».proof.Proof.Walk

noncomputable section

namespace Cert.KernelIdeal.Chain

open Cert.KernelIdeal Cert.KernelIdeal.Gen
open Idealize.ShloMosaic Idealize.ShloMosaic.ValueIdx Idealize.ShloMosaic.TcCoe Idealize.SL.Sem
open Cert.Layer

variable (m : (ℓ : Loc nD τ sig) → Buf (Elt Ideal) ℓ) (ρ : Dev nD → PrngReg)

/-- Row `r`, column `j` of the result array after the run. -/
theorem kernel_value (c : Dev nD) (r : Fin 16384) (j : Fin 10) :
    @Eq EReal (W8 m ρ c main_v80 (ix2 r j)) (netAffine (args m c) r j) := by
  -- the first layer: its output and column sums, then its scale and shift
  have n1 := norm1 m ρ c (sum0 m ρ c) (sq0 m ρ c)
  have hin1 : ∀ (r : Fin 16384) (k : Fin 4096), @Eq EReal (W3 m ρ c main_v17_0 (ix2 r k)) (p1 m c r k) := fun r k =>
    (congrFun (out0_at3 m ρ c) (ix2 r k)).trans (out0 m ρ c r k)
  obtain ⟨o1, s1, q1⟩ := hidden1 m ρ c hin1 (fun k => (n1 k).1) (fun k => (n1 k).2) (wt_hidden1 m ρ c) (bb_hidden1 m ρ c)
  -- the second layer
  have n2 := norm2 m ρ c s1 q1
  have hin2 : ∀ (r : Fin 16384) (k : Fin 4096), @Eq EReal (W5 m ρ c main_v38_0 (ix2 r k)) (p2 m c r k) := fun r k =>
    (congrFun (out1_at5 m ρ c) (ix2 r k)).trans (o1 r k)
  obtain ⟨o2, s2, q2⟩ := hidden2 m ρ c hin2 (fun k => (n2 k).1) (fun k => (n2 k).2) (wt_hidden2 m ρ c) (bb_hidden2 m ρ c)
  -- the third layer, the output layer and the log-softmax
  have n3 := norm3 m ρ c s2 q2
  have hin3 : ∀ (r : Fin 16384) (k : Fin 4096), @Eq EReal (W7 m ρ c main_v59_0 (ix2 r k)) (p3 m c r k) := fun r k =>
    (congrFun (out2_at7 m ρ c) (ix2 r k)).trans (o2 r k)
  exact last m ρ c hin3 (fun k => (n3 k).1) (fun k => (n3 k).2) (wt_last m ρ c) (bb_last m ρ c) r j

end Cert.KernelIdeal.Chain

end
-- ==== Proof.Consts.lean ====
/-
  The two float constants the normalisation uses, as the extended reals their bit patterns denote:
  the row count 16384 = 2^14 and the ε of the variance, 13743895 · 2^(-37) (the float nearest 10^(-4)).
  Both are evaluated once here, so that no other module unfolds the decoding of a bit pattern.
-/
import Idealize.ShloMosaic.PureOps.Ideal

noncomputable section

namespace Cert.Consts

open Idealize.ShloMosaic

/-- The pattern 0x46800000 has exponent field 141 and zero fraction: 2^23 · 2^(141 − 127 − 23) = 2^14 = 16384. -/
theorem rows_eq : Ideal.ofBits .f32 0x46800000#32 = ((16384 : ℝ) : EReal) := by
  simp [Ideal.ofBits, Ideal.ieee, -EReal.coe_mul]; norm_num

/-- The pattern 0x38D1B717 has exponent field 113 and fraction 5355287:
    (2^23 + 5355287) · 2^(113 − 127 − 23) = 13743895 · 2^(-37). -/
theorem eps_eq : Ideal.ofBits .f32 0x38D1B717#32 = (((13743895 : ℝ) / 137438953472 : ℝ) : EReal) := by
  simp [Ideal.ofBits, Ideal.ieee, -EReal.coe_mul]; norm_num

/-- ε is a positive real. -/
theorem eps_pos : ∃ e : ℝ, 0 < e ∧ Ideal.ofBits .f32 0x38D1B717#32 = (e : EReal) :=
  ⟨(13743895 : ℝ) / 137438953472, by norm_num, eps_eq⟩

/-- The pattern 0x7F800000 has all exponent bits set and zero fraction: plus infinity. -/
theorem inf_eq : Ideal.ofBits .f32 0x7F800000#32 = (⊤ : EReal) := by
  simp [Ideal.ofBits, Ideal.ieee]

/-- The row count is a nonzero real. -/
theorem rows_ne_zero : (16384 : ℝ) ≠ 0 := by norm_num

end Cert.Consts

end
-- ==== Proof.LayerLaw.lean ====
/-
  The two arrangements of the batch normalisation agree wherever every entry is a real number.

  Write n = 16384 for the number of rows. For a real column P with mean m = (∑ P) / n,
      (∑ (P r − m)²) / n = (∑ P r²) / n − m²,
  so the two variances are the same real number v, and v ≥ 0 because it is a mean of squares. With ε > 0 the
  reciprocal square root of v + ε is the positive real s = 1 / √(v + ε), and
      (P r − m) · s · g + be = P r · (g · s) + (be − m · (g · s))
  is an identity of the field ℝ. On the extended reals the distributive law fails at the infinities, which is why each
  quantity is first shown to be (the image of) a real number, and only then compared inside ℝ.
  A sign is −1, 0 or 1, so each layer's output is finite whatever its input; only the network's own arguments need
  the hypothesis.
-/
import proofs.«105723_j39608188403810_2_alg».proof.Proof.Layer
import proofs.«105723_j39608188403810_2_alg».proof.Proof.Consts

noncomputable section

namespace Cert.Layer

open Idealize.ShloMosaic

/-! ### Finite extended reals -/

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is a real. -/
theorem exists_real {a : EReal} (h : a ≠ ⊥ ∧ a ≠ ⊤) : ∃ x : ℝ, a = (x : EReal) :=
  ⟨a.toReal, (EReal.coe_toReal h.2 h.1).symm⟩

theorem coe_finite (x : ℝ) : (x : EReal) ≠ ⊥ ∧ (x : EReal) ≠ ⊤ := ⟨EReal.coe_ne_bot x, EReal.coe_ne_top x⟩

/-- A sign is −1, 0 or 1: never an infinity. -/
theorem sign_finite (a : EReal) : Ideal.sign a ≠ ⊥ ∧ Ideal.sign a ≠ ⊤ := by
  induction a using EReal.rec with
  | bot => rw [Ideal.sign_bot]; exact coe_finite (-1)
  | top => rw [Ideal.sign_top]; exact coe_finite 1
  | coe r => rw [Ideal.sign_coe]; exact coe_finite _

theorem rows_eq : rows = ((16384 : ℝ) : EReal) := Cert.Consts.rows_eq

/-- Division by the row count, on a real. -/
theorem div_rows (x : ℝ) : Ideal.div (x : EReal) rows = ((x / 16384 : ℝ) : EReal) := by
  rw [rows_eq, Ideal.div_coe (by norm_num), ← EReal.coe_mul]
  congr 1
  ring

/-- The reciprocal square root of a positive real. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-! ### A layer's product is finite -/

theorem pre_finite {K N : ℕ} (a : Fin 16384 → Fin K → EReal) (w : Fin N → Fin K → EReal) (b : Fin N → EReal)
    (ha : ∀ r k, a r k ≠ ⊥ ∧ a r k ≠ ⊤) (hb : ∀ j, b j ≠ ⊥ ∧ b j ≠ ⊤) (r : Fin 16384) (j : Fin N) :
    pre a w b r j ≠ ⊥ ∧ pre a w b r j ≠ ⊤ := by
  have hterm : ∀ k, ∃ x : ℝ, a r k * Ideal.sign (w j k) = (x : EReal) := fun k => by
    obtain ⟨x, hx⟩ := exists_real (ha r k)
    obtain ⟨y, hy⟩ := exists_real (sign_finite (w j k))
    exact ⟨x * y, by rw [hx, hy, EReal.coe_mul]⟩
  choose t ht using hterm
  obtain ⟨c, hc⟩ := exists_real (hb j)
  have hlin : lin a w b r j = (((∑ k : Fin K, t k) + c : ℝ) : EReal) := by
    unfold lin
    rw [EReal.coe_add, coe_sum, hc]
    congr 1
    exact Finset.sum_congr rfl fun k _ => ht k
  have hpre : pre a w b r j = ((max ((∑ k : Fin K, t k) + c) 0 : ℝ) : EReal) := by
    unfold pre
    rw [hlin]
    exact (EReal.coe_strictMono.monotone.map_max (a := (∑ k : Fin K, t k) + c) (b := 0)).symm
  rw [hpre]
  exact coe_finite _

/-! ### The statistics of a real column -/

variable {N : ℕ}

/-- The mean of a real column. -/
def meanR (P : Fin 16384 → Fin N → ℝ) (j : Fin N) : ℝ := (∑ r : Fin 16384, P r j) / 16384

/-- The variance of a real column, as the mean of the squared deviations. -/
def varR (P : Fin 16384 → Fin N → ℝ) (j : Fin N) : ℝ :=
  (∑ r : Fin 16384, (P r j - meanR P j) * (P r j - meanR P j)) / 16384

theorem varR_nonneg (P : Fin 16384 → Fin N → ℝ) (j : Fin N) : 0 ≤ varR P j :=
  div_nonneg (Finset.sum_nonneg fun r _ => mul_self_nonneg _) (by norm_num)

/-- The mean of the squared deviations is the mean of the squares minus the squared mean. -/
theorem varR_eq_moment (P : Fin 16384 → Fin N → ℝ) (j : Fin N) :
    varR P j = (∑ r : Fin 16384, P r j * P r j) / 16384 - meanR P j * meanR P j := by
  have hS : (∑ r : Fin 16384, P r j) = 16384 * meanR P j := by
    unfold meanR
    field_simp
  have hexp : (∑ r : Fin 16384, (P r j - meanR P j) * (P r j - meanR P j))
      = (∑ r : Fin 16384, P r j * P r j) - 2 * meanR P j * (∑ r : Fin 16384, P r j)
        + 16384 * (meanR P j * meanR P j) := by
    have : ∀ r : Fin 16384, (P r j - meanR P j) * (P r j - meanR P j)
        = P r j * P r j - 2 * meanR P j * P r j + meanR P j * meanR P j := fun r => by ring
    rw [Finset.sum_congr rfl fun r _ => this r, Finset.sum_add_distrib, Finset.sum_sub_distrib, ← Finset.mul_sum,
      Finset.sum_const, Finset.card_univ, Fintype.card_fin, nsmul_eq_mul]
    norm_num
  unfold varR
  rw [hexp, hS]
  field_simp
  ring

/-! ### The statistics of a finite column are those of the real column -/

section
variable (p : Fin 16384 → Fin N → EReal) (P : Fin 16384 → Fin N → ℝ) (hP : ∀ r j, p r j = (P r j : EReal))
include hP

theorem mean_coe (j : Fin N) : mean p j = (meanR P j : EReal) := by
  unfold mean colSum meanR
  simp only [hP]
  rw [← coe_sum, div_rows]

theorem varCentred_coe (j : Fin N) : varCentred p j = (varR P j : EReal) := by
  unfold varCentred varR
  rw [mean_coe p P hP j]
  simp only [hP, ← EReal.coe_sub, ← EReal.coe_mul]
  rw [← coe_sum, div_rows]

theorem varMoment_coe (j : Fin N) : varMoment p j = (varR P j : EReal) := by
  unfold varMoment colSq
  rw [mean_coe p P hP j, varR_eq_moment]
  simp only [hP, ← EReal.coe_mul]
  rw [← coe_sum, div_rows, ← EReal.coe_sub]

end

/-! ### The two normalisations agree -/

theorem actAffine_eq_actCentred {N : ℕ} (p : Fin 16384 → Fin N → EReal) (g be : Fin N → EReal)
    (hp : ∀ r j, p r j ≠ ⊥ ∧ p r j ≠ ⊤) (hg : ∀ j, g j ≠ ⊥ ∧ g j ≠ ⊤) (hbe : ∀ j, be j ≠ ⊥ ∧ be j ≠ ⊤) :
    actAffine p g be = actCentred p g be := by
  choose P hP using fun r j => exists_real (hp r j)
  choose G hG using fun j => exists_real (hg j)
  choose B hB using fun j => exists_real (hbe j)
  obtain ⟨e, he, heps⟩ := Cert.Consts.eps_pos
  have heps' : eps = (e : EReal) := heps
  funext r j
  have hv : 0 < varR P j + e := add_pos_of_nonneg_of_pos (varR_nonneg P j) he
  unfold actAffine actCentred shift scale
  rw [varMoment_coe p P hP j, varCentred_coe p P hP j, mean_coe p P hP j, heps', hP r j, hG j, hB j,
    ← EReal.coe_add, rsqrt_pos hv]
  simp only [← EReal.coe_mul, ← EReal.coe_sub, ← EReal.coe_add]
  congr 2
  ring

/-- The normalised sign is finite whatever it is applied to. -/
theorem actAffine_finite {N : ℕ} (p : Fin 16384 → Fin N → EReal) (g be : Fin N → EReal) (r : Fin 16384) (j : Fin N) :
    actAffine p g be r j ≠ ⊥ ∧ actAffine p g be r j ≠ ⊤ := sign_finite _

theorem netAffine_eq_netCentred (A : Args) (hA : A.Finite) : netAffine A = netCentred A := by
  unfold netAffine netCentred net
  have h1 : actAffine (pre A.x A.w1 A.b1) A.g1 A.be1 = actCentred (pre A.x A.w1 A.b1) A.g1 A.be1 :=
    actAffine_eq_actCentred _ _ _ (fun r j => pre_finite _ _ _ hA.x hA.b1 r j) hA.g1 hA.be1
  rw [← h1]
  have h2 : actAffine (pre (actAffine (pre A.x A.w1 A.b1) A.g1 A.be1) A.w2 A.b2) A.g2 A.be2
      = actCentred (pre (actAffine (pre A.x A.w1 A.b1) A.g1 A.be1) A.w2 A.b2) A.g2 A.be2 :=
    actAffine_eq_actCentred _ _ _ (fun r j => pre_finite _ _ _ (fun r k => actAffine_finite _ _ _ r k) hA.b2 r j)
      hA.g2 hA.be2
  rw [← h2]
  have h3 : actAffine (pre (actAffine (pre (actAffine (pre A.x A.w1 A.b1) A.g1 A.be1) A.w2 A.b2) A.g2 A.be2) A.w3 A.b3)
        A.g3 A.be3
      = actCentred (pre (actAffine (pre (actAffine (pre A.x A.w1 A.b1) A.g1 A.be1) A.w2 A.b2) A.g2 A.be2) A.w3 A.b3)
        A.g3 A.be3 :=
    actAffine_eq_actCentred _ _ _ (fun r j => pre_finite _ _ _ (fun r k => actAffine_finite _ _ _ r k) hA.b3 r j)
      hA.g3 hA.be3
  rw [← h3]

end Cert.Layer

end
-- ==== Proof.FiniteArgs.lean ====
/-
  From the precondition to "every argument the normalisation depends on is a real number".

  The precondition is a conjunction, one conjunct per argument array: every entry x of the array satisfies
  |x| < +∞, where |x| = max x (−x). On the extended reals that says exactly that x is neither infinity: at +∞ the
  maximum is +∞, and at −∞ it is −(−∞) = +∞ again. The conjunction is a left-nested chain of fifteen "and"s of
  one-bit words, each conjunct an "and" over all entries of an array of comparisons; being 1 it makes every conjunct 1,
  and every entry of every comparison 1.
-/
import proofs.«105723_j39608188403810_2_alg».proof.Pre_finite_inputs
import proofs.«105723_j39608188403810_2_alg».proof.Proof.Gen.Pre_finite_inputs
import proofs.«105723_j39608188403810_2_alg».proof.Proof.Layer
import proofs.«105723_j39608188403810_2_alg».proof.Proof.Consts
import Idealize.ShloMosaic.Lib.ReduceAll
import Idealize.ShloMosaic.Lib.ValueIdx
import Idealize.ShloMosaic.Lib.IdealHost

noncomputable section

namespace Cert.FiniteArgs

open Idealize.ShloMosaic Idealize.ShloMosaic.ValueIdx Cert.Pre_finite_inputs

/-- The rank-0 shape has one index. -/
instance : Subsingleton S_.Idx := ⟨fun a b => funext fun d => d.elim0⟩

/-- |x| < +∞ holds of no infinity. -/
theorem finite_of_abs_lt (x : EReal) (h : Ideal.cmp .olt (max x (-x)) ⊤ = 1#1) : x ≠ ⊥ ∧ x ≠ ⊤ := by
  induction x using EReal.rec with
  | bot => simp [Ideal.cmp] at h
  | top => simp [Ideal.cmp] at h
  | coe r => exact ⟨EReal.coe_ne_bot r, EReal.coe_ne_top r⟩

/-- One conjunct: if the "and" over all entries of |a| < +∞ is 1, every entry of a is a real. -/
theorem finite_of_all {S : Shape} {axes : List (Fin S.rank)} (a : FVec Ideal S .f32)
    (hb : S_.BroadcastsInDim S ![]) (hr : S.ReducesTo axes S_) (hu : 0 < S_.numel)
    (h : Host.reduce IntOp.andi
          (cmpf .olt (Host.absf a) (broadcastInDim S ![] hb (constant S_ .f32 0x7F800000#32)))
          (constantI S_ 1 1#1) hr hu ix0 = 1#1) (i : S.Idx) : a i ≠ ⊥ ∧ a i ≠ ⊤ := by
  have hi := Host.reduce_andi_all _ _ hr hu ix0 h i
  rw [cmpf_apply, broadcastInDim_scalar_apply, constant_apply, Cert.Consts.inf_eq] at hi
  exact finite_of_abs_lt (a i) hi

/-- The precondition makes every entry of every argument array a real (the fifteen conjuncts, in order). -/
theorem arrays_finite_of_pre
    (a0 : FVec Ideal S16384x784 .f32) (a1 : FVec Ideal S4096x784 .f32) (a2 a3 a4 : FVec Ideal S4096 .f32)
    (a5 : FVec Ideal S4096x4096 .f32) (a6 a7 a8 : FVec Ideal S4096 .f32)
    (a9 : FVec Ideal S4096x4096 .f32) (a10 a11 a12 : FVec Ideal S4096 .f32)
    (a13 : FVec Ideal S10x4096 .f32) (a14 : FVec Ideal S10 .f32)
    (h : Cert.Pre_finite_inputs.fn (F := Ideal) a0 a1 a2 a3 a4 a5 a6 a7 a8 a9 a10 a11 a12 a13 a14 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤)
      ∧ (∀ i, a3 i ≠ ⊥ ∧ a3 i ≠ ⊤) ∧ (∀ i, a4 i ≠ ⊥ ∧ a4 i ≠ ⊤) ∧ (∀ i, a5 i ≠ ⊥ ∧ a5 i ≠ ⊤)
      ∧ (∀ i, a6 i ≠ ⊥ ∧ a6 i ≠ ⊤) ∧ (∀ i, a7 i ≠ ⊥ ∧ a7 i ≠ ⊤) ∧ (∀ i, a8 i ≠ ⊥ ∧ a8 i ≠ ⊤)
      ∧ (∀ i, a9 i ≠ ⊥ ∧ a9 i ≠ ⊤) ∧ (∀ i, a10 i ≠ ⊥ ∧ a10 i ≠ ⊤) ∧ (∀ i, a11 i ≠ ⊥ ∧ a11 i ≠ ⊤)
      ∧ (∀ i, a12 i ≠ ⊥ ∧ a12 i ≠ ⊤) ∧ (∀ i, a13 i ≠ ⊥ ∧ a13 i ≠ ⊤) ∧ (∀ i, a14 i ≠ ⊥ ∧ a14 i ≠ ⊤) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩ := h0
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7,
    finite_of_all a8 _ _ _ e8, finite_of_all a9 _ _ _ e9, finite_of_all a10 _ _ _ e10, finite_of_all a11 _ _ _ e11,
    finite_of_all a12 _ _ _ e12, finite_of_all a13 _ _ _ e13, finite_of_all a14 _ _ _ e14⟩

/-- The precondition makes the network's arguments finite. -/
theorem finite_of_pre
    (a0 : FVec Ideal S16384x784 .f32) (a1 : FVec Ideal S4096x784 .f32) (a2 a3 a4 : FVec Ideal S4096 .f32)
    (a5 : FVec Ideal S4096x4096 .f32) (a6 a7 a8 : FVec Ideal S4096 .f32)
    (a9 : FVec Ideal S4096x4096 .f32) (a10 a11 a12 : FVec Ideal S4096 .f32)
    (a13 : FVec Ideal S10x4096 .f32) (a14 : FVec Ideal S10 .f32)
    (h : Cert.Pre_finite_inputs.fn (F := Ideal) a0 a1 a2 a3 a4 a5 a6 a7 a8 a9 a10 a11 a12 a13 a14 = fun _ => 1#1) :
    (Cert.Layer.Args.ofArrays a0 a1 a2 a3 a4 a5 a6 a7 a8 a9 a10 a11 a12 a13 a14).Finite := by
  obtain ⟨f0, -, f2, f3, f4, -, f6, f7, f8, -, f10, f11, f12, -, -⟩ :=
    arrays_finite_of_pre a0 a1 a2 a3 a4 a5 a6 a7 a8 a9 a10 a11 a12 a13 a14 h
  exact
    { x := fun r k => f0 (ix2 r k)
      b1 := fun j => f2 (ix1 j)
      g1 := fun j => f3 (ix1 j)
      be1 := fun j => f4 (ix1 j)
      b2 := fun j => f6 (ix1 j)
      g2 := fun j => f7 (ix1 j)
      be2 := fun j => f8 (ix1 j)
      b3 := fun j => f10 (ix1 j)
      g3 := fun j => f11 (ix1 j)
      be3 := fun j => f12 (ix1 j) }

end Cert.FiniteArgs

end
-- ==== Proof.RefLayer1.lean ====
/-
  The reference's first layer, read entry by entry.

  The layer multiplies a row of its input by the signs of the weights (the weights arrive as their signs, transposed, so
  the product's entry (r, j) is the sum over k of input (r, k) times sign of weight (j, k)), adds the bias and rectifies.
  The batch normalisation then takes, per column, the mean over the 16384 rows, the mean of the squared deviations from
  that mean, and the reciprocal square root of that variance plus ε; an entry becomes
  (entry − mean) · rsqrt(variance + ε) · γ + β, and the layer ends in the sign. Every vector that is spread over the
  rows (bias, mean, rsqrt, γ, β) is read back at its column; each sum over the rows starts from the zero word, which
  is the extended real 0.
-/
import proofs.«105723_j39608188403810_2_alg».proof.Proof.ReadP
import proofs.«105723_j39608188403810_2_alg».proof.Proof.Layer

noncomputable section

namespace Cert.RefValue

open Cert.ReferenceIdeal Cert.ReferenceIdeal.Gen Cert.ReferenceIdeal.ReadP Idealize.ShloMosaic Idealize.ShloMosaic.ValueIdx Cert.Layer

variable (x0 : (⟨S16384x784, .f32⟩ : BufTy).Contents (Elt Ideal))
  (x1 : (⟨S4096x784, .f32⟩ : BufTy).Contents (Elt Ideal))
  (x2 : (⟨S4096, .f32⟩ : BufTy).Contents (Elt Ideal))
  (x3 : (⟨S4096, .f32⟩ : BufTy).Contents (Elt Ideal))
  (x4 : (⟨S4096, .f32⟩ : BufTy).Contents (Elt Ideal))

/-- The first layer's rectified product, as a function of row and column. -/
def p1 : Fin 16384 → Fin 4096 → EReal :=
  pre (fun r k => x0 (ix2 r k)) (fun j k => x1 (ix2 j k)) (fun j => x2 (ix1 j))

/-- The first layer's output: the normalised sign of its rectified product. -/
def a1 : Fin 16384 → Fin 4096 → EReal :=
  actCentred (p1 x0 x1 x2) (fun j => x3 (ix1 j)) (fun j => x4 (ix1 j))

/-- The rectified product at (r, j). -/
theorem pre1_eq (r : Fin 16384) (j : Fin 4096) : val_main_v6 (F := Ideal) x0 x1 x2 (ix2 r j) = p1 x0 x1 x2 r j := by
  have el : ∀ k : Fin 784, lidx_main_v2 (ix2 r j) k = ix2 r k := fun k => funext fun a => Fin.ext (by match a with | ⟨0, _⟩ => rfl | ⟨1, _⟩ => rfl)
  have er : ∀ k : Fin 784, idx_main_v1 (ridx_main_v2 (ix2 r j) k) = ix2 j k := fun k => funext fun a => Fin.ext (by match a with | ⟨0, _⟩ => rfl | ⟨1, _⟩ => rfl)
  have eb : idx_main_v3 (idx_main_v4 (ix2 r j)) = ix1 j := funext fun a => Fin.ext (by match a with | ⟨0, _⟩ => rfl)
  have hs : ∀ k : Fin 784, x0 (lidx_main_v2 (ix2 r j) k) * val_main_v1 (F := Ideal) x1 (ridx_main_v2 (ix2 r j) k)
      = x0 (ix2 r k) * Ideal.sign (x1 (ix2 j k)) := fun k => by
    rw [val_main_v1_apply, val_main_v0_apply, el k, er k, Ideal.hostUnary_sign_def]
  rw [val_main_v6_apply, val_main_v5_apply, val_main_v2_apply, val_main_v4_apply, val_main_v3_apply, eb,
    val_main_call0_v0_apply, val_main_call0_cst_apply, Finset.sum_congr rfl fun k _ => hs k]
  simp only [Ideal.maximumf_def, Ideal.addf_def, Ideal.ofBits_def, Ideal.ofBits_zero_f32]
  rfl

/-- The column mean at j. -/
theorem mean1_eq (j : Fin 4096) : val_main_v9 (F := Ideal) x0 x1 x2 (ix1 j) = mean (p1 x0 x1 x2) j := by
  have e : ∀ k : Fin 16384, idx_main_v7 (ix1 j) k = ix2 k j := fun k => funext fun a => Fin.ext (by match a with | ⟨0, _⟩ => rfl | ⟨1, _⟩ => rfl)
  rw [val_main_v9_apply, val_main_v7_apply, val_main_v8_apply, val_main_cst_0_apply, val_main_cst_apply,
    Finset.sum_congr rfl fun k _ => (congrArg (val_main_v6 (F := Ideal) x0 x1 x2) (e k)).trans (pre1_eq x0 x1 x2 k j)]
  simp only [Ideal.hostDivf_def, Ideal.ofBits_def, Ideal.ofBits_zero_f32, zero_add]
  rfl

/-- The deviation of entry (r, j) from its column's mean. -/
theorem dev1_eq (r : Fin 16384) (j : Fin 4096) : val_main_v12 (F := Ideal) x0 x1 x2 (ix2 r j) = p1 x0 x1 x2 r j - mean (p1 x0 x1 x2) j := by
  have e : idx_main_v10 (idx_main_v11 (ix2 r j)) = ix1 j := funext fun a => Fin.ext (by match a with | ⟨0, _⟩ => rfl)
  rw [val_main_v12_apply, val_main_v11_apply, val_main_v10_apply, e, mean1_eq, pre1_eq, Ideal.subf_def]

/-- The column variance at j: the mean of the squared deviations. -/
theorem var1_eq (j : Fin 4096) : val_main_v16 (F := Ideal) x0 x1 x2 (ix1 j) = varCentred (p1 x0 x1 x2) j := by
  have e : ∀ k : Fin 16384, idx_main_v14 (ix1 j) k = ix2 k j := fun k => funext fun a => Fin.ext (by match a with | ⟨0, _⟩ => rfl | ⟨1, _⟩ => rfl)
  have hs : ∀ k : Fin 16384, val_main_v13 (F := Ideal) x0 x1 x2 (idx_main_v14 (ix1 j) k)
      = (p1 x0 x1 x2 k j - mean (p1 x0 x1 x2) j) * (p1 x0 x1 x2 k j - mean (p1 x0 x1 x2) j) := fun k => by
    rw [e k, val_main_v13_apply, dev1_eq, Ideal.mulf_def]
  rw [val_main_v16_apply, val_main_v14_apply, val_main_v15_apply, val_main_cst_2_apply, val_main_cst_1_apply,
    Finset.sum_congr rfl fun k _ => hs k]
  simp only [Ideal.hostDivf_def, Ideal.ofBits_def, Ideal.ofBits_zero_f32, zero_add]
  rfl

/-- The reciprocal square root of the variance plus ε, at column j. -/
theorem rstd1_eq (j : Fin 4096) : val_main_v22 (F := Ideal) x0 x1 x2 (ix1 j) = Ideal.rsqrt (varCentred (p1 x0 x1 x2) j + eps) := by
  rw [val_main_v22_apply, val_main_v21_apply, val_main_v20_apply, val_main_cst_3_apply, var1_eq,
    Ideal.hostUnary_rsqrt_def, Ideal.addf_def, Ideal.ofBits_def]

/-- The layer's output at (r, j): the sign of the normalised, scaled and shifted entry. -/
theorem layer1 (r : Fin 16384) (j : Fin 4096) : val_main_v32 (F := Ideal) x0 x1 x2 x3 x4 (ix2 r j) = a1 x0 x1 x2 x3 x4 r j := by
  have em : idx_main_v17 (idx_main_v18 (ix2 r j)) = ix1 j := funext fun a => Fin.ext (by match a with | ⟨0, _⟩ => rfl)
  have es : idx_main_v23 (idx_main_v24 (ix2 r j)) = ix1 j := funext fun a => Fin.ext (by match a with | ⟨0, _⟩ => rfl)
  have eg : idx_main_v26 (idx_main_v27 (ix2 r j)) = ix1 j := funext fun a => Fin.ext (by match a with | ⟨0, _⟩ => rfl)
  have eh : idx_main_v29 (idx_main_v30 (ix2 r j)) = ix1 j := funext fun a => Fin.ext (by match a with | ⟨0, _⟩ => rfl)
  rw [val_main_v32_apply, val_main_v31_apply, val_main_v28_apply, val_main_v25_apply, val_main_v19_apply,
    val_main_v18_apply, val_main_v17_apply, em, val_main_v24_apply, val_main_v23_apply, es,
    val_main_v27_apply, val_main_v26_apply, eg, val_main_v30_apply, val_main_v29_apply, eh,
    pre1_eq, mean1_eq, rstd1_eq]
  simp only [Ideal.hostUnary_sign_def, Ideal.addf_def, Ideal.mulf_def, Ideal.subf_def]
  rfl

end Cert.RefValue

end
-- ==== Proof.RefLayer2.lean ====
/-
  The reference's second layer, read entry by entry.

  The layer multiplies a row of its input by the signs of the weights (the weights arrive as their signs, transposed, so
  the product's entry (r, j) is the sum over k of input (r, k) times sign of weight (j, k)), adds the bias and rectifies.
  The batch normalisation then takes, per column, the mean over the 16384 rows, the mean of the squared deviations from
  that mean, and the reciprocal square root of that variance plus ε; an entry becomes
  (entry − mean) · rsqrt(variance + ε) · γ + β, and the layer ends in the sign. Every vector that is spread over the
  rows (bias, mean, rsqrt, γ, β) is read back at its column; each sum over the rows starts from the zero word, which
  is the extended real 0.
-/
import proofs.«105723_j39608188403810_2_alg».proof.Proof.ReadP
import proofs.«105723_j39608188403810_2_alg».proof.Proof.Layer
import proofs.«105723_j39608188403810_2_alg».proof.Proof.RefLayer1

noncomputable section

namespace Cert.RefValue

open Cert.ReferenceIdeal Cert.ReferenceIdeal.Gen Cert.ReferenceIdeal.ReadP Idealize.ShloMosaic Idealize.ShloMosaic.ValueIdx Cert.Layer

variable (x0 : (⟨S16384x784, .f32⟩ : BufTy).Contents (Elt Ideal))
  (x1 : (⟨S4096x784, .f32⟩ : BufTy).Contents (Elt Ideal))
  (x2 : (⟨S4096, .f32⟩ : BufTy).Contents (Elt Ideal))
  (x3 : (⟨S4096, .f32⟩ : BufTy).Contents (Elt Ideal))
  (x4 : (⟨S4096, .f32⟩ : BufTy).Contents (Elt Ideal))
  (x5 : (⟨S4096x4096, .f32⟩ : BufTy).Contents (Elt Ideal))
  (x6 : (⟨S4096, .f32⟩ : BufTy).Contents (Elt Ideal))
  (x7 : (⟨S4096, .f32⟩ : BufTy).Contents (Elt Ideal))
  (x8 : (⟨S4096, .f32⟩ : BufTy).Contents (Elt Ideal))

/-- The second layer's rectified product, as a function of row and column. -/
def p2 : Fin 16384 → Fin 4096 → EReal :=
  pre (a1 x0 x1 x2 x3 x4) (fun j k => x5 (ix2 j k)) (fun j => x6 (ix1 j))

/-- The second layer's output: the normalised sign of its rectified product. -/
def a2 : Fin 16384 → Fin 4096 → EReal :=
  actCentred (p2 x0 x1 x2 x3 x4 x5 x6) (fun j => x7 (ix1 j)) (fun j => x8 (ix1 j))

/-- The rectified product at (r, j). -/
theorem pre2_eq (r : Fin 16384) (j : Fin 4096) : val_main_v39 (F := Ideal) x0 x1 x2 x3 x4 x5 x6 (ix2 r j) = p2 x0 x1 x2 x3 x4 x5 x6 r j := by
  have el : ∀ k : Fin 4096, lidx_main_v35 (ix2 r j) k = ix2 r k := fun k => funext fun a => Fin.ext (by match a with | ⟨0, _⟩ => rfl | ⟨1, _⟩ => rfl)
  have er : ∀ k : Fin 4096, idx_main_v34 (ridx_main_v35 (ix2 r j) k) = ix2 j k := fun k => funext fun a => Fin.ext (by match a with | ⟨0, _⟩ => rfl | ⟨1, _⟩ => rfl)
  have eb : idx_main_v36 (idx_main_v37 (ix2 r j)) = ix1 j := funext fun a => Fin.ext (by match a with | ⟨0, _⟩ => rfl)
  have hs : ∀ k : Fin 4096, val_main_v32 (F := Ideal) x0 x1 x2 x3 x4 (lidx_main_v35 (ix2 r j) k) * val_main_v34 (F := Ideal) x5 (ridx_main_v35 (ix2 r j) k)
      = a1 x0 x1 x2 x3 x4 r k * Ideal.sign (x5 (ix2 j k)) := fun k => by
    rw [val_main_v34_apply, val_main_v33_apply, el k, er k, layer1, Ideal.hostUnary_sign_def]
  rw [val_main_v39_apply, val_main_v38_apply, val_main_v35_apply, val_main_v37_apply, val_main_v36_apply, eb,
    val_main_call1_v0_apply, val_main_call1_cst_apply, Finset.sum_congr rfl fun k _ => hs k]
  simp only [Ideal.maximumf_def, Ideal.addf_def, Ideal.ofBits_def, Ideal.ofBits_zero_f32]
  rfl

/-- The column mean at j. -/
theorem mean2_eq (j : Fin 4096) : val_main_v42 (F := Ideal) x0 x1 x2 x3 x4 x5 x6 (ix1 j) = mean (p2 x0 x1 x2 x3 x4 x5 x6) j := by
  have e : ∀ k : Fin 16384, idx_main_v40 (ix1 j) k = ix2 k j := fun k => funext fun a => Fin.ext (by match a with | ⟨0, _⟩ => rfl | ⟨1, _⟩ => rfl)
  rw [val_main_v42_apply, val_main_v40_apply, val_main_v41_apply, val_main_cst_5_apply, val_main_cst_4_apply,
    Finset.sum_congr rfl fun k _ => (congrArg (val_main_v39 (F := Ideal) x0 x1 x2 x3 x4 x5 x6) (e k)).trans (pre2_eq x0 x1 x2 x3 x4 x5 x6 k j)]
  simp only [Ideal.hostDivf_def, Ideal.ofBits_def, Ideal.ofBits_zero_f32, zero_add]
  rfl

/-- The deviation of entry (r, j) from its column's mean. -/
theorem dev2_eq (r : Fin 16384) (j : Fin 4096) : val_main_v45 (F := Ideal) x0 x1 x2 x3 x4 x5 x6 (ix2 r j) = p2 x0 x1 x2 x3 x4 x5 x6 r j - mean (p2 x0 x1 x2 x3 x4 x5 x6) j := by
  have e : idx_main_v43 (idx_main_v44 (ix2 r j)) = ix1 j := funext fun a => Fin.ext (by match a with | ⟨0, _⟩ => rfl)
  rw [val_main_v45_apply, val_main_v44_apply, val_main_v43_apply, e, mean2_eq, pre2_eq, Ideal.subf_def]

/-- The column variance at j: the mean of the squared deviations. -/
theorem var2_eq (j : Fin 4096) : val_main_v49 (F := Ideal) x0 x1 x2 x3 x4 x5 x6 (ix1 j) = varCentred (p2 x0 x1 x2 x3 x4 x5 x6) j := by
  have e : ∀ k : Fin 16384, idx_main_v47 (ix1 j) k = ix2 k j := fun k => funext fun a => Fin.ext (by match a with | ⟨0, _⟩ => rfl | ⟨1, _⟩ => rfl)
  have hs : ∀ k : Fin 16384, val_main_v46 (F := Ideal) x0 x1 x2 x3 x4 x5 x6 (idx_main_v47 (ix1 j) k)
      = (p2 x0 x1 x2 x3 x4 x5 x6 k j - mean (p2 x0 x1 x2 x3 x4 x5 x6) j) * (p2 x0 x1 x2 x3 x4 x5 x6 k j - mean (p2 x0 x1 x2 x3 x4 x5 x6) j) := fun k => by
    rw [e k, val_main_v46_apply, dev2_eq, Ideal.mulf_def]
  rw [val_main_v49_apply, val_main_v47_apply, val_main_v48_apply, val_main_cst_7_apply, val_main_cst_6_apply,
    Finset.sum_congr rfl fun k _ => hs k]
  simp only [Ideal.hostDivf_def, Ideal.ofBits_def, Ideal.ofBits_zero_f32, zero_add]
  rfl

/-- The reciprocal square root of the variance plus ε, at column j. -/
theorem rstd2_eq (j : Fin 4096) : val_main_v55 (F := Ideal) x0 x1 x2 x3 x4 x5 x6 (ix1 j) = Ideal.rsqrt (varCentred (p2 x0 x1 x2 x3 x4 x5 x6) j + eps) := by
  rw [val_main_v55_apply, val_main_v54_apply, val_main_v53_apply, val_main_cst_8_apply, var2_eq,
    Ideal.hostUnary_rsqrt_def, Ideal.addf_def, Ideal.ofBits_def]

/-- The layer's output at (r, j): the sign of the normalised, scaled and shifted entry. -/
theorem layer2 (r : Fin 16384) (j : Fin 4096) : val_main_v65 (F := Ideal) x0 x1 x2 x3 x4 x5 x6 x7 x8 (ix2 r j) = a2 x0 x1 x2 x3 x4 x5 x6 x7 x8 r j := by
  have em : idx_main_v50 (idx_main_v51 (ix2 r j)) = ix1 j := funext fun a => Fin.ext (by match a with | ⟨0, _⟩ => rfl)
  have es : idx_main_v56 (idx_main_v57 (ix2 r j)) = ix1 j := funext fun a => Fin.ext (by match a with | ⟨0, _⟩ => rfl)
  have eg : idx_main_v59 (idx_main_v60 (ix2 r j)) = ix1 j := funext fun a => Fin.ext (by match a with | ⟨0, _⟩ => rfl)
  have eh : idx_main_v62 (idx_main_v63 (ix2 r j)) = ix1 j := funext fun a => Fin.ext (by match a with | ⟨0, _⟩ => rfl)
  rw [val_main_v65_apply, val_main_v64_apply, val_main_v61_apply, val_main_v58_apply, val_main_v52_apply,
    val_main_v51_apply, val_main_v50_apply, em, val_main_v57_apply, val_main_v56_apply, es,
    val_main_v60_apply, val_main_v59_apply, eg, val_main_v63_apply, val_main_v62_apply, eh,
    pre2_eq, mean2_eq, rstd2_eq]
  simp only [Ideal.hostUnary_sign_def, Ideal.addf_def, Ideal.mulf_def, Ideal.subf_def]
  rfl

end Cert.RefValue

end
-- ==== Proof.RefLayer3.lean ====
/-
  The reference's third layer, read entry by entry.

  The layer multiplies a row of its input by the signs of the weights (the weights arrive as their signs, transposed, so
  the product's entry (r, j) is the sum over k of input (r, k) times sign of weight (j, k)), adds the bias and rectifies.
  The batch normalisation then takes, per column, the mean over the 16384 rows, the mean of the squared deviations from
  that mean, and the reciprocal square root of that variance plus ε; an entry becomes
  (entry − mean) · rsqrt(variance + ε) · γ + β, and the layer ends in the sign. Every vector that is spread over the
  rows (bias, mean, rsqrt, γ, β) is read back at its column; each sum over the rows starts from the zero word, which
  is the extended real 0.
-/
import proofs.«105723_j39608188403810_2_alg».proof.Proof.ReadP
import proofs.«105723_j39608188403810_2_alg».proof.Proof.Layer
import proofs.«105723_j39608188403810_2_alg».proof.Proof.RefLayer2

noncomputable section

namespace Cert.RefValue

open Cert.ReferenceIdeal Cert.ReferenceIdeal.Gen Cert.ReferenceIdeal.ReadP Idealize.ShloMosaic Idealize.ShloMosaic.ValueIdx Cert.Layer

variable (x0 : (⟨S16384x784, .f32⟩ : BufTy).Contents (Elt Ideal))
  (x1 : (⟨S4096x784, .f32⟩ : BufTy).Contents (Elt Ideal))
  (x2 : (⟨S4096, .f32⟩ : BufTy).Contents (Elt Ideal))
  (x3 : (⟨S4096, .f32⟩ : BufTy).Contents (Elt Ideal))
  (x4 : (⟨S4096, .f32⟩ : BufTy).Contents (Elt Ideal))
  (x5 : (⟨S4096x4096, .f32⟩ : BufTy).Contents (Elt Ideal))
  (x6 : (⟨S4096, .f32⟩ : BufTy).Contents (Elt Ideal))
  (x7 : (⟨S4096, .f32⟩ : BufTy).Contents (Elt Ideal))
  (x8 : (⟨S4096, .f32⟩ : BufTy).Contents (Elt Ideal))
  (x9 : (⟨S4096x4096, .f32⟩ : BufTy).Contents (Elt Ideal))
  (x10 : (⟨S4096, .f32⟩ : BufTy).Contents (Elt Ideal))
  (x11 : (⟨S4096, .f32⟩ : BufTy).Contents (Elt Ideal))
  (x12 : (⟨S4096, .f32⟩ : BufTy).Contents (Elt Ideal))

/-- The third layer's rectified product, as a function of row and column. -/
def p3 : Fin 16384 → Fin 4096 → EReal :=
  pre (a2 x0 x1 x2 x3 x4 x5 x6 x7 x8) (fun j k => x9 (ix2 j k)) (fun j => x10 (ix1 j))

/-- The third layer's output: the normalised sign of its rectified product. -/
def a3 : Fin 16384 → Fin 4096 → EReal :=
  actCentred (p3 x0 x1 x2 x3 x4 x5 x6 x7 x8 x9 x10) (fun j => x11 (ix1 j)) (fun j => x12 (ix1 j))

/-- The rectified product at (r, j). -/
theorem pre3_eq (r : Fin 16384) (j : Fin 4096) : val_main_v72 (F := Ideal) x0 x1 x2 x3 x4 x5 x6 x7 x8 x9 x10 (ix2 r j) = p3 x0 x1 x2 x3 x4 x5 x6 x7 x8 x9 x10 r j := by
  have el : ∀ k : Fin 4096, lidx_main_v68 (ix2 r j) k = ix2 r k := fun k => funext fun a => Fin.ext (by match a with | ⟨0, _⟩ => rfl | ⟨1, _⟩ => rfl)
  have er : ∀ k : Fin 4096, idx_main_v67 (ridx_main_v68 (ix2 r j) k) = ix2 j k := fun k => funext fun a => Fin.ext (by match a with | ⟨0, _⟩ => rfl | ⟨1, _⟩ => rfl)
  have eb : idx_main_v69 (idx_main_v70 (ix2 r j)) = ix1 j := funext fun a => Fin.ext (by match a with | ⟨0, _⟩ => rfl)
  have hs : ∀ k : Fin 4096, val_main_v65 (F := Ideal) x0 x1 x2 x3 x4 x5 x6 x7 x8 (lidx_main_v68 (ix2 r j) k) * val_main_v67 (F := Ideal) x9 (ridx_main_v68 (ix2 r j) k)
      = a2 x0 x1 x2 x3 x4 x5 x6 x7 x8 r k * Ideal.sign (x9 (ix2 j k)) := fun k => by
    rw [val_main_v67_apply, val_main_v66_apply, el k, er k, layer2, Ideal.hostUnary_sign_def]
  rw [val_main_v72_apply, val_main_v71_apply, val_main_v68_apply, val_main_v70_apply, val_main_v69_apply, eb,
    val_main_call2_v0_apply, val_main_call2_cst_apply, Finset.sum_congr rfl fun k _ => hs k]
  simp only [Ideal.maximumf_def, Ideal.addf_def, Ideal.ofBits_def, Ideal.ofBits_zero_f32]
  rfl

/-- The column mean at j. -/
theorem mean3_eq (j : Fin 4096) : val_main_v75 (F := Ideal) x0 x1 x2 x3 x4 x5 x6 x7 x8 x9 x10 (ix1 j) = mean (p3 x0 x1 x2 x3 x4 x5 x6 x7 x8 x9 x10) j := by
  have e : ∀ k : Fin 16384, idx_main_v73 (ix1 j) k = ix2 k j := fun k => funext fun a => Fin.ext (by match a with | ⟨0, _⟩ => rfl | ⟨1, _⟩ => rfl)
  rw [val_main_v75_apply, val_main_v73_apply, val_main_v74_apply, val_main_cst_10_apply, val_main_cst_9_apply,
    Finset.sum_congr rfl fun k _ => (congrArg (val_main_v72 (F := Ideal) x0 x1 x2 x3 x4 x5 x6 x7 x8 x9 x10) (e k)).trans (pre3_eq x0 x1 x2 x3 x4 x5 x6 x7 x8 x9 x10 k j)]
  simp only [Ideal.hostDivf_def, Ideal.ofBits_def, Ideal.ofBits_zero_f32, zero_add]
  rfl

/-- The deviation of entry (r, j) from its column's mean. -/
theorem dev3_eq (r : Fin 16384) (j : Fin 4096) : val_main_v78 (F := Ideal) x0 x1 x2 x3 x4 x5 x6 x7 x8 x9 x10 (ix2 r j) = p3 x0 x1 x2 x3 x4 x5 x6 x7 x8 x9 x10 r j - mean (p3 x0 x1 x2 x3 x4 x5 x6 x7 x8 x9 x10) j := by
  have e : idx_main_v76 (idx_main_v77 (ix2 r j)) = ix1 j := funext fun a => Fin.ext (by match a with | ⟨0, _⟩ => rfl)
  rw [val_main_v78_apply, val_main_v77_apply, val_main_v76_apply, e, mean3_eq, pre3_eq, Ideal.subf_def]

/-- The column variance at j: the mean of the squared deviations. -/
theorem var3_eq (j : Fin 4096) : val_main_v82 (F := Ideal) x0 x1 x2 x3 x4 x5 x6 x7 x8 x9 x10 (ix1 j) = varCentred (p3 x0 x1 x2 x3 x4 x5 x6 x7 x8 x9 x10) j := by
  have e : ∀ k : Fin 16384, idx_main_v80 (ix1 j) k = ix2 k j := fun k => funext fun a => Fin.ext (by match a with | ⟨0, _⟩ => rfl | ⟨1, _⟩ => rfl)
  have hs : ∀ k : Fin 16384, val_main_v79 (F := Ideal) x0 x1 x2 x3 x4 x5 x6 x7 x8 x9 x10 (idx_main_v80 (ix1 j) k)
      = (p3 x0 x1 x2 x3 x4 x5 x6 x7 x8 x9 x10 k j - mean (p3 x0 x1 x2 x3 x4 x5 x6 x7 x8 x9 x10) j) * (p3 x0 x1 x2 x3 x4 x5 x6 x7 x8 x9 x10 k j - mean (p3 x0 x1 x2 x3 x4 x5 x6 x7 x8 x9 x10) j) := fun k => by
    rw [e k, val_main_v79_apply, dev3_eq, Ideal.mulf_def]
  rw [val_main_v82_apply, val_main_v80_apply, val_main_v81_apply, val_main_cst_12_apply, val_main_cst_11_apply,
    Finset.sum_congr rfl fun k _ => hs k]
  simp only [Ideal.hostDivf_def, Ideal.ofBits_def, Ideal.ofBits_zero_f32, zero_add]
  rfl

/-- The reciprocal square root of the variance plus ε, at column j. -/
theorem rstd3_eq (j : Fin 4096) : val_main_v88 (F := Ideal) x0 x1 x2 x3 x4 x5 x6 x7 x8 x9 x10 (ix1 j) = Ideal.rsqrt (varCentred (p3 x0 x1 x2 x3 x4 x5 x6 x7 x8 x9 x10) j + eps) := by
  rw [val_main_v88_apply, val_main_v87_apply, val_main_v86_apply, val_main_cst_13_apply, var3_eq,
    Ideal.hostUnary_rsqrt_def, Ideal.addf_def, Ideal.ofBits_def]

/-- The layer's output at (r, j): the sign of the normalised, scaled and shifted entry. -/
theorem layer3 (r : Fin 16384) (j : Fin 4096) : val_main_v98 (F := Ideal) x0 x1 x2 x3 x4 x5 x6 x7 x8 x9 x10 x11 x12 (ix2 r j) = a3 x0 x1 x2 x3 x4 x5 x6 x7 x8 x9 x10 x11 x12 r j := by
  have em : idx_main_v83 (idx_main_v84 (ix2 r j)) = ix1 j := funext fun a => Fin.ext (by match a with | ⟨0, _⟩ => rfl)
  have es : idx_main_v89 (idx_main_v90 (ix2 r j)) = ix1 j := funext fun a => Fin.ext (by match a with | ⟨0, _⟩ => rfl)
  have eg : idx_main_v92 (idx_main_v93 (ix2 r j)) = ix1 j := funext fun a => Fin.ext (by match a with | ⟨0, _⟩ => rfl)
  have eh : idx_main_v95 (idx_main_v96 (ix2 r j)) = ix1 j := funext fun a => Fin.ext (by match a with | ⟨0, _⟩ => rfl)
  rw [val_main_v98_apply, val_main_v97_apply, val_main_v94_apply, val_main_v91_apply, val_main_v85_apply,
    val_main_v84_apply, val_main_v83_apply, em, val_main_v90_apply, val_main_v89_apply, es,
    val_main_v93_apply, val_main_v92_apply, eg, val_main_v96_apply, val_main_v95_apply, eh,
    pre3_eq, mean3_eq, rstd3_eq]
  simp only [Ideal.hostUnary_sign_def, Ideal.addf_def, Ideal.mulf_def, Ideal.subf_def]
  rfl

end Cert.RefValue

end
-- ==== Proof.RefRowMax.lean ====
/-
  A row's maximum, as the reference takes it.

  The reference reduces the logits along their ten columns with `max`, starting from minus infinity, and then takes
  the maximum of that result with minus infinity once more. A reduction with a commutative and associative body over
  one axis is the fold of the body over that axis's coordinates, from the initial value; the index being folded over
  is the row's index with the column inserted, which is the index with coordinates (row, column). The second maximum
  changes nothing: a fold of `max` is never below the value it starts from.
-/
import proofs.«105723_j39608188403810_2_alg».proof.Proof.Gen.ReferenceIdeal
import proofs.«105723_j39608188403810_2_alg».proof.Proof.Layer
import Idealize.ShloMosaic.PureOps.Ideal.Laws
import Idealize.ShloMosaic.Lib.ValueIdx

noncomputable section

namespace Cert.RefValue

open Cert.ReferenceIdeal Cert.ReferenceIdeal.Gen Idealize.ShloMosaic Idealize.ShloMosaic.ValueIdx

/-- Dropping the column axis of a 16384 × 10 array leaves its 16384 rows. -/
theorem reduces_cols : S16384x10.Reduces [1] S16384 := by decide

/-- Row `r` with column `k` inserted is the index (r, k). -/
theorem lift_row (r : Fin 16384) (k : Fin 10) : reduces_cols.lift (ix1 r) k = ix2 r k :=
  funext fun a => Fin.ext (by match a with | ⟨0, _⟩ => rfl | ⟨1, _⟩ => rfl)

/-- The reduction with `max` along the columns, from an initial value that is minus infinity, read at row `r`:
    the fold of `max` from minus infinity over the row's ten entries. -/
theorem reduce_max_row (y : (⟨S16384x10, .f32⟩ : BufTy).Contents (Elt Ideal)) (c : (⟨S_, .f32⟩ : BufTy).Contents (Elt Ideal))
    (hc : c (Shape.Idx.first h_S_) = Cert.Layer.negInf) (r : Fin 16384) :
    Host.reduce (FloatOps.maximumf (F := Ideal) (φ := .f32)) y c reducesTo_S16384x10_S16384_d1 h_S_ (ix1 r)
      = (Finset.univ : Finset (Fin 10)).fold max Cert.Layer.negInf (fun j => y (ix2 r j)) := by
  rw [Host.reduce_eq_fold_single (FloatOps.maximumf (F := Ideal) (φ := .f32)) y c reducesTo_S16384x10_S16384_d1 reduces_cols h_S_ (ix1 r), hc]
  have e : y ∘ reduces_cols.lift (ix1 r) = fun j : Fin 10 => y (ix2 r j) :=
    funext fun k => congrArg y (lift_row r k)
  rw [e]
  rfl

/-- Taking the maximum with minus infinity once more leaves a fold of `max` from minus infinity as it is. -/
theorem max_negInf_fold {ι : Type} (s : Finset ι) (f : ι → EReal) :
    max Cert.Layer.negInf (s.fold max Cert.Layer.negInf f) = s.fold max Cert.Layer.negInf f :=
  max_eq_right ((Finset.le_fold_max _).mpr (Or.inl le_rfl))

end Cert.RefValue

end
-- ==== Proof.RefOut.lean ====
/-
  The reference's last layer and its result.

  The last layer multiplies a row of the third layer's output by the signs of its weights and adds the bias: the ten
  logits of the row. The log-softmax subtracts the row's maximum from each logit, and from that the logarithm of the sum
  over the row of the exponentials of the logits so shifted. The row maximum is a fold of `max` from minus infinity
  over the ten columns; the sum of exponentials starts from the zero word, the extended real 0. Taken through the three
  hidden layers, the result at (r, j) is the network with the centred normalisation at (r, j).
-/
import proofs.«105723_j39608188403810_2_alg».proof.Proof.ReadP
import proofs.«105723_j39608188403810_2_alg».proof.Proof.Layer
import proofs.«105723_j39608188403810_2_alg».proof.Proof.RefLayer3
import proofs.«105723_j39608188403810_2_alg».proof.Proof.RefRowMax

noncomputable section

namespace Cert.RefValue

open Cert.ReferenceIdeal Cert.ReferenceIdeal.Gen Cert.ReferenceIdeal.ReadP Idealize.ShloMosaic Idealize.ShloMosaic.ValueIdx Cert.Layer

variable (x0 : (⟨S16384x784, .f32⟩ : BufTy).Contents (Elt Ideal))
  (x1 : (⟨S4096x784, .f32⟩ : BufTy).Contents (Elt Ideal))
  (x2 : (⟨S4096, .f32⟩ : BufTy).Contents (Elt Ideal))
  (x3 : (⟨S4096, .f32⟩ : BufTy).Contents (Elt Ideal))
  (x4 : (⟨S4096, .f32⟩ : BufTy).Contents (Elt Ideal))
  (x5 : (⟨S4096x4096, .f32⟩ : BufTy).Contents (Elt Ideal))
  (x6 : (⟨S4096, .f32⟩ : BufTy).Contents (Elt Ideal))
  (x7 : (⟨S4096, .f32⟩ : BufTy).Contents (Elt Ideal))
  (x8 : (⟨S4096, .f32⟩ : BufTy).Contents (Elt Ideal))
  (x9 : (⟨S4096x4096, .f32⟩ : BufTy).Contents (Elt Ideal))
  (x10 : (⟨S4096, .f32⟩ : BufTy).Contents (Elt Ideal))
  (x11 : (⟨S4096, .f32⟩ : BufTy).Contents (Elt Ideal))
  (x12 : (⟨S4096, .f32⟩ : BufTy).Contents (Elt Ideal))
  (x13 : (⟨S10x4096, .f32⟩ : BufTy).Contents (Elt Ideal))
  (x14 : (⟨S10, .f32⟩ : BufTy).Contents (Elt Ideal))

/-- The logits, as a function of row and column. -/
def logits : Fin 16384 → Fin 10 → EReal :=
  lin (a3 x0 x1 x2 x3 x4 x5 x6 x7 x8 x9 x10 x11 x12) (fun j k => x13 (ix2 j k)) (fun j => x14 (ix1 j))

/-- The logit at (r, j). -/
theorem logits_eq (r : Fin 16384) (j : Fin 10) : val_main_v104 (F := Ideal) x0 x1 x2 x3 x4 x5 x6 x7 x8 x9 x10 x11 x12 x13 x14 (ix2 r j) = logits x0 x1 x2 x3 x4 x5 x6 x7 x8 x9 x10 x11 x12 x13 x14 r j := by
  have el : ∀ k : Fin 4096, lidx_main_v101 (ix2 r j) k = ix2 r k := fun k => funext fun a => Fin.ext (by match a with | ⟨0, _⟩ => rfl | ⟨1, _⟩ => rfl)
  have er : ∀ k : Fin 4096, idx_main_v100 (ridx_main_v101 (ix2 r j) k) = ix2 j k := fun k => funext fun a => Fin.ext (by match a with | ⟨0, _⟩ => rfl | ⟨1, _⟩ => rfl)
  have eb : idx_main_v102 (idx_main_v103 (ix2 r j)) = ix1 j := funext fun a => Fin.ext (by match a with | ⟨0, _⟩ => rfl)
  have hs : ∀ k : Fin 4096, val_main_v98 (F := Ideal) x0 x1 x2 x3 x4 x5 x6 x7 x8 x9 x10 x11 x12 (lidx_main_v101 (ix2 r j) k) * val_main_v100 (F := Ideal) x13 (ridx_main_v101 (ix2 r j) k)
      = a3 x0 x1 x2 x3 x4 x5 x6 x7 x8 x9 x10 x11 x12 r k * Ideal.sign (x13 (ix2 j k)) := fun k => by
    rw [val_main_v100_apply, val_main_v99_apply, el k, er k, layer3, Ideal.hostUnary_sign_def]
  rw [val_main_v104_apply, val_main_v101_apply, val_main_v103_apply, val_main_v102_apply, eb,
    Finset.sum_congr rfl fun k _ => hs k, Ideal.addf_def]
  rfl

/-- The row maximum at r: the reduction along the columns is the fold of `max` from minus infinity over the row's logits,
    and the further maximum with minus infinity leaves it as it is. -/
theorem rowMax_eq (r : Fin 16384) : val_main_call3_v2 (F := Ideal) x0 x1 x2 x3 x4 x5 x6 x7 x8 x9 x10 x11 x12 x13 x14 (ix1 r) = rowMax (logits x0 x1 x2 x3 x4 x5 x6 x7 x8 x9 x10 x11 x12 x13 x14) r := by
  have hc : (val_main_call3_cst (F := Ideal)) (Shape.Idx.first h_S_) = negInf :=
    (val_main_call3_cst_apply _).trans (Ideal.ofBits_def _)
  have h0 : val_main_call3_v0 (F := Ideal) x0 x1 x2 x3 x4 x5 x6 x7 x8 x9 x10 x11 x12 x13 x14 (ix1 r)
      = (Finset.univ : Finset (Fin 10)).fold max negInf (fun j => logits x0 x1 x2 x3 x4 x5 x6 x7 x8 x9 x10 x11 x12 x13 x14 r j) := by
    unfold val_main_call3_v0
    rw [reduce_max_row _ _ hc r]
    exact congrArg (Finset.fold max negInf · Finset.univ) (funext fun j => logits_eq x0 x1 x2 x3 x4 x5 x6 x7 x8 x9 x10 x11 x12 x13 x14 r j)
  rw [val_main_call3_v2_apply, val_main_call3_v1_apply, val_main_call3_cst_0_apply, h0, Ideal.maximumf_def, Ideal.ofBits_def]
  exact max_negInf_fold _ _

/-- The logit at (r, j) less its row's maximum. -/
theorem shifted_eq (r : Fin 16384) (j : Fin 10) : val_main_call3_v5 (F := Ideal) x0 x1 x2 x3 x4 x5 x6 x7 x8 x9 x10 x11 x12 x13 x14 (ix2 r j) = logits x0 x1 x2 x3 x4 x5 x6 x7 x8 x9 x10 x11 x12 x13 x14 r j - rowMax (logits x0 x1 x2 x3 x4 x5 x6 x7 x8 x9 x10 x11 x12 x13 x14) r := by
  have e : idx_main_call3_v3 (idx_main_call3_v4 (ix2 r j)) = ix1 r := funext fun a => Fin.ext (by match a with | ⟨0, _⟩ => rfl)
  rw [val_main_call3_v5_apply, val_main_call3_v4_apply, val_main_call3_v3_apply, e, rowMax_eq, logits_eq, Ideal.subf_def]

/-- The sum over row r of the exponentials of the shifted logits. -/
theorem expSum_eq (r : Fin 16384) : val_main_call3_v7 (F := Ideal) x0 x1 x2 x3 x4 x5 x6 x7 x8 x9 x10 x11 x12 x13 x14 (ix1 r)
    = ∑ j' : Fin 10, Ideal.exp (logits x0 x1 x2 x3 x4 x5 x6 x7 x8 x9 x10 x11 x12 x13 x14 r j' - rowMax (logits x0 x1 x2 x3 x4 x5 x6 x7 x8 x9 x10 x11 x12 x13 x14) r) := by
  have e : ∀ k : Fin 10, idx_main_call3_v7 (ix1 r) k = ix2 r k := fun k => funext fun a => Fin.ext (by match a with | ⟨0, _⟩ => rfl | ⟨1, _⟩ => rfl)
  have hs : ∀ k : Fin 10, val_main_call3_v6 (F := Ideal) x0 x1 x2 x3 x4 x5 x6 x7 x8 x9 x10 x11 x12 x13 x14 (idx_main_call3_v7 (ix1 r) k)
      = Ideal.exp (logits x0 x1 x2 x3 x4 x5 x6 x7 x8 x9 x10 x11 x12 x13 x14 r k - rowMax (logits x0 x1 x2 x3 x4 x5 x6 x7 x8 x9 x10 x11 x12 x13 x14) r) := fun k => by
    rw [e k, val_main_call3_v6_apply, shifted_eq, Ideal.hostUnary_exp_def]
  rw [val_main_call3_v7_apply, val_main_call3_cst_1_apply, Finset.sum_congr rfl fun k _ => hs k,
    Ideal.ofBits_def, Ideal.ofBits_zero_f32, zero_add]

/-- The result at (r, j): the log-softmax of the logits. -/
theorem out_eq (r : Fin 16384) (j : Fin 10) : val_main_v105 (F := Ideal) x0 x1 x2 x3 x4 x5 x6 x7 x8 x9 x10 x11 x12 x13 x14 (ix2 r j) = logSoftmax (logits x0 x1 x2 x3 x4 x5 x6 x7 x8 x9 x10 x11 x12 x13 x14) r j := by
  have e : idx_main_call3_v8 (idx_main_call3_v10 (ix2 r j)) = ix1 r := funext fun a => Fin.ext (by match a with | ⟨0, _⟩ => rfl)
  rw [val_main_v105_apply, val_main_call3_v10_apply, val_main_call3_v9_apply, val_main_call3_v8_apply, e, expSum_eq, shifted_eq,
    Ideal.hostUnary_log_def, Ideal.subf_def]
  rfl

/-- The reference's result at (r, j) is the network with the centred normalisation, over the arguments read off the
    fifteen argument arrays, at (r, j). -/
theorem result_eq (r : Fin 16384) (j : Fin 10) :
    val_main_v105 (F := Ideal) x0 x1 x2 x3 x4 x5 x6 x7 x8 x9 x10 x11 x12 x13 x14 (ValueIdx.ix2 r j) = Cert.Layer.netCentred (Cert.Layer.Args.ofArrays x0 x1 x2 x3 x4 x5 x6 x7 x8 x9 x10 x11 x12 x13 x14) r j :=
  (out_eq x0 x1 x2 x3 x4 x5 x6 x7 x8 x9 x10 x11 x12 x13 x14 r j).trans rfl

end Cert.RefValue

end
-- ==== Proof.RefKeep.lean ====
/-
  The reference program leaves its arguments alone.

  Each of the program's 141 host operations writes exactly one buffer, its result, and no result buffer is an
  argument. A buffer that is the result of none of the operations holds after them — after all of them, or after
  any part of them — what it held before.
-/
import proofs.«105723_j39608188403810_2_alg».proof.Proof.RunP

noncomputable section

namespace Cert.RefValue

open Cert.ReferenceIdeal Cert.ReferenceIdeal.Gen Cert.ReferenceIdeal.ValueP Idealize.ShloMosaic Idealize.ShloMosaic.TcCoe
open Idealize.ShloMosaic.StableHlo

variable {F : FTy → Type} [FloatOps F]

/-- The buffers the operations write, one per operation, in order. -/
abbrev writtenRef : List (Ref sig .tc) :=
  [main_v0, main_v1, main_v2, main_v3, main_v4, main_v5, main_call0_cst, main_call0_v0,
   main_v6, main_cst, main_v7, main_cst_0, main_v8, main_v9, main_v10, main_v11,
   main_v12, main_v13, main_cst_1, main_v14, main_cst_2, main_v15, main_v16, main_v17,
   main_v18, main_v19, main_cst_3, main_v20, main_v21, main_v22, main_v23, main_v24,
   main_v25, main_v26, main_v27, main_v28, main_v29, main_v30, main_v31, main_v32,
   main_v33, main_v34, main_v35, main_v36, main_v37, main_v38, main_call1_cst, main_call1_v0,
   main_v39, main_cst_4, main_v40, main_cst_5, main_v41, main_v42, main_v43, main_v44,
   main_v45, main_v46, main_cst_6, main_v47, main_cst_7, main_v48, main_v49, main_v50,
   main_v51, main_v52, main_cst_8, main_v53, main_v54, main_v55, main_v56, main_v57,
   main_v58, main_v59, main_v60, main_v61, main_v62, main_v63, main_v64, main_v65,
   main_v66, main_v67, main_v68, main_v69, main_v70, main_v71, main_call2_cst, main_call2_v0,
   main_v72, main_cst_9, main_v73, main_cst_10, main_v74, main_v75, main_v76, main_v77,
   main_v78, main_v79, main_cst_11, main_v80, main_cst_12, main_v81, main_v82, main_v83,
   main_v84, main_v85, main_cst_13, main_v86, main_v87, main_v88, main_v89, main_v90,
   main_v91, main_v92, main_v93, main_v94, main_v95, main_v96, main_v97, main_v98,
   main_v99, main_v100, main_v101, main_v102, main_v103, main_v104, main_call3_cst, main_call3_v0,
   main_call3_cst_0, main_call3_v1, main_call3_v2, main_call3_v3, main_call3_v4, main_call3_v5, main_call3_v6, main_call3_cst_1,
   main_call3_v7, main_call3_v8, main_call3_v9, main_call3_v10, main_v105]

theorem writesRef : (ops : List (HloOp τ sig (Elt F))).Forall fun op =>
    op.writes ⊆ (writtenRef.map (Proc.devRef (τ := τ) .tc)).toFinset := by
  simp only [ops, List.Forall, TRef.nullary, TRef.unary, TRef.binary, StableHlo.nullary_writes, StableHlo.unary_writes,
    StableHlo.binary_writes, Finset.singleton_subset_iff, List.mem_toFinset]
  repeat' apply And.intro
  all_goals exact List.mem_map_of_mem (by decide)

/-- A buffer no operation writes holds after the whole program what it held before. -/
theorem keepRef (V : Valuation τ sig (Elt F)) (b : Ref sig .tc) (hb : b ∉ writtenRef) :
    StableHlo.after (ops (F := F)) V b = V b :=
  StableHlo.after_of_writes_sub ops V writesRef hb

/-- The same for any list made of the program's operations. -/
theorem keepRef_of_mem (l : List (HloOp τ sig (Elt F))) (hl : ∀ op ∈ l, op ∈ (ops : List (HloOp τ sig (Elt F))))
    (V : Valuation τ sig (Elt F)) (b : Ref sig .tc) (hb : b ∉ writtenRef) : StableHlo.after l V b = V b :=
  StableHlo.after_of_writes_sub l V
    (List.forall_iff_forall_mem.mpr fun op h => List.forall_iff_forall_mem.mp writesRef op (hl op h)) hb

/-- The first k operations. -/
theorem keepRef_take (k : ℕ) (V : Valuation τ sig (Elt F)) (b : Ref sig .tc) (hb : b ∉ writtenRef) :
    StableHlo.after ((ops (F := F)).take k) V b = V b :=
  keepRef_of_mem _ (fun _ h => List.mem_of_mem_take h) V b hb

/-- All but the first k operations. -/
theorem keepRef_drop (k : ℕ) (V : Valuation τ sig (Elt F)) (b : Ref sig .tc) (hb : b ∉ writtenRef) :
    StableHlo.after ((ops (F := F)).drop k) V b = V b :=
  keepRef_of_mem _ (fun _ h => List.mem_of_mem_drop h) V b hb

/-- A window: n operations from the k-th on. -/
theorem keepRef_window (k n : ℕ) (V : Valuation τ sig (Elt F)) (b : Ref sig .tc) (hb : b ∉ writtenRef) :
    StableHlo.after (((ops (F := F)).drop k).take n) V b = V b :=
  keepRef_of_mem _ (fun _ h => List.mem_of_mem_drop (List.mem_of_mem_take h)) V b hb

/-! ### The fifteen arguments -/

theorem after_main_arg0 (V : Valuation τ sig (Elt F)) : StableHlo.after (ops (F := F)) V main_arg0 = V main_arg0 :=
  keepRef V main_arg0 (by decide)
theorem after_main_arg1 (V : Valuation τ sig (Elt F)) : StableHlo.after (ops (F := F)) V main_arg1 = V main_arg1 :=
  keepRef V main_arg1 (by decide)
theorem after_main_arg2 (V : Valuation τ sig (Elt F)) : StableHlo.after (ops (F := F)) V main_arg2 = V main_arg2 :=
  keepRef V main_arg2 (by decide)
theorem after_main_arg3 (V : Valuation τ sig (Elt F)) : StableHlo.after (ops (F := F)) V main_arg3 = V main_arg3 :=
  keepRef V main_arg3 (by decide)
theorem after_main_arg4 (V : Valuation τ sig (Elt F)) : StableHlo.after (ops (F := F)) V main_arg4 = V main_arg4 :=
  keepRef V main_arg4 (by decide)
theorem after_main_arg5 (V : Valuation τ sig (Elt F)) : StableHlo.after (ops (F := F)) V main_arg5 = V main_arg5 :=
  keepRef V main_arg5 (by decide)
theorem after_main_arg6 (V : Valuation τ sig (Elt F)) : StableHlo.after (ops (F := F)) V main_arg6 = V main_arg6 :=
  keepRef V main_arg6 (by decide)
theorem after_main_arg7 (V : Valuation τ sig (Elt F)) : StableHlo.after (ops (F := F)) V main_arg7 = V main_arg7 :=
  keepRef V main_arg7 (by decide)
theorem after_main_arg8 (V : Valuation τ sig (Elt F)) : StableHlo.after (ops (F := F)) V main_arg8 = V main_arg8 :=
  keepRef V main_arg8 (by decide)
theorem after_main_arg9 (V : Valuation τ sig (Elt F)) : StableHlo.after (ops (F := F)) V main_arg9 = V main_arg9 :=
  keepRef V main_arg9 (by decide)
theorem after_main_arg10 (V : Valuation τ sig (Elt F)) : StableHlo.after (ops (F := F)) V main_arg10 = V main_arg10 :=
  keepRef V main_arg10 (by decide)
theorem after_main_arg11 (V : Valuation τ sig (Elt F)) : StableHlo.after (ops (F := F)) V main_arg11 = V main_arg11 :=
  keepRef V main_arg11 (by decide)
theorem after_main_arg12 (V : Valuation τ sig (Elt F)) : StableHlo.after (ops (F := F)) V main_arg12 = V main_arg12 :=
  keepRef V main_arg12 (by decide)
theorem after_main_arg13 (V : Valuation τ sig (Elt F)) : StableHlo.after (ops (F := F)) V main_arg13 = V main_arg13 :=
  keepRef V main_arg13 (by decide)
theorem after_main_arg14 (V : Valuation τ sig (Elt F)) : StableHlo.after (ops (F := F)) V main_arg14 = V main_arg14 :=
  keepRef V main_arg14 (by decide)

end Cert.RefValue

end
-- ==== Proof.RefRunTail.lean ====
/-
  The end of the reference program's line: from the logits to the result.

  The last fifteen operations take the row maximum of the logits, subtract it, exponentiate, sum along the row, take
  the logarithm and subtract again. Run from any contents that hold the logits' stage in the logits' buffer, they
  leave the reference's last stage in the result buffer: each operation's result is its function applied to what its
  operand buffers hold, and those are the stages before it.

  The row maximum is a reduction whose definition is a fold over all 163840 entries of the logits. Comparing two
  such reductions must go through their operands and never through that fold, so the reduction is kept closed while
  the two sides are compared.
-/
import proofs.«105723_j39608188403810_2_alg».proof.Proof.RunP
import proofs.«105723_j39608188403810_2_alg».proof.Proof.ReadP

noncomputable section

namespace Cert.RefValue

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

/-- The operations after the first layer's forty, after the second layer's, after the third's. -/
abbrev restA : List (HloOp τ sig (Elt Ideal)) := (ops (F := Ideal)).drop 40
abbrev restB : List (HloOp τ sig (Elt Ideal)) := restA.drop 40
abbrev restC : List (HloOp τ sig (Elt Ideal)) := restB.drop 40
/-- The last fifteen: everything after the six operations that form the logits. -/
abbrev opsE : List (HloOp τ sig (Elt Ideal)) := restC.drop 6

attribute [local irreducible] Host.reduce in
/-- The last part, run from contents that hold the logits, leaves the result. -/
theorem partE (V : Valuation τ sig (Elt Ideal))
    (x0 : (⟨S16384x784, .f32⟩ : BufTy).Contents (Elt Ideal))
    (x1 : (⟨S4096x784, .f32⟩ : BufTy).Contents (Elt Ideal))
    (x2 : (⟨S4096, .f32⟩ : BufTy).Contents (Elt Ideal))
    (x3 : (⟨S4096, .f32⟩ : BufTy).Contents (Elt Ideal))
    (x4 : (⟨S4096, .f32⟩ : BufTy).Contents (Elt Ideal))
    (x5 : (⟨S4096x4096, .f32⟩ : BufTy).Contents (Elt Ideal))
    (x6 : (⟨S4096, .f32⟩ : BufTy).Contents (Elt Ideal))
    (x7 : (⟨S4096, .f32⟩ : BufTy).Contents (Elt Ideal))
    (x8 : (⟨S4096, .f32⟩ : BufTy).Contents (Elt Ideal))
    (x9 : (⟨S4096x4096, .f32⟩ : BufTy).Contents (Elt Ideal))
    (x10 : (⟨S4096, .f32⟩ : BufTy).Contents (Elt Ideal))
    (x11 : (⟨S4096, .f32⟩ : BufTy).Contents (Elt Ideal))
    (x12 : (⟨S4096, .f32⟩ : BufTy).Contents (Elt Ideal))
    (x13 : (⟨S10x4096, .f32⟩ : BufTy).Contents (Elt Ideal))
    (x14 : (⟨S10, .f32⟩ : BufTy).Contents (Elt Ideal))
    (hp : V main_v104 = val_main_v104 (F := Ideal) x0 x1 x2 x3 x4 x5 x6 x7 x8 x9 x10 x11 x12 x13 x14) :
    StableHlo.after opsE V main_v105 = val_main_v105 (F := Ideal) x0 x1 x2 x3 x4 x5 x6 x7 x8 x9 x10 x11 x12 x13 x14 := by
  simp only [opsE, restC, restB, restA, ops, List.drop_succ_cons, List.drop_zero]
  after_results_simp
  rw [hp]
  rfl

end Cert.RefValue

end
-- ==== Proof.RefRunValue.lean ====
/-
  The last buffer of the reference program's line, as a function of the arguments.

  Run in order from contents V, the 141 operations leave in each buffer the result of the operation that writes it,
  applied to what its operand buffers then hold. The line is read in five parts, cut after the three hidden layers'
  outputs and after the logits. Within a part every operation reads only the part's own results, the previous layer's output and a few
  arguments, so the part's last buffer is that layer's stage of the reference as a function of those; the arguments
  are written by no operation and so hold throughout what V holds. Put together, the last buffer holds the last stage
  of the reference at the fifteen arguments' contents in V.
-/
import proofs.«105723_j39608188403810_2_alg».proof.Proof.RunP
import proofs.«105723_j39608188403810_2_alg».proof.Proof.ReadP
import proofs.«105723_j39608188403810_2_alg».proof.Proof.RefKeep
import proofs.«105723_j39608188403810_2_alg».proof.Proof.RefRunTail
import Idealize.ShloMosaic.Lib.Pipeline.Frame

noncomputable section

namespace Cert.RefValue

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

/-- The first layer's operations, and what follows them. -/
abbrev opsA : List (HloOp τ sig (Elt Ideal)) := (ops (F := Ideal)).take 40
/-- The second layer's operations, and what follows them. -/
abbrev opsB : List (HloOp τ sig (Elt Ideal)) := restA.take 40
/-- The third layer's operations, and the six that form the logits. -/
abbrev opsC : List (HloOp τ sig (Elt Ideal)) := restB.take 40
abbrev opsD : List (HloOp τ sig (Elt Ideal)) := restC.take 6

theorem memA : ∀ op ∈ opsA, op ∈ (ops (F := Ideal)) := fun _ h => List.mem_of_mem_take h
theorem memB : ∀ op ∈ opsB, op ∈ (ops (F := Ideal)) := fun _ h => List.mem_of_mem_drop (List.mem_of_mem_take h)
theorem memC : ∀ op ∈ opsC, op ∈ (ops (F := Ideal)) := fun _ h =>
  List.mem_of_mem_drop (List.mem_of_mem_drop (List.mem_of_mem_take h))

/-- The whole line is its five parts in order. -/
theorem after_parts (V : Valuation τ sig (Elt Ideal)) :
    StableHlo.after (ops (F := Ideal)) V
      = StableHlo.after opsE (StableHlo.after opsD (StableHlo.after opsC (StableHlo.after opsB (StableHlo.after opsA V)))) := by
  have h : (ops (F := Ideal)) = opsA ++ (opsB ++ (opsC ++ (opsD ++ opsE))) :=
    (List.take_append_drop 40 _).symm.trans (congrArg (opsA ++ ·)
      ((List.take_append_drop 40 restA).symm.trans (congrArg (opsB ++ ·)
        ((List.take_append_drop 40 restB).symm.trans (congrArg (opsC ++ ·) (List.take_append_drop 6 restC).symm)))))
  rw [h, StableHlo.after_append, StableHlo.after_append, StableHlo.after_append, StableHlo.after_append]

/-- The first part leaves the first layer's output. -/
theorem partA (V : Valuation τ sig (Elt Ideal)) :
    StableHlo.after opsA V main_v32 = val_main_v32 (F := Ideal) (V main_arg0) (V main_arg1) (V main_arg2) (V main_arg3) (V main_arg4) := by
  simp only [opsA, ops, List.take_succ_cons, List.take_zero, List.drop_succ_cons, List.drop_zero]
  after_results_simp <;> rfl

/-- The second part, run from contents that hold the first layer's output, leaves the second layer's. -/
theorem partB (V : Valuation τ sig (Elt Ideal))
    (x0 : (⟨S16384x784, .f32⟩ : BufTy).Contents (Elt Ideal))
    (x1 : (⟨S4096x784, .f32⟩ : BufTy).Contents (Elt Ideal))
    (x2 : (⟨S4096, .f32⟩ : BufTy).Contents (Elt Ideal))
    (x3 : (⟨S4096, .f32⟩ : BufTy).Contents (Elt Ideal))
    (x4 : (⟨S4096, .f32⟩ : BufTy).Contents (Elt Ideal))
    (x5 : (⟨S4096x4096, .f32⟩ : BufTy).Contents (Elt Ideal))
    (x6 : (⟨S4096, .f32⟩ : BufTy).Contents (Elt Ideal))
    (x7 : (⟨S4096, .f32⟩ : BufTy).Contents (Elt Ideal))
    (x8 : (⟨S4096, .f32⟩ : BufTy).Contents (Elt Ideal))
    (hp : V main_v32 = val_main_v32 (F := Ideal) x0 x1 x2 x3 x4) (h5 : V main_arg5 = x5) (h6 : V main_arg6 = x6) (h7 : V main_arg7 = x7) (h8 : V main_arg8 = x8) :
    StableHlo.after opsB V main_v65 = val_main_v65 (F := Ideal) x0 x1 x2 x3 x4 x5 x6 x7 x8 := by
  simp only [opsB, restA, ops, List.take_succ_cons, List.take_zero, List.drop_succ_cons, List.drop_zero]
  after_results_simp
  rw [hp, h5, h6, h7, h8]
  rfl

/-- The third part, run from contents that hold the second layer's output, leaves the third layer's. -/
theorem partC (V : Valuation τ sig (Elt Ideal))
    (x0 : (⟨S16384x784, .f32⟩ : BufTy).Contents (Elt Ideal))
    (x1 : (⟨S4096x784, .f32⟩ : BufTy).Contents (Elt Ideal))
    (x2 : (⟨S4096, .f32⟩ : BufTy).Contents (Elt Ideal))
    (x3 : (⟨S4096, .f32⟩ : BufTy).Contents (Elt Ideal))
    (x4 : (⟨S4096, .f32⟩ : BufTy).Contents (Elt Ideal))
    (x5 : (⟨S4096x4096, .f32⟩ : BufTy).Contents (Elt Ideal))
    (x6 : (⟨S4096, .f32⟩ : BufTy).Contents (Elt Ideal))
    (x7 : (⟨S4096, .f32⟩ : BufTy).Contents (Elt Ideal))
    (x8 : (⟨S4096, .f32⟩ : BufTy).Contents (Elt Ideal))
    (x9 : (⟨S4096x4096, .f32⟩ : BufTy).Contents (Elt Ideal))
    (x10 : (⟨S4096, .f32⟩ : BufTy).Contents (Elt Ideal))
    (x11 : (⟨S4096, .f32⟩ : BufTy).Contents (Elt Ideal))
    (x12 : (⟨S4096, .f32⟩ : BufTy).Contents (Elt Ideal))
    (hp : V main_v65 = val_main_v65 (F := Ideal) x0 x1 x2 x3 x4 x5 x6 x7 x8) (h9 : V main_arg9 = x9) (h10 : V main_arg10 = x10) (h11 : V main_arg11 = x11) (h12 : V main_arg12 = x12) :
    StableHlo.after opsC V main_v98 = val_main_v98 (F := Ideal) x0 x1 x2 x3 x4 x5 x6 x7 x8 x9 x10 x11 x12 := by
  simp only [opsC, restB, restA, ops, List.take_succ_cons, List.take_zero, List.drop_succ_cons, List.drop_zero]
  after_results_simp
  rw [hp, h9, h10, h11, h12]
  rfl

/-- The fourth part, run from contents that hold the third layer's output, leaves the logits. -/
theorem partD (V : Valuation τ sig (Elt Ideal))
    (x0 : (⟨S16384x784, .f32⟩ : BufTy).Contents (Elt Ideal))
    (x1 : (⟨S4096x784, .f32⟩ : BufTy).Contents (Elt Ideal))
    (x2 : (⟨S4096, .f32⟩ : BufTy).Contents (Elt Ideal))
    (x3 : (⟨S4096, .f32⟩ : BufTy).Contents (Elt Ideal))
    (x4 : (⟨S4096, .f32⟩ : BufTy).Contents (Elt Ideal))
    (x5 : (⟨S4096x4096, .f32⟩ : BufTy).Contents (Elt Ideal))
    (x6 : (⟨S4096, .f32⟩ : BufTy).Contents (Elt Ideal))
    (x7 : (⟨S4096, .f32⟩ : BufTy).Contents (Elt Ideal))
    (x8 : (⟨S4096, .f32⟩ : BufTy).Contents (Elt Ideal))
    (x9 : (⟨S4096x4096, .f32⟩ : BufTy).Contents (Elt Ideal))
    (x10 : (⟨S4096, .f32⟩ : BufTy).Contents (Elt Ideal))
    (x11 : (⟨S4096, .f32⟩ : BufTy).Contents (Elt Ideal))
    (x12 : (⟨S4096, .f32⟩ : BufTy).Contents (Elt Ideal))
    (x13 : (⟨S10x4096, .f32⟩ : BufTy).Contents (Elt Ideal))
    (x14 : (⟨S10, .f32⟩ : BufTy).Contents (Elt Ideal))
    (hp : V main_v98 = val_main_v98 (F := Ideal) x0 x1 x2 x3 x4 x5 x6 x7 x8 x9 x10 x11 x12) (h13 : V main_arg13 = x13) (h14 : V main_arg14 = x14) :
    StableHlo.after opsD V main_v104 = val_main_v104 (F := Ideal) x0 x1 x2 x3 x4 x5 x6 x7 x8 x9 x10 x11 x12 x13 x14 := by
  simp only [opsD, restC, restB, restA, ops, List.take_succ_cons, List.take_zero, List.drop_succ_cons, List.drop_zero]
  after_results_simp
  rw [hp, h13, h14]
  rfl

/-- After the whole line the last buffer holds the last stage of the reference at the arguments' contents. -/
theorem value (V : Valuation τ sig (Elt Ideal)) :
    StableHlo.after (ops (F := Ideal)) V main_v105 = val_main_v105 (F := Ideal) (V main_arg0) (V main_arg1) (V main_arg2) (V main_arg3) (V main_arg4) (V main_arg5) (V main_arg6) (V main_arg7) (V main_arg8) (V main_arg9) (V main_arg10) (V main_arg11) (V main_arg12) (V main_arg13) (V main_arg14) := by
  have kA : ∀ b : Ref sig .tc, b ∉ writtenRef → StableHlo.after opsA V b = V b := fun b hb => keepRef_of_mem opsA memA V b hb
  have kB : ∀ b : Ref sig .tc, b ∉ writtenRef → StableHlo.after opsB (StableHlo.after opsA V) b = V b := fun b hb =>
    (keepRef_of_mem opsB memB _ b hb).trans (kA b hb)
  have kC : ∀ b : Ref sig .tc, b ∉ writtenRef →
      StableHlo.after opsC (StableHlo.after opsB (StableHlo.after opsA V)) b = V b := fun b hb =>
    (keepRef_of_mem opsC memC _ b hb).trans (kB b hb)
  rw [after_parts]
  exact partE _ _ _ _ _ _ _ _ _ _ _ _ _ _ _ _ (partD _ _ _ _ _ _ _ _ _ _ _ _ _ _ _ _
    (partC _ _ _ _ _ _ _ _ _ _ _ _ _ _
      (partB _ _ _ _ _ _ _ _ _ _ (partA V)
        (kA main_arg5 (by decide)) (kA main_arg6 (by decide)) (kA main_arg7 (by decide)) (kA main_arg8 (by decide)))
      (kB main_arg9 (by decide)) (kB main_arg10 (by decide)) (kB main_arg11 (by decide)) (kB main_arg12 (by decide)))
    (kC main_arg13 (by decide)) (kC main_arg14 (by decide)))

end Cert.RefValue

end
-- ==== Proof.RefRun.lean ====
/-
  The reference program's run.

  The program is a straight line of host operations on each device, so from any memory with zero counters every weakly
  fair execution terminates, and every buffer ends at what the operations, run in order from the launch contents, leave
  in it. The last buffer then holds the last stage of the reference at the fifteen arguments as launched, and each
  argument, written by no operation, holds what it was launched with.
-/
import proofs.«105723_j39608188403810_2_alg».proof.Proof.RefRunValue

noncomputable section

namespace Cert.RefValue

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

/-- On every device, from any memory with zero counters: every weakly fair execution of the reference program
    terminates with its result buffer at the reference's last stage of the arguments, and the arguments unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v105)
          = Cert.ReferenceIdeal.ReadP.val_main_v105 (F := Ideal)
              (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run Cert.ReferenceIdeal.defs _ _).mono (fun _ h c => ⟨(h c main_v105).trans (value (launchContents m c)),
      (h c main_arg0).trans (after_main_arg0 (launchContents m c)),
      (h c main_arg1).trans (after_main_arg1 (launchContents m c)),
      (h c main_arg2).trans (after_main_arg2 (launchContents m c)),
      (h c main_arg3).trans (after_main_arg3 (launchContents m c)),
      (h c main_arg4).trans (after_main_arg4 (launchContents m c)),
      (h c main_arg5).trans (after_main_arg5 (launchContents m c)),
      (h c main_arg6).trans (after_main_arg6 (launchContents m c)),
      (h c main_arg7).trans (after_main_arg7 (launchContents m c)),
      (h c main_arg8).trans (after_main_arg8 (launchContents m c)),
      (h c main_arg9).trans (after_main_arg9 (launchContents m c)),
      (h c main_arg10).trans (after_main_arg10 (launchContents m c)),
      (h c main_arg11).trans (after_main_arg11 (launchContents m c)),
      (h c main_arg12).trans (after_main_arg12 (launchContents m c)),
      (h c main_arg13).trans (after_main_arg13 (launchContents m c)),
      (h c main_arg14).trans (after_main_arg14 (launchContents m c))⟩)
    (run_seq scopedRefs_eq scopedSems_eq Cert.ReferenceIdeal.defs main (fun _ => ops) main_eq (fun _ => ops_sub) m ρ)

end Cert.RefValue

end
-- ==== Proof.lean ====
/-
  A four-layer binarized perceptron: three hidden layers, each a product with the signs of a weight matrix, a bias,
  a rectifier, batch normalisation over the 16384 rows and a sign, then an output layer followed by a log-softmax
  along its ten columns.

  The kernel computes each hidden layer in one region that also leaves, for each half of the batch, the column sums
  and sums of squares of the rectified output; host operations add the halves, form the mean and the variance as the
  mean of squares less the squared mean, and fold the normalisation into an affine pair (scale, shift) that the next
  region applies together with the sign. The reference normalises with the mean of the squared deviations and applies
  `(p − mean) · rsqrt (var + ε) · γ + β`. On the extended reals the two arrangements agree when every input is a real
  number: the two variances are then one non-negative real, `var + ε` is positive, its inverse square root is a real
  number, and the rest is distributivity — which is where finiteness is used, since distributivity fails at the
  infinities. The signs, the products, the rectifier and the log-softmax are the same functions on both sides.
-/
import proofs.«105723_j39608188403810_2_alg».proof.Defs
import proofs.«105723_j39608188403810_2_alg».proof.Proof.Gen.Kernel
import proofs.«105723_j39608188403810_2_alg».proof.Proof.Gen.Kernel.Skeleton
import proofs.«105723_j39608188403810_2_alg».proof.Proof.Gen.Kernel.Launch
import proofs.«105723_j39608188403810_2_alg».proof.Proof.Gen.Kernel.Points
import proofs.«105723_j39608188403810_2_alg».proof.Proof.Gen.Kernel.Frame
import proofs.«105723_j39608188403810_2_alg».proof.Proof.Gen.KernelIdeal
import proofs.«105723_j39608188403810_2_alg».proof.Proof.Gen.KernelIdeal.Skeleton
import proofs.«105723_j39608188403810_2_alg».proof.Proof.Gen.KernelIdeal.Launch
import proofs.«105723_j39608188403810_2_alg».proof.Proof.Gen.KernelIdeal.Points
import proofs.«105723_j39608188403810_2_alg».proof.Proof.Gen.KernelIdeal.Frame
import proofs.«105723_j39608188403810_2_alg».proof.Proof.Gen.ReferenceIdeal
import proofs.«105723_j39608188403810_2_alg».proof.Proof.Gen.Pre_finite_inputs
import proofs.«105723_j39608188403810_2_alg».proof.Proof.KernelRun
import proofs.«105723_j39608188403810_2_alg».proof.Proof.ChainAll
import proofs.«105723_j39608188403810_2_alg».proof.Proof.LayerLaw
import proofs.«105723_j39608188403810_2_alg».proof.Proof.FiniteArgs
import proofs.«105723_j39608188403810_2_alg».proof.Proof.RefOut
import proofs.«105723_j39608188403810_2_alg».proof.Proof.RefRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.RefValue.run m ρ)

/-- The three sign windows: at the exact instance, 1.0 carrying a value's sign bit is -1 below zero and 1 otherwise. -/
theorem preserves : Cert.preserves_Kernel_KernelIdeal :=
  ⟨IdealRules.sign_bit.statement Cert.KernelIdeal.S64x4096 .f32,
   IdealRules.sign_bit.statement Cert.KernelIdeal.S64x4096 .f32,
   IdealRules.sign_bit.statement Cert.KernelIdeal.S512x4096 .f32⟩

/-- Both programs end, the kernel's result array at the network in the affine arrangement, the reference's at the
    network in the centred arrangement, of arguments that agree; the arguments are real numbers, so the two are equal. -/
theorem algebraic : Cert.algebraic_KernelIdeal_ReferenceIdeal := by
  intro m ρ m' ρ' hpre hagree
  refine ⟨fun c => Cert.KernelIdeal.Gen.W8 m ρ c (Proc.devRef .tc Cert.KernelIdeal.main_v80),
    Cert.KernelIdeal.RunValue.run (F := Ideal) m ρ, ?_⟩
  refine (θ_run Cert.ReferenceIdeal.defs _ _).mono (fun _ h c => ⟨(h c).1.trans ?_, (h c).2⟩) (Cert.RefValue.run m' ρ')
  funext i
  obtain ⟨r, j, rfl⟩ : ∃ (r : Fin 16384) (j : Fin 10), i = ValueIdx.ix2 r j := ⟨i 0, i 1, ValueIdx.eq_ix2 i⟩
  have hA : Cert.Layer.Args.ofArrays
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      = Cert.KernelIdeal.Chain.args m c := by
    obtain ⟨h0, h1, h2, h3, h4, h5, h6, h7, h8, h9, h10, h11, h12, h13, h14⟩ := hagree c
    unfold Cert.KernelIdeal.Chain.args
    rw [h0, h1, h2, h3, h4, h5, h6, h7, h8, h9, h10, h11, h12, h13, h14]
  have hfin : (Cert.KernelIdeal.Chain.args m c).Finite :=
    Cert.FiniteArgs.finite_of_pre _ _ _ _ _ _ _ _ _ _ _ _ _ _ _ (hpre c)
  refine (Cert.RefValue.result_eq _ _ _ _ _ _ _ _ _ _ _ _ _ _ _ r j).trans ?_
  rw [hA, ← Cert.Layer.netAffine_eq_netCentred _ hfin]
  exact (Cert.KernelIdeal.Chain.kernel_value m ρ c r j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
